-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256 : Shape := ⟨1, ![256]⟩
abbrev S2x131072 : Shape := ⟨2, ![2, 131072]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S256x256 .f32) (main_arg2 : FVec F S256 .f32) (main_arg3 : FVec F S256 .f32) (main_arg4 : IVec S2x131072 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S256x256 : Shape := ⟨2, ![256, 256]⟩
abbrev S256 : Shape := ⟨1, ![256]⟩
abbrev S2x131072 : Shape := ⟨2, ![2, 131072]⟩
abbrev S_ : Shape := ⟨0, ![]⟩
abbrev S8192x8192 : Shape := ⟨2, ![8192, 8192]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S1x256 : Shape := ⟨2, ![1, 256]⟩
abbrev S1024x256 : Shape := ⟨2, ![1024, 256]⟩

abbrev nBuf : Space → Nat
  | .hbm => 49
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S2x131072, .i32⟩
  | .hbm, ⟨5, _⟩ => ⟨S_, .bf16⟩
  | .hbm, ⟨6, _⟩ => ⟨S8192x8192, .bf16⟩
  | .hbm, ⟨7, _⟩ => ⟨S1x131072, .i32⟩
  | .hbm, ⟨8, _⟩ => ⟨S131072, .i32⟩
  | .hbm, ⟨9, _⟩ => ⟨S1x131072, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x1, .i32⟩
  | .hbm, ⟨27, _⟩ => ⟨S131072x2, .i32⟩
  | .hbm, ⟨28, _⟩ => ⟨S_, .bf16⟩
  | .hbm, ⟨29, _⟩ => ⟨S131072, .bf16⟩
  | .hbm, ⟨30, _⟩ => ⟨S8192x8192, .bf16⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .i1⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x256, .f32⟩
  | .hbm, ⟨44, _⟩ => ⟨S8192x256, .f32⟩
  | .hbm, ⟨45, _⟩ => ⟨S8192x256, .bf16⟩
  | .hbm, ⟨46, _⟩ => ⟨S1x256, .f32⟩
  | .hbm, ⟨47, _⟩ => ⟨S1x256, .f32⟩
  | .hbm, ⟨48, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1024, .bf16⟩
  | .local _ .vmem, ⟨6, _⟩ => ⟨S1024x1024, .bf16⟩
  | .local _ .vmem, ⟨7, _⟩ => ⟨S8192x256, .bf16⟩
  | .local _ .vmem, ⟨8, _⟩ => ⟨S1024x1, .f32⟩
  | .local _ .vmem, ⟨9, _⟩ => ⟨S1024x1, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let arg0 : BitVec 32 := BitVec.ofNat 32 (i 0).val
  let v16 : BitVec 1 := Scalar.cmpi .eq arg1 arg0
  let v17 : BitVec 32 := Scalar.extui v16
  let c0_i32_7 : BitVec 32 := 0#32
  let v18 : BitVec 1 := Scalar.cmpi .ne v17 c0_i32_7
  v18

def k1_mult2 (i : grid1.Coords) : BitVec 32 :=
  let arg0 : BitVec 32 := BitVec.ofNat 32 (i 0).val
  let c1024_i32_9 : BitVec 32 := 1024#32
  let v22 : BitVec 32 := Scalar.muli arg0 c1024_i32_9
  v22
def k1_off2 (i : grid1.Coords) : Fin 2 → Nat :=
  let arg0 : BitVec 32 := BitVec.ofNat 32 (i 0).val
  let c1024_i32_9 : BitVec 32 := 1024#32
  let v22 : BitVec 32 := Scalar.muli arg0 c1024_i32_9
  let v23 : BitVec 32 := v22
  let v24 : Index := Scalar.indexCast v23
  let c0_10 : Index := 0#32
  ![v24.toNat, 0]
def k1_cond3 (i : grid1.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_8 : BitVec 32 := 0#32
  let v21 : BitVec 1 := Scalar.cmpi .ne v20 c0_i32_8
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bcast_S_S8192x8192 : S_.BroadcastsInDim S8192x8192 (![] : Fin 0 → Fin S8192x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  scatter_S8192x8192_S131072x2_S131072_n_01_01_1_wf : ScatterDims.WF S8192x8192 S131072x2 S131072 [] [0, 1] [0, 1] 1
  dot_S1024x1024_S1024x256_S1024x256_1_0_0_1_n_n_wf : DotDims.WF S1024x1024 S1024x256 S1024x256 [1] [0] [0] [1] [] []
  dot_S1024x256_S256x256_S1024x256_1_1_0_0_n_n_wf : DotDims.WF S1024x256 S256x256 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v19) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond3 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S256 : Shape := ⟨1, ![256]⟩
abbrev S2x131072 : Shape := ⟨2, ![2, 131072]⟩
abbrev S_ : Shape := ⟨0, ![]⟩
abbrev S8192x8192 : Shape := ⟨2, ![8192, 8192]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S8192x2 : Shape := ⟨2, ![8192, 2]⟩
abbrev S1x8192 : Shape := ⟨2, ![1, 8192]⟩
abbrev S1x256 : Shape := ⟨2, ![1, 256]⟩

abbrev nBuf : Space → Nat
  | .hbm => 80
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S2x131072, .i32⟩
  | .hbm, ⟨5, _⟩ => ⟨S_, .f32⟩
  | .hbm, ⟨6, _⟩ => ⟨S8192x8192, .f32⟩
  | .hbm, ⟨7, _⟩ => ⟨S1x131072, .i32⟩
  | .hbm, ⟨8, _⟩ => ⟨S131072, .i32⟩
  | .hbm, ⟨9, _⟩ => ⟨S1x131072, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x1, .i32⟩
  | .hbm, ⟨27, _⟩ => ⟨S131072x2, .i32⟩
  | .hbm, ⟨28, _⟩ => ⟨S_, .f32⟩
  | .hbm, ⟨29, _⟩ => ⟨S131072, .f32⟩
  | .hbm, ⟨30, _⟩ => ⟨S8192x8192, .f32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S8192x1, .i32⟩
  | .hbm, ⟨48, _⟩ => ⟨S8192x2, .i32⟩
  | .hbm, ⟨49, _⟩ => ⟨S_, .f32⟩
  | .hbm, ⟨50, _⟩ => ⟨S8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .i1⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192x1, .f32⟩
  | .hbm, ⟨66, _⟩ => ⟨S8192x8192, .f32⟩
  | .hbm, ⟨67, _⟩ => ⟨S8192x8192, .f32⟩
  | .hbm, ⟨68, _⟩ => ⟨S1x8192, .f32⟩
  | .hbm, ⟨69, _⟩ => ⟨S8192x8192, .f32⟩
  | .hbm, ⟨70, _⟩ => ⟨S8192x8192, .f32⟩
  | .hbm, ⟨71, _⟩ => ⟨S8192x256, .f32⟩
  | .hbm, ⟨72, _⟩ => ⟨S256x256, .f32⟩
  | .hbm, ⟨73, _⟩ => ⟨S8192x256, .f32⟩
  | .hbm, ⟨74, _⟩ => ⟨S1x256, .f32⟩
  | .hbm, ⟨75, _⟩ => ⟨S8192x256, .f32⟩
  | .hbm, ⟨76, _⟩ => ⟨S8192x256, .f32⟩
  | .hbm, ⟨77, _⟩ => ⟨S1x256, .f32⟩
  | .hbm, ⟨78, _⟩ => ⟨S8192x256, .f32⟩
  | .hbm, ⟨79, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_call0_v0 : Ref sig .tc := ⟨.hbm, 62, rfl⟩
abbrev main_call0_v1 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  scatter_S8192x8192_S131072x2_S131072_n_01_01_1_wf : ScatterDims.WF S8192x8192 S131072x2 S131072 [] [0, 1] [0, 1] 1
  scatter_S8192x8192_S8192x2_S8192_n_01_01_1_wf : ScatterDims.WF S8192x8192 S8192x2 S8192 [] [0, 1] [0, 1] 1
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.KB.Conds.lean ====
/- The branch conditions of the two kernel bodies over the grid coordinates, their closed forms over the
   64 grid points (row-major, t = 8*i + k), and where each window of the two pipelines is idle or live. -/
import proofs.«114961_j26431228739923_2_alg».proof.Proof.Gen.Kernel.Launch
import proofs.«114961_j26431228739923_2_alg».proof.Proof.Gen.Kernel.Skeleton
import proofs.«114961_j26431228739923_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The degree kernel's branch conditions -/

/-- The condition of the degree kernel's first `scf.if` (k = 0: reset the accumulator). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the degree kernel's second `scf.if` (k = 7: store the output). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The aggregation kernel's branch conditions -/

/-- The condition of the aggregation kernel's first `scf.if` (k = 0: reset the accumulator). -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the aggregation kernel's second `scf.if` (k = i: add the diagonal rows). -/
abbrev cond1_1 (i : grid1.Coords) : Prop := k1_cond2 i = 1#1
/-- It holds at the points ≡ 0 (mod 9) (t = 8*i + k with k = i). -/
theorem hcond1_1 : ∀ t : Fin cfg1.N, cond1_1 (grid1.coords t) ↔ t.val % 9 = 0 :=
  (by decide +kernel : ∀ t : Fin grid1.N, cond1_1 (grid1.coords t) ↔ t.val % 9 = 0)

/-- The condition of the aggregation kernel's third `scf.if` (k = 7: finalize and store the output). -/
abbrev cond1_2 (i : grid1.Coords) : Prop := k1_cond3 i = 1#1
/-- It holds at the points ≡ 7 (mod 8). -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

/-- Window 0 of the degree pipeline (its input) is never idle. -/
theorem liveAt0_0 : ∀ t : Fin cfg0.N, cfg0.idle 0 (grid0.coords t) = false := by decide +kernel
/-- Away from k = 7 the degree pipeline's output window is idle: nothing is stored into it. -/
theorem idleAt0_1 : ∀ t : Fin cfg0.N, ¬cond0_1 (grid0.coords t) → cfg0.idle 1 (grid0.coords t) = true := by decide +kernel
/-- Away from k = 7 the degree pipeline does not write its output block back. -/
theorem noFlush0_1 : ∀ t : Fin cfg0.N, ¬cond0_1 (grid0.coords t) → (cfg0.win 1).flush t = false := by decide +kernel
/-- At k = 7 the degree pipeline's output window is live. -/
theorem liveAt0_1 : ∀ t : Fin cfg0.N, cond0_1 (grid0.coords t) → cfg0.idle 1 (grid0.coords t) = false := by decide +kernel

/-- The six input windows of the aggregation pipeline are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from k = 7 the aggregation pipeline's output window is idle: nothing is stored into it. -/
theorem idleAt1_6 : ∀ t : Fin cfg1.N, ¬cond1_2 (grid1.coords t) → cfg1.idle 6 (grid1.coords t) = true := by decide +kernel
/-- Away from k = 7 the aggregation pipeline does not write its output block back. -/
theorem noFlush1_6 : ∀ t : Fin cfg1.N, ¬cond1_2 (grid1.coords t) → (cfg1.win 6).flush t = false := by decide +kernel
/-- At k = 7 the aggregation pipeline's output window is live. -/
theorem liveAt1_6 : ∀ t : Fin cfg1.N, cond1_2 (grid1.coords t) → cfg1.idle 6 (grid1.coords t) = false := by decide +kernel

end Cert.Kernel.Hand

end
-- ==== Proof.KB.Kit.lean ====
/-
  What both kernels' frame proofs share, at a parameter `V` (the TensorCore's buffer contents when a region is
  entered): each window's block at a grid point as the read of its array through the block's view; that an input
  window's staging buffer holds that block at every point, fetched there or not; the staging and scratch memrefs
  the pipeline calls the body with; and the region invariant split into the carried scratch accumulator, the other
  scoped buffers and the generator register.
-/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 (the row-degree kernel): windows 0 (adjacency block, input) and 1 (degree column block, output) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Region 1 (the normalized product and the linear layer): input windows 0–5, output window 6 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The memrefs the pipeline calls the bodies with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The degree kernel's accumulator: a whole scoped buffer of its own. -/
abbrev scM0_0 : Memref sig .tc .vmem S1024x1 .f32 := Memref.whole cc0_scratch0
abbrev VS0_0 : View sig .tc .vmem S1024x1 .f32 := scM0_0.view
abbrev VO0_1 : View sig .tc .vmem S1024x1 .f32 := (Memref.whole cc0_stg1_0 : Memref sig .tc .vmem S1024x1 .f32).view

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x256 .f32 := win1_6.stage (cfg1.slots t 6)
abbrev hs1_6 (t : Fin cfg1.N) : (ms1_6 t).IsWhole := hstage1_6 ((cfg1.slots t 6).cast nbuf1_6)
/-- The product kernel's accumulator. -/
abbrev scM1_0 : Memref sig .tc .vmem S1024x256 .f32 := Memref.whole cc1_scratch0
abbrev VS1_0 : View sig .tc .vmem S1024x256 .f32 := scM1_0.view
abbrev VO1_6 : View sig .tc .vmem S1024x256 .f32 := (Memref.whole cc1_stg6_0 : Memref sig .tc .vmem S1024x256 .f32).view

/-! ## The region invariants, split -/

/-- Region 0's scoped buffers that are no staging buffer of its own: its accumulator (at `S`) and the second
    kernel's staging and scratch buffers, each at some contents. -/
def scoped0 (c : Dev nD) (S : sProp 𝕄) : sProp 𝕄 :=
  iprop(S ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄) = iprop(scoped0 c (iprop(∃ d, owns (c : Thread nD τ) scM0_0 fullShare d)) ∗ (∃ r, prngReg c r)) := by
  unfold Pipeline.ΦA scoped0; rw [scopedRest0_eq]; simp only [scM0_0, owns_whole]; try rfl

/-- Region 1's: the first kernel's staging and scratch buffers at some contents and its own accumulator (at `S`). -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S)

theorem PhiA1_eq (c : Dev nD) :
    (Pipeline.ΦA spec1 c : sProp 𝕄) = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.Kernel.Hand

end
-- ==== Proof.KB.Run0A.lean ====
/- The degree kernel's body run symbolically, case k = 0. -/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body at a point with k = 0 (and k ≠ 7): the accumulator, at anything on entry, is reset and then receives the block's row sums; the output buffer is untouched and handed back at its entry contents. The pieces the accumulator ends with are the witness the symbolic run finds. -/
noncomputable def kernelRun0_A (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .bf16) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.KB.Run0B.lean ====
/- The degree kernel's body run symbolically, case 0 < k < 7. -/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body at a point with 0 < k < 7: the accumulator, at `xs0` on entry, receives the block's row sums added; the output buffer is untouched and handed back at its entry contents. The pieces the accumulator ends with are the witness the symbolic run finds. -/
noncomputable def kernelRun0_B (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .bf16) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.KB.Run0C.lean ====
/- The degree kernel's body run symbolically, case k = 7. -/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body at a point with k = 7 (and k ≠ 0): the accumulator, at `xs0` on entry, receives the block's row sums added, and the output buffer, at anything on entry, is stored the accumulator plus one. The pieces both end with are the witness the symbolic run finds. -/
noncomputable def kernelRun0_C (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.KB.Data0.lean ====
/-
  The row-degree kernel's frame data at a parameter `V` (the buffer contents when its region is entered): what each
  control case leaves in the accumulator and in the output block, the accumulator point by point (reset at the first
  column block of a row block, added to at the others), the output block stored at the last column block, the region
  invariant carrying the accumulator from one grid point to the next, the proof data and the body obligation.
-/
import proofs.«114961_j26431228739923_2_alg».proof.Proof.KB.Kit
import proofs.«114961_j26431228739923_2_alg».proof.Proof.KB.Run0A
import proofs.«114961_j26431228739923_2_alg».proof.Proof.KB.Run0B
import proofs.«114961_j26431228739923_2_alg».proof.Proof.KB.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first column block the accumulator's stores cover it. -/
theorem scover0_A_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .bf16) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y

/-- What a first column block leaves in the accumulator. -/
def sout0_A_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .bf16) : Vec F S1024x1 .f32 :=
  VS0_0.read (Elt F) (VS0_0.writes (Elt F) VS0_0.junk (kernelRun0_A c i arg2 harg2 arg3 harg3 arg4 harg4 hc0 hc1 x0).2.1)

theorem scover0_B_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .bf16) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y

/-- What a middle column block leaves in the accumulator, from what the block before left. -/
def sout0_B_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .bf16) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

theorem scover0_C_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

/-- What the last column block leaves in the accumulator. -/
def sout0_C_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

theorem cover0_C_1 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

/-- What the last column block stores into the output block. -/
def out0_C_1 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

section Regions
variable (V : (c : Dev nD) → (b : Ref sig .tc) → Buf (Elt F) ((c : Thread nD τ).loc b))

/-! ## The accumulator and the output block, point by point -/

/-- The accumulator after the body at position `n` of the grid (row-major; the column block is `n % 8`): reset and
    added to at a first column block, added to at the others over what position `n - 1` left. -/
def accAt0 (c : Dev nD) : (n : ℕ) → n < cfg0.N → Vec F S1024x1 .f32
  | 0, hn => sout0_A_0 c (grid0.coords ⟨0, hn⟩) (ms0_0 ⟨0, hn⟩) (hs0_0 ⟨0, hn⟩) (ms0_1 ⟨0, hn⟩) (hs0_1 ⟨0, hn⟩) scM0_0 (Memref.isWhole_whole _)
      ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 8 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _)
        ((hcond0_0 ⟨n + 1, hn⟩).mpr h0) (fun h => (fun h => by (try dsimp only at h); omega) ((hcond0_1 ⟨n + 1, hn⟩).mp h)) (iblk0 V c 0 ⟨n + 1, hn⟩)
    else if h1 : (n + 1) % 8 = 7 then
      sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _)
        (fun h => h0 ((hcond0_0 ⟨n + 1, hn⟩).mp h)) ((hcond0_1 ⟨n + 1, hn⟩).mpr h1) (iblk0 V c 0 ⟨n + 1, hn⟩) (accAt0 c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _)
        (fun h => h0 ((hcond0_0 ⟨n + 1, hn⟩).mp h)) (fun h => h1 ((hcond0_1 ⟨n + 1, hn⟩).mp h)) (iblk0 V c 0 ⟨n + 1, hn⟩) (accAt0 c n (Nat.lt_of_succ_lt hn))

theorem accAt0_A (c : Dev nD) (t : Fin cfg0.N) (h0 : t.val % 8 = 0) (h1 : ¬t.val % 8 = 7) :
    accAt0 V c t.val t.isLt = sout0_A_0 c (grid0.coords t) (ms0_0 t) (hs0_0 t) (ms0_1 t) (hs0_1 t) scM0_0 (Memref.isWhole_whole _)
      ((hcond0_0 t).mpr h0) (fun h => h1 ((hcond0_1 t).mp h)) (iblk0 V c 0 t) := by
  obtain ⟨n, hn⟩ := t
  cases n with
  | zero => exact rfl
  | succ n => exact (dif_pos h0).trans rfl

theorem accAt0_B (c : Dev nD) (t : Fin cfg0.N) (h0 : ¬t.val % 8 = 0) (h1 : ¬t.val % 8 = 7) :
    accAt0 V c t.val t.isLt = sout0_B_0 c (grid0.coords t) (ms0_0 t) (hs0_0 t) (ms0_1 t) (hs0_1 t) scM0_0 (Memref.isWhole_whole _)
      (fun h => h0 ((hcond0_0 t).mp h)) (fun h => h1 ((hcond0_1 t).mp h)) (iblk0 V c 0 t)
      (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 8 = 0) (h1 : t.val % 8 = 7) :
    accAt0 V c t.val t.isLt = sout0_C_0 c (grid0.coords t) (ms0_0 t) (hs0_0 t) (ms0_1 t) (hs0_1 t) scM0_0 (Memref.isWhole_whole _)
      (fun h => h0 ((hcond0_0 t).mp h)) ((hcond0_1 t).mpr h1) (iblk0 V c 0 t)
      (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: at a last column block what that case stores over
    the accumulator the point before left; elsewhere the window is idle and nothing reads this (a placeholder). -/
def outAt0 (c : Dev nD) (t : Fin cfg0.N) : Vec F S1024x1 .f32 :=
  if h1 : t.val % 8 = 7 then
    out0_C_1 c (grid0.coords t) (ms0_0 t) (hs0_0 t) (ms0_1 t) (hs0_1 t) scM0_0 (Memref.isWhole_whole _)
      (fun h => (by omega : ¬t.val % 8 = 0) ((hcond0_0 t).mp h)) ((hcond0_1 t).mpr h1) (iblk0 V c 0 t)
      (accAt0 V c (t.val - 1) (Nat.lt_of_le_of_lt (Nat.sub_le _ _) t.isLt))
  else VO0_1.read (Elt F) VO0_1.junk

/-! ## The region invariant: the accumulator carried from point to point -/

/-- Before position `n`: at the region's entry the scoped buffers at anything; afterwards the accumulator at what
    position `n - 1` left, the other scoped buffers at anything, the generator register at some state. -/
def PhiS0 (c : Dev nD) : (n : ℕ) → n ≤ cfg0.N → sProp 𝕄
  | 0, _ => Pipeline.ΦA spec0 c
  | n + 1, hn => iprop(scoped0 c (owns (c : Thread nD τ) scM0_0 fullShare (accAt0 V c n hn)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(scoped0 c (owns (c : Thread nD τ) scM0_0 fullShare (accAt0 V c n hn)) ∗ (∃ r, prngReg c r)) := rfl

theorem PhiS0_pos (c : Dev nD) (n : ℕ) (h : n ≤ cfg0.N) (hz : n ≠ 0) :
    PhiS0 V c n h = iprop(scoped0 c (owns (c : Thread nD τ) scM0_0 fullShare (accAt0 V c (n - 1) (by omega))) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the column block decides the case; the invariant hands the body the accumulator at what the
    point before left (at anything where it is reset) and takes it back at this point's contents; the output block is
    handed back untouched except at the last column block, where it is stored. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 1 t (idleAt0_1 t hc1) (noFlush0_1 t hc1)]
    rw [accAt0_A V c t h0 h1]
    unfold sout0_A_0; (try dsimp only)
    by_cases hz : t.val = 0
    · rw [PhiS0_castSucc V c t, PhiS0_zero V c _ _ hz, PhiA0_eq]; unfold scoped0
      iintro ⟨⟨⟨HS0, Hrest⟩, Hg⟩, Ho, ⟨%d0, H0⟩, ⟨%d1, H1⟩⟩
      iapply ((kernelRun0_A c (grid0.coords t) _ _ _ _ _ _ hc0 hc1 (iblk0 V c 0 t)).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _)
          iexact Hrest
        iexact Hg
      isplitl [Ho]; · iexact Ho
      isplitl [H0]; · iexact H0
      iexists _; iexact H1
    · rw [PhiS0_castSucc V c t, PhiS0_pos V c _ _ hz]; unfold scoped0
      iintro ⟨⟨⟨HS0, Hrest⟩, Hg⟩, Ho, ⟨%d0, H0⟩, ⟨%d1, H1⟩⟩
      iapply ((kernelRun0_A c (grid0.coords t) _ _ _ _ _ _ hc0 hc1 (iblk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _)
          iexact Hrest
        iexact Hg
      isplitl [Ho]; · iexact Ho
      isplitl [H0]; · iexact H0
      iexists _; iexact H1
  · have hz : t.val ≠ 0 := fun e => h0 (by rw [e])
    have hnc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [accAt0_C V c t h0 h1, show outAt0 V c t = _ from dif_pos h1]
      unfold out0_C_1 sout0_C_0; (try dsimp only)
      rw [PhiS0_castSucc V c t, PhiS0_pos V c _ _ hz]; unfold scoped0
      iintro ⟨⟨⟨HS0, Hrest⟩, Hg⟩, Ho, ⟨%d0, H0⟩, ⟨%d1, H1⟩⟩
      iapply ((kernelRun0_C c (grid0.coords t) _ _ _ _ _ _ hnc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1)]
      rw [accAt0_B V c t h0 h1]
      unfold sout0_B_0; (try dsimp only)
      rw [PhiS0_castSucc V c t, PhiS0_pos V c _ _ hz]; unfold scoped0
      iintro ⟨⟨⟨HS0, Hrest⟩, Hg⟩, Ho, ⟨%d0, H0⟩, ⟨%d1, H1⟩⟩
      iapply ((kernelRun0_B c (grid0.coords t) _ _ _ _ _ _ hnc0 hc1 (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _)
          iexact Hrest
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]; unfold scoped0
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Regions

end Cert.Kernel.Hand

end
-- ==== Proof.KB.Run1A.lean ====
/- The aggregation kernel's body run symbolically, case k = 0 = i. -/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with k = 0 = i (and k ≠ 7): the accumulator, at anything on entry, is reset, receives the product of the adjacency block with the operand's rows of block k, and then the operand's diagonal rows (block i) added; the output buffer is untouched and handed back at its entry contents. The six inputs are owned at their contents throughout. The pieces the accumulator ends with are the witness the symbolic run finds. -/
noncomputable def kernelRun1_A (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : cond1_0 i) (hc1 : cond1_1 i) (hc2 : ¬cond1_2 i)
    (x0 : Vec F S1024x1024 .bf16) (x1 : Vec F S8192x256 .bf16) (x2 : Vec F S1024x1 .f32) (x3 : Vec F S256x256 .f32) (x4 : Vec F S1x256 .f32) (x5 : Vec F S1x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.KB.Run1B.lean ====
/- The aggregation kernel's body run symbolically, case k = 0 ≠ i. -/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with k = 0 ≠ i (and k ≠ 7): the accumulator, at anything on entry, is reset and receives the product of the adjacency block with the operand's rows of block k; the output buffer is untouched and handed back at its entry contents. The six inputs are owned at their contents throughout. The pieces the accumulator ends with are the witness the symbolic run finds. -/
noncomputable def kernelRun1_B (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : cond1_0 i) (hc1 : ¬cond1_1 i) (hc2 : ¬cond1_2 i)
    (x0 : Vec F S1024x1024 .bf16) (x1 : Vec F S8192x256 .bf16) (x2 : Vec F S1024x1 .f32) (x3 : Vec F S256x256 .f32) (x4 : Vec F S1x256 .f32) (x5 : Vec F S1x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.KB.Run1C.lean ====
/- The aggregation kernel's body run symbolically, case 0 < k = i < 7. -/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with 0 < k = i < 7: the accumulator, at `xs0` on entry, receives the product of the adjacency block with the operand's rows of block k added, and then the operand's diagonal rows (block i) added; the output buffer is untouched and handed back at its entry contents. The six inputs are owned at their contents throughout. The pieces the accumulator ends with are the witness the symbolic run finds. -/
noncomputable def kernelRun1_C (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬cond1_0 i) (hc1 : cond1_1 i) (hc2 : ¬cond1_2 i)
    (x0 : Vec F S1024x1024 .bf16) (x1 : Vec F S8192x256 .bf16) (x2 : Vec F S1024x1 .f32) (x3 : Vec F S256x256 .f32) (x4 : Vec F S1x256 .f32) (x5 : Vec F S1x256 .f32) (xs0 : Vec F S1024x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.KB.Run1D.lean ====
/- The aggregation kernel's body run symbolically, case 0 < k < 7, k ≠ i. -/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with 0 < k < 7 and k ≠ i: the accumulator, at `xs0` on entry, receives the product of the adjacency block with the operand's rows of block k added; the output buffer is untouched and handed back at its entry contents. The six inputs are owned at their contents throughout. The pieces the accumulator ends with are the witness the symbolic run finds. -/
noncomputable def kernelRun1_D (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬cond1_0 i) (hc1 : ¬cond1_1 i) (hc2 : ¬cond1_2 i)
    (x0 : Vec F S1024x1024 .bf16) (x1 : Vec F S8192x256 .bf16) (x2 : Vec F S1024x1 .f32) (x3 : Vec F S256x256 .f32) (x4 : Vec F S1x256 .f32) (x5 : Vec F S1x256 .f32) (xs0 : Vec F S1024x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.KB.Run1E.lean ====
/- The aggregation kernel's body run symbolically, case k = 7 ≠ i. -/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with k = 7 ≠ i: the accumulator, at `xs0` on entry, receives the product of the adjacency block with the operand's rows of block k added, and the output buffer, at anything on entry, is stored the finalized rows (scaled, multiplied by the weights, the two bias rows added). The six inputs are owned at their contents throughout. The pieces both end with are the witness the symbolic run finds. -/
noncomputable def kernelRun1_E (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬cond1_0 i) (hc1 : ¬cond1_1 i) (hc2 : cond1_2 i)
    (x0 : Vec F S1024x1024 .bf16) (x1 : Vec F S8192x256 .bf16) (x2 : Vec F S1024x1 .f32) (x3 : Vec F S256x256 .f32) (x4 : Vec F S1x256 .f32) (x5 : Vec F S1x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.KB.Run1F.lean ====
/- The aggregation kernel's body run symbolically, case k = 7 = i. -/
import proofs.«114961_j26431228739923_2_alg».proof.Proof.KB.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at the point with k = 7 = i: the accumulator, at `xs0` on entry, receives the product of the adjacency block with the operand's rows of block k added, then the operand's diagonal rows (block i) added, and the output buffer, at anything on entry, is stored the finalized rows (scaled, multiplied by the weights, the two bias rows added). The six inputs are owned at their contents throughout. The pieces both end with are the witness the symbolic run finds. -/
noncomputable def kernelRun1_F (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬cond1_0 i) (hc1 : cond1_1 i) (hc2 : cond1_2 i)
    (x0 : Vec F S1024x1024 .bf16) (x1 : Vec F S8192x256 .bf16) (x2 : Vec F S1024x1 .f32) (x3 : Vec F S256x256 .f32) (x4 : Vec F S1x256 .f32) (x5 : Vec F S1x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.KB.Data1.lean ====
/-
  The second kernel's frame data at a parameter `V` (the buffer contents when its region is entered): what each of
  its six control cases leaves in the accumulator and in the output block; the accumulator point by point (reset at
  the first column block of a row block, the block product added at every column block, the diagonal rows added where
  the column block is the row block); the output block stored at the last column block; the region invariant carrying
  the accumulator from one grid point to the next; the proof data and the body obligation.
-/
import proofs.«114961_j26431228739923_2_alg».proof.Proof.KB.Kit
import proofs.«114961_j26431228739923_2_alg».proof.Proof.KB.Run1A
import proofs.«114961_j26431228739923_2_alg».proof.Proof.KB.Run1B
import proofs.«114961_j26431228739923_2_alg».proof.Proof.KB.Run1C
import proofs.«114961_j26431228739923_2_alg».proof.Proof.KB.Run1D
import proofs.«114961_j26431228739923_2_alg».proof.Proof.KB.Run1E
import proofs.«114961_j26431228739923_2_alg».proof.Proof.KB.Run1F

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves (cases: A reset and diagonal; B reset; C diagonal; D plain; E last; F last and diagonal) -/

section Cases
variable (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
  (x0 : Vec F S1024x1024 .bf16) (x1 : Vec F S8192x256 .bf16) (x2 : Vec F S1024x1 .f32) (x3 : Vec F S256x256 .f32) (x4 : Vec F S1x256 .f32) (x5 : Vec F S1x256 .f32)

theorem scover1_A_0 (hc0 : cond1_0 i) (hc1 : cond1_1 i) (hc2 : ¬cond1_2 i) (y : S1024x256.Idx) :
    ∃ pc ∈ (kernelRun1_A c i arg2 harg2 arg3 harg3 arg4 harg4 arg5 harg5 arg6 harg6 arg7 harg7 arg8 harg8 arg9 harg9 hc0 hc1 hc2 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 hc2 x0 x1 x2 x3 x4 x5).2.1 S1024x256.size (by sl_kernel_rfl) y
def sout1_A_0 (hc0 : cond1_0 i) (hc1 : cond1_1 i) (hc2 : ¬cond1_2 i) : Vec F S1024x256 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 hc2 x0 x1 x2 x3 x4 x5).2.1)

theorem scover1_B_0 (hc0 : cond1_0 i) (hc1 : ¬cond1_1 i) (hc2 : ¬cond1_2 i) (y : S1024x256.Idx) :
    ∃ pc ∈ (kernelRun1_B c i arg2 harg2 arg3 harg3 arg4 harg4 arg5 harg5 arg6 harg6 arg7 harg7 arg8 harg8 arg9 harg9 hc0 hc1 hc2 x0 x1 x2 x3 x4 x5).2.1, y ∈ pc.1.set :=
  View.cover_of_tiledL (kernelRun1_B c i arg2 harg2 arg3 harg3 arg4 harg4 arg5 harg5 arg6 harg6 arg7 harg7 arg8 harg8 arg9 harg9 hc0 hc1 hc2 x0 x1 x2 x3 x4 x5).2.1 S1024x256.size (by sl_kernel_rfl) y
def sout1_B_0 (hc0 : cond1_0 i) (hc1 : ¬cond1_1 i) (hc2 : ¬cond1_2 i) : Vec F S1024x256 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 hc2 x0 x1 x2 x3 x4 x5).2.1)

theorem scover1_C_0 (hc0 : ¬cond1_0 i) (hc1 : cond1_1 i) (hc2 : ¬cond1_2 i) (xs0 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 hc2 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 hc2 x0 x1 x2 x3 x4 x5 xs0).2.1 S1024x256.size (by sl_kernel_rfl) y
def sout1_C_0 (hc0 : ¬cond1_0 i) (hc1 : cond1_1 i) (hc2 : ¬cond1_2 i) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 hc2 x0 x1 x2 x3 x4 x5 xs0).2.1)

theorem scover1_D_0 (hc0 : ¬cond1_0 i) (hc1 : ¬cond1_1 i) (hc2 : ¬cond1_2 i) (xs0 : Vec F S1024x256 .f32) (y : S1024x256.Idx) :
    ∃ pc ∈ (kernelRun1_D c i arg2 harg2 arg3 harg3 arg4 harg4 arg5 harg5 arg6 harg6 arg7 harg7 arg8 harg8 arg9 harg9 hc0 hc1 hc2 x0 x1 x2 x3 x4 x5 xs0).2.1, y ∈ pc.1.set :=
  View.cover_of_tiledL (kernelRun1_D c i arg2 harg2 arg3 harg3 arg4 harg4 arg5 harg5 arg6 harg6 arg7 harg7 arg8 harg8 arg9 harg9 hc0 hc1 hc2 x0 x1 x2 x3 x4 x5 xs0).2.1 S1024x256.size (by sl_kernel_rfl) y
def sout1_D_0 (hc0 : ¬cond1_0 i) (hc1 : ¬cond1_1 i) (hc2 : ¬cond1_2 i) (xs0 : Vec F S1024x256 .f32) : Vec F S1024x256 .f32 :=
  VS1_0.read (Elt F) (VS1_0.writes (Elt F) VS1_0.junk (kernelRun1_D c i arg2 harg2 arg3 harg3 arg4 harg4 arg5 harg5 arg6 harg6 arg7 harg7 arg8 harg8 arg9 harg9 hc0 hc1 hc2 x0 x1 x2 x3 x4 x5 xs0).2.1)

theorem scover1_E_0 (hc0 : ¬cond1_0 i) (hc1 : ¬cond1_1 i) (hc2 : cond1_2 i) (xs0 : Vec F S1024x256 .f32) (y : S1024x256.Idx) :
    ∃ pc ∈ (kernelRun1_E c i arg2 harg2 arg3 harg3 arg4 harg4 arg5 harg5 arg6 harg6 arg7 harg7 arg8 harg8 arg9 harg9 hc0 hc1 hc2 x0 x1 x2 x3 x4 x5 xs0).2.1, y ∈ pc.1.set :=
  View.cover_of_tiledL (kernelRun1_E c i arg2 harg2 arg3 harg3 arg4 harg4 arg5 harg5 arg6 harg6 arg7 harg7 arg8 harg8 arg9 harg9 hc0 hc1 hc2 x0 x1 x2 x3 x4 x5 xs0).2.1 S1024x256.size (by sl_kernel_rfl) y
def sout1_E_0 (hc0 : ¬cond1_0 i) (hc1 : ¬cond1_1 i) (hc2 : cond1_2 i) (xs0 : Vec F S1024x256 .f32) : Vec F S1024x256 .f32 :=
  VS1_0.read (Elt F) (VS1_0.writes (Elt F) VS1_0.junk (kernelRun1_E c i arg2 harg2 arg3 harg3 arg4 harg4 arg5 harg5 arg6 harg6 arg7 harg7 arg8 harg8 arg9 harg9 hc0 hc1 hc2 x0 x1 x2 x3 x4 x5 xs0).2.1)
theorem cover1_E_6 (hc0 : ¬cond1_0 i) (hc1 : ¬cond1_1 i) (hc2 : cond1_2 i) (xs0 : Vec F S1024x256 .f32) (y : S1024x256.Idx) :
    ∃ pc ∈ (kernelRun1_E c i arg2 harg2 arg3 harg3 arg4 harg4 arg5 harg5 arg6 harg6 arg7 harg7 arg8 harg8 arg9 harg9 hc0 hc1 hc2 x0 x1 x2 x3 x4 x5 xs0).1, y ∈ pc.1.set :=
  View.cover_of_tiledL (kernelRun1_E c i arg2 harg2 arg3 harg3 arg4 harg4 arg5 harg5 arg6 harg6 arg7 harg7 arg8 harg8 arg9 harg9 hc0 hc1 hc2 x0 x1 x2 x3 x4 x5 xs0).1 S1024x256.size (by sl_kernel_rfl) y
def out1_E_6 (hc0 : ¬cond1_0 i) (hc1 : ¬cond1_1 i) (hc2 : cond1_2 i) (xs0 : Vec F S1024x256 .f32) : Vec F S1024x256 .f32 :=
  VO1_6.read (Elt F) (VO1_6.writes (Elt F) VO1_6.junk (kernelRun1_E c i arg2 harg2 arg3 harg3 arg4 harg4 arg5 harg5 arg6 harg6 arg7 harg7 arg8 harg8 arg9 harg9 hc0 hc1 hc2 x0 x1 x2 x3 x4 x5 xs0).1)

theorem scover1_F_0 (hc0 : ¬cond1_0 i) (hc1 : cond1_1 i) (hc2 : cond1_2 i) (xs0 : Vec F S1024x256 .f32) (y : S1024x256.Idx) :
    ∃ pc ∈ (kernelRun1_F c i arg2 harg2 arg3 harg3 arg4 harg4 arg5 harg5 arg6 harg6 arg7 harg7 arg8 harg8 arg9 harg9 hc0 hc1 hc2 x0 x1 x2 x3 x4 x5 xs0).2.1, y ∈ pc.1.set :=
  View.cover_of_tiledL (kernelRun1_F c i arg2 harg2 arg3 harg3 arg4 harg4 arg5 harg5 arg6 harg6 arg7 harg7 arg8 harg8 arg9 harg9 hc0 hc1 hc2 x0 x1 x2 x3 x4 x5 xs0).2.1 S1024x256.size (by sl_kernel_rfl) y
def sout1_F_0 (hc0 : ¬cond1_0 i) (hc1 : cond1_1 i) (hc2 : cond1_2 i) (xs0 : Vec F S1024x256 .f32) : Vec F S1024x256 .f32 :=
  VS1_0.read (Elt F) (VS1_0.writes (Elt F) VS1_0.junk (kernelRun1_F c i arg2 harg2 arg3 harg3 arg4 harg4 arg5 harg5 arg6 harg6 arg7 harg7 arg8 harg8 arg9 harg9 hc0 hc1 hc2 x0 x1 x2 x3 x4 x5 xs0).2.1)
theorem cover1_F_6 (hc0 : ¬cond1_0 i) (hc1 : cond1_1 i) (hc2 : cond1_2 i) (xs0 : Vec F S1024x256 .f32) (y : S1024x256.Idx) :
    ∃ pc ∈ (kernelRun1_F c i arg2 harg2 arg3 harg3 arg4 harg4 arg5 harg5 arg6 harg6 arg7 harg7 arg8 harg8 arg9 harg9 hc0 hc1 hc2 x0 x1 x2 x3 x4 x5 xs0).1, y ∈ pc.1.set :=
  View.cover_of_tiledL (kernelRun1_F c i arg2 harg2 arg3 harg3 arg4 harg4 arg5 harg5 arg6 harg6 arg7 harg7 arg8 harg8 arg9 harg9 hc0 hc1 hc2 x0 x1 x2 x3 x4 x5 xs0).1 S1024x256.size (by sl_kernel_rfl) y
def out1_F_6 (hc0 : ¬cond1_0 i) (hc1 : cond1_1 i) (hc2 : cond1_2 i) (xs0 : Vec F S1024x256 .f32) : Vec F S1024x256 .f32 :=
  VO1_6.read (Elt F) (VO1_6.writes (Elt F) VO1_6.junk (kernelRun1_F c i arg2 harg2 arg3 harg3 arg4 harg4 arg5 harg5 arg6 harg6 arg7 harg7 arg8 harg8 arg9 harg9 hc0 hc1 hc2 x0 x1 x2 x3 x4 x5 xs0).1)

end Cases

section Regions
variable (V : (c : Dev nD) → (b : Ref sig .tc) → Buf (Elt F) ((c : Thread nD τ).loc b))

/-! ## Each case at a grid point, on the memrefs and the input blocks the pipeline calls the body with there -/

def accA (c : Dev nD) (t : Fin cfg1.N) (hc0 : cond1_0 (grid1.coords t)) (hc1 : cond1_1 (grid1.coords t)) (hc2 : ¬cond1_2 (grid1.coords t)) : Vec F S1024x256 .f32 :=
  sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2
def accB (c : Dev nD) (t : Fin cfg1.N) (hc0 : cond1_0 (grid1.coords t)) (hc1 : ¬cond1_1 (grid1.coords t)) (hc2 : ¬cond1_2 (grid1.coords t)) : Vec F S1024x256 .f32 :=
  sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2
def accC (c : Dev nD) (t : Fin cfg1.N) (hc0 : ¬cond1_0 (grid1.coords t)) (hc1 : cond1_1 (grid1.coords t)) (hc2 : ¬cond1_2 (grid1.coords t)) (xs0 : Vec F S1024x256 .f32) : Vec F S1024x256 .f32 :=
  sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def accD (c : Dev nD) (t : Fin cfg1.N) (hc0 : ¬cond1_0 (grid1.coords t)) (hc1 : ¬cond1_1 (grid1.coords t)) (hc2 : ¬cond1_2 (grid1.coords t)) (xs0 : Vec F S1024x256 .f32) : Vec F S1024x256 .f32 :=
  sout1_D_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def accE (c : Dev nD) (t : Fin cfg1.N) (hc0 : ¬cond1_0 (grid1.coords t)) (hc1 : ¬cond1_1 (grid1.coords t)) (hc2 : cond1_2 (grid1.coords t)) (xs0 : Vec F S1024x256 .f32) : Vec F S1024x256 .f32 :=
  sout1_E_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def accF (c : Dev nD) (t : Fin cfg1.N) (hc0 : ¬cond1_0 (grid1.coords t)) (hc1 : cond1_1 (grid1.coords t)) (hc2 : cond1_2 (grid1.coords t)) (xs0 : Vec F S1024x256 .f32) : Vec F S1024x256 .f32 :=
  sout1_F_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def outE (c : Dev nD) (t : Fin cfg1.N) (hc0 : ¬cond1_0 (grid1.coords t)) (hc1 : ¬cond1_1 (grid1.coords t)) (hc2 : cond1_2 (grid1.coords t)) (xs0 : Vec F S1024x256 .f32) : Vec F S1024x256 .f32 :=
  out1_E_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def outF (c : Dev nD) (t : Fin cfg1.N) (hc0 : ¬cond1_0 (grid1.coords t)) (hc1 : cond1_1 (grid1.coords t)) (hc2 : cond1_2 (grid1.coords t)) (xs0 : Vec F S1024x256 .f32) : Vec F S1024x256 .f32 :=
  out1_F_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0

/-! ## The accumulator and the output block, point by point -/

/-- The accumulator after the body at position `n` (row-major: row block `n / 8`, column block `n % 8`; the column block is
    the row block exactly when `n % 9 = 0`). -/
def accAt1 (c : Dev nD) : (n : ℕ) → n < cfg1.N → Vec F S1024x256 .f32
  | 0, hn => accA V c ⟨0, hn⟩ ((hcond1_0 ⟨0, hn⟩).mpr (Nat.zero_mod _)) ((hcond1_1 ⟨0, hn⟩).mpr (Nat.zero_mod _))
      (fun h => (fun h => by (try dsimp only at h); omega) ((hcond1_2 ⟨0, hn⟩).mp h))
  | n + 1, hn =>
    if h0 : (n + 1) % 8 = 0 then
      accB V c ⟨n + 1, hn⟩ ((hcond1_0 ⟨n + 1, hn⟩).mpr h0)
        (fun h => (fun h => by (try dsimp only at h); have hN : n + 1 < 64 := lt_of_lt_of_eq hn (show cfg1.N = 64 from N_1); omega) ((hcond1_1 ⟨n + 1, hn⟩).mp h))
        (fun h => (fun h => by (try dsimp only at h); omega) ((hcond1_2 ⟨n + 1, hn⟩).mp h))
    else if h2 : (n + 1) % 8 = 7 then
      if h1 : (n + 1) % 9 = 0 then
        accF V c ⟨n + 1, hn⟩ (fun h => h0 ((hcond1_0 ⟨n + 1, hn⟩).mp h)) ((hcond1_1 ⟨n + 1, hn⟩).mpr h1) ((hcond1_2 ⟨n + 1, hn⟩).mpr h2) (accAt1 c n (Nat.lt_of_succ_lt hn))
      else
        accE V c ⟨n + 1, hn⟩ (fun h => h0 ((hcond1_0 ⟨n + 1, hn⟩).mp h)) (fun h => h1 ((hcond1_1 ⟨n + 1, hn⟩).mp h)) ((hcond1_2 ⟨n + 1, hn⟩).mpr h2) (accAt1 c n (Nat.lt_of_succ_lt hn))
    else
      if h1 : (n + 1) % 9 = 0 then
        accC V c ⟨n + 1, hn⟩ (fun h => h0 ((hcond1_0 ⟨n + 1, hn⟩).mp h)) ((hcond1_1 ⟨n + 1, hn⟩).mpr h1) (fun h => h2 ((hcond1_2 ⟨n + 1, hn⟩).mp h)) (accAt1 c n (Nat.lt_of_succ_lt hn))
      else
        accD V c ⟨n + 1, hn⟩ (fun h => h0 ((hcond1_0 ⟨n + 1, hn⟩).mp h)) (fun h => h1 ((hcond1_1 ⟨n + 1, hn⟩).mp h)) (fun h => h2 ((hcond1_2 ⟨n + 1, hn⟩).mp h)) (accAt1 c n (Nat.lt_of_succ_lt hn))

theorem accAt1_A (c : Dev nD) (t : Fin cfg1.N) (h0 : t.val % 8 = 0) (h1 : t.val % 9 = 0) (h2 : ¬t.val % 8 = 7) :
    accAt1 V c t.val t.isLt = accA V c t ((hcond1_0 t).mpr h0) ((hcond1_1 t).mpr h1) (fun h => h2 ((hcond1_2 t).mp h)) := by
  obtain ⟨n, hn⟩ := t
  cases n with
  | zero => exact rfl
  | succ n => exact (by exfalso; (try dsimp only at h0 h1); have hN : n + 1 < 64 := lt_of_lt_of_eq hn (show cfg1.N = 64 from N_1); omega)

theorem accAt1_B (c : Dev nD) (t : Fin cfg1.N) (h0 : t.val % 8 = 0) (h1 : ¬t.val % 9 = 0) (h2 : ¬t.val % 8 = 7) :
    accAt1 V c t.val t.isLt = accB V c t ((hcond1_0 t).mpr h0) (fun h => h1 ((hcond1_1 t).mp h)) (fun h => h2 ((hcond1_2 t).mp h)) := by
  obtain ⟨n, hn⟩ := t
  cases n with
  | zero => exact (by exfalso; (try dsimp only at h1); exact absurd (Nat.zero_mod _) h1)
  | succ n => exact (dif_pos h0).trans rfl

theorem accAt1_C (c : Dev nD) (t : Fin cfg1.N) (h0 : ¬t.val % 8 = 0) (h1 : t.val % 9 = 0) (h2 : ¬t.val % 8 = 7) :
    accAt1 V c t.val t.isLt = accC V c t (fun h => h0 ((hcond1_0 t).mp h)) ((hcond1_1 t).mpr h1) (fun h => h2 ((hcond1_2 t).mp h))
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans ((dif_pos h1).trans rfl))

theorem accAt1_D (c : Dev nD) (t : Fin cfg1.N) (h0 : ¬t.val % 8 = 0) (h1 : ¬t.val % 9 = 0) (h2 : ¬t.val % 8 = 7) :
    accAt1 V c t.val t.isLt = accD V c t (fun h => h0 ((hcond1_0 t).mp h)) (fun h => h1 ((hcond1_1 t).mp h)) (fun h => h2 ((hcond1_2 t).mp h))
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans ((dif_neg h1).trans rfl))

theorem accAt1_E (c : Dev nD) (t : Fin cfg1.N) (h0 : ¬t.val % 8 = 0) (h1 : ¬t.val % 9 = 0) (h2 : t.val % 8 = 7) :
    accAt1 V c t.val t.isLt = accE V c t (fun h => h0 ((hcond1_0 t).mp h)) (fun h => h1 ((hcond1_1 t).mp h)) ((hcond1_2 t).mpr h2)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans ((dif_neg h1).trans rfl))

theorem accAt1_F (c : Dev nD) (t : Fin cfg1.N) (h0 : ¬t.val % 8 = 0) (h1 : t.val % 9 = 0) (h2 : t.val % 8 = 7) :
    accAt1 V c t.val t.isLt = accF V c t (fun h => h0 ((hcond1_0 t).mp h)) ((hcond1_1 t).mpr h1) ((hcond1_2 t).mpr h2)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans ((dif_pos h1).trans rfl))

/-- The output block's staging buffer after the body at point `t`: at a last column block what that case stores, over
    the accumulator the point before left; elsewhere the window is idle and nothing reads this (a placeholder). -/
def outAt1 (c : Dev nD) (t : Fin cfg1.N) : Vec F S1024x256 .f32 :=
  if h2 : t.val % 8 = 7 then
    if h1 : t.val % 9 = 0 then
      outF V c t (fun h => (by omega : ¬t.val % 8 = 0) ((hcond1_0 t).mp h)) ((hcond1_1 t).mpr h1) ((hcond1_2 t).mpr h2)
        (accAt1 V c (t.val - 1) (Nat.lt_of_le_of_lt (Nat.sub_le _ _) t.isLt))
    else
      outE V c t (fun h => (by omega : ¬t.val % 8 = 0) ((hcond1_0 t).mp h)) (fun h => h1 ((hcond1_1 t).mp h)) ((hcond1_2 t).mpr h2)
        (accAt1 V c (t.val - 1) (Nat.lt_of_le_of_lt (Nat.sub_le _ _) t.isLt))
  else VO1_6.read (Elt F) VO1_6.junk

/-! ## The region invariant -/

def PhiS1 (c : Dev nD) : (n : ℕ) → n ≤ cfg1.N → sProp 𝕄
  | 0, _ => Pipeline.ΦA spec1 c
  | n + 1, hn => iprop(scoped1 c (owns (c : Thread nD τ) scM1_0 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare (accAt1 V c n hn)) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare (accAt1 V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 32000000 in
/-- The body at any point: the column block and the row block decide the case; the invariant hands the body the
    accumulator at what the point before left (at anything where it is reset) and takes it back at this point's
    contents; the six input blocks pass through; the output block is handed back untouched except at the last column
    block, where it is stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  by_cases h0 : t.val % 8 = 0
  · have h2 : ¬t.val % 8 = 7 := by omega
    have hc0 : cond1_0 (grid1.coords t) := (hcond1_0 t).mpr h0
    have hnc2 : ¬cond1_2 (grid1.coords t) := fun h => h2 ((hcond1_2 t).mp h)
    by_cases h1 : t.val % 9 = 0
    · have hz : t.val = 0 := by omega
      have hc1 : cond1_1 (grid1.coords t) := (hcond1_1 t).mpr h1
      rw [Dat.leavesExact_idle (dat1 V c) 6 t (idleAt1_6 t hnc2) (noFlush1_6 t hnc2)]
      rw [accAt1_A V c t h0 h1 h2]
      unfold accA sout1_A_0; (try dsimp only)
      rw [PhiS1_castSucc V c t, PhiS1_zero V c _ _ hz, PhiA1_eq]; unfold scoped1
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 hnc2 (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hb1 Hb2 Hb3 Hb4 Hb5 Hg]
      · isplitl [HS0 Hb1 Hb2 Hb3 Hb4 Hb5]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scover1_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hz : t.val ≠ 0 := fun e => h1 (by rw [e])
      have hnc1 : ¬cond1_1 (grid1.coords t) := fun h => h1 ((hcond1_1 t).mp h)
      rw [Dat.leavesExact_idle (dat1 V c) 6 t (idleAt1_6 t hnc2) (noFlush1_6 t hnc2)]
      rw [accAt1_B V c t h0 h1 h2]
      unfold accB sout1_B_0; (try dsimp only)
      rw [PhiS1_castSucc V c t, PhiS1_pos V c _ _ hz]; unfold scoped1
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ hc0 hnc1 hnc2 (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hb1 Hb2 Hb3 Hb4 Hb5 Hg]
      · isplitl [HS0 Hb1 Hb2 Hb3 Hb4 Hb5]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    have hnc0 : ¬cond1_0 (grid1.coords t) := fun h => h0 ((hcond1_0 t).mp h)
    by_cases h2 : t.val % 8 = 7
    · have hc2 : cond1_2 (grid1.coords t) := (hcond1_2 t).mpr h2
      by_cases h1 : t.val % 9 = 0
      · have hc1 : cond1_1 (grid1.coords t) := (hcond1_1 t).mpr h1
        rw [show (dat1 V c).leavesExact 6 t = owns (c : Thread nD τ) (ms1_6 t) fullShare ((dat1 V c).after 6 t) from by
          unfold Dat.leavesExact; rw [liveAt1_6 t hc2], after1_6]
        rw [accAt1_F V c t h0 h1 h2, show outAt1 V c t = _ from (dif_pos h2).trans (dif_pos h1)]
        unfold accF sout1_F_0 outF out1_F_6; (try dsimp only)
        rw [PhiS1_castSucc V c t, PhiS1_pos V c _ _ hz]; unfold scoped1
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_F c (grid1.coords t) _ _ _ _ _ _ _ _ _ _ _ _ _ _ _ _ hnc0 hc1 hc2 (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hb1 Hb2 Hb3 Hb4 Hb5 Hg]
        · isplitl [HS0 Hb1 Hb2 Hb3 Hb4 Hb5]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_F_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_F_6 c _ _ _ _ _ _ _ _ _ _ _ _ _ _ _ _ _ _ _ _ _ _ _ _ _ _ _)
      · have hnc1 : ¬cond1_1 (grid1.coords t) := fun h => h1 ((hcond1_1 t).mp h)
        rw [show (dat1 V c).leavesExact 6 t = owns (c : Thread nD τ) (ms1_6 t) fullShare ((dat1 V c).after 6 t) from by
          unfold Dat.leavesExact; rw [liveAt1_6 t hc2], after1_6]
        rw [accAt1_E V c t h0 h1 h2, show outAt1 V c t = _ from (dif_pos h2).trans (dif_neg h1)]
        unfold accE sout1_E_0 outE out1_E_6; (try dsimp only)
        rw [PhiS1_castSucc V c t, PhiS1_pos V c _ _ hz]; unfold scoped1
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_E c (grid1.coords t) _ _ _ _ _ _ _ _ _ _ _ _ _ _ _ _ hnc0 hnc1 hc2 (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hb1 Hb2 Hb3 Hb4 Hb5 Hg]
        · isplitl [HS0 Hb1 Hb2 Hb3 Hb4 Hb5]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_E_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_E_6 c _ _ _ _ _ _ _ _ _ _ _ _ _ _ _ _ _ _ _ _ _ _ _ _ _ _ _)
    · have hnc2 : ¬cond1_2 (grid1.coords t) := fun h => h2 ((hcond1_2 t).mp h)
      by_cases h1 : t.val % 9 = 0
      · have hc1 : cond1_1 (grid1.coords t) := (hcond1_1 t).mpr h1
        rw [Dat.leavesExact_idle (dat1 V c) 6 t (idleAt1_6 t hnc2) (noFlush1_6 t hnc2)]
        rw [accAt1_C V c t h0 h1 h2]
        unfold accC sout1_C_0; (try dsimp only)
        rw [PhiS1_castSucc V c t, PhiS1_pos V c _ _ hz]; unfold scoped1
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ hnc0 hc1 hnc2 (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hb1 Hb2 Hb3 Hb4 Hb5 Hg]
        · isplitl [HS0 Hb1 Hb2 Hb3 Hb4 Hb5]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_C_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · have hnc1 : ¬cond1_1 (grid1.coords t) := fun h => h1 ((hcond1_1 t).mp h)
        rw [Dat.leavesExact_idle (dat1 V c) 6 t (idleAt1_6 t hnc2) (noFlush1_6 t hnc2)]
        rw [accAt1_D V c t h0 h1 h2]
        unfold accD sout1_D_0; (try dsimp only)
        rw [PhiS1_castSucc V c t, PhiS1_pos V c _ _ hz]; unfold scoped1
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_D c (grid1.coords t) _ _ _ _ _ _ _ _ _ _ _ _ _ _ _ _ hnc0 hnc1 hnc2 (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hb1 Hb2 Hb3 Hb4 Hb5 Hg]
        · isplitl [HS0 Hb1 Hb2 Hb3 Hb4 Hb5]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_D_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold scoped1
  iintro ⟨⟨Hb1, Hb2, Hb3, Hb4, Hb5, HS0⟩, Hg⟩
  isplitl [HS0 Hb1 Hb2 Hb3 Hb4 Hb5]
  · isplitl [Hb1]; · iexact Hb1
    isplitl [Hb2]; · iexact Hb2
    isplitl [Hb3]; · iexact Hb3
    isplitl [Hb4]; · iexact Hb4
    isplitl [Hb5]; · iexact Hb5
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Regions

end Cert.Kernel.Hand

end
-- ==== Proof.KB.Launch.lean ====
/-
  The run of the whole program at any float instance: the buffer contents at every boundary between @main's items
  (a fold from the launch memory: a host stretch applies its operations; a kernel region leaves its arrays at what
  its write-backs leave), every pipeline's proof data at its region's entry contents, each region as a segment
  around the thread state "every unscoped buffer at the boundary's contents, the generator register at some state,
  nothing owed", and the run: every weakly fair execution terminates and every unscoped buffer ends at the last
  boundary's contents.
-/
import proofs.«114961_j26431228739923_2_alg».proof.Proof.KB.Data0
import proofs.«114961_j26431228739923_2_alg».proof.Proof.KB.Data1
import proofs.«114961_j26431228739923_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations that build the adjacency (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the regions (the second region's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first region: entered from every unscoped buffer at `W1`, left at `W2`; the generator register into the
    invariant and out; the accumulator's contents forgotten at the exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]

set_option backward.isDefEq.respectTransparency.types false in
/-- THE RUN, at any float instance: from any memory with zero counters every weakly fair execution of @main on the
    TensorCores terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.Hand

end
-- ==== Proof.KB.Args.lean ====
/-
  The argument arrays at the last boundary are the launch contents: no host operation writes an argument, the first
  region's arrays are the adjacency and the degree column, and the second region reads the weight matrix through an
  input window (never written back) and touches no other argument. With that, the frame claim at any float instance.
-/
import proofs.«114961_j26431228739923_2_alg».proof.Proof.KB.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A reference no host stretch writes and no window of the first region stages holds, when the second region is
    entered, its launch contents. -/
theorem W5_of_launch (c : Dev nD) (r : Ref sig .tc) (h0 : r ∉ hostOps0_W) (h1 : r ∉ hostOps1_W) (h2 : r ∉ hostOps1_1_W)
    (h3 : r ∉ hostOps1_2_W) (hw : ∀ w, Pipeline.arrRef spec0 w ≠ r) :
    W5 m ρ c (Proc.devRef .tc r) = m ((c : Thread nD τ).loc r) :=
  calc W5 m ρ c (Proc.devRef .tc r)
    _ = W4 m ρ c (Proc.devRef .tc r) := StableHlo.after_of_writes_sub hostOps1_2 _ hostOps1_2_writes h3
    _ = W3 m ρ c (Proc.devRef .tc r) := StableHlo.after_of_writes_sub hostOps1_1 _ hostOps1_1_writes h2
    _ = W2 m ρ c (Proc.devRef .tc r) := StableHlo.after_of_writes_sub hostOps1 _ hostOps1_writes h1
    _ = W1 m ρ c (Proc.devRef .tc r) := W2_of_ne m ρ c r hw
    _ = W0 m ρ c (Proc.devRef .tc r) := StableHlo.after_of_writes_sub hostOps0 _ hostOps0_writes h0
    _ = m ((c : Thread nD τ).loc r) := rfl

theorem W6_main_arg0 (c : Dev nD) : W6 m ρ c (Proc.devRef .tc main_arg0) = m ((c : Thread nD τ).loc main_arg0) :=
  (W6_of_ne m ρ c main_arg0 (by decide)).trans (W5_of_launch m ρ c main_arg0 (by decide) (by decide) (by decide) (by decide) (by decide))
theorem W6_main_arg2 (c : Dev nD) : W6 m ρ c (Proc.devRef .tc main_arg2) = m ((c : Thread nD τ).loc main_arg2) :=
  (W6_of_ne m ρ c main_arg2 (by decide)).trans (W5_of_launch m ρ c main_arg2 (by decide) (by decide) (by decide) (by decide) (by decide))
theorem W6_main_arg3 (c : Dev nD) : W6 m ρ c (Proc.devRef .tc main_arg3) = m ((c : Thread nD τ).loc main_arg3) :=
  (W6_of_ne m ρ c main_arg3 (by decide)).trans (W5_of_launch m ρ c main_arg3 (by decide) (by decide) (by decide) (by decide) (by decide))
theorem W6_main_arg4 (c : Dev nD) : W6 m ρ c (Proc.devRef .tc main_arg4) = m ((c : Thread nD τ).loc main_arg4) :=
  (W6_of_ne m ρ c main_arg4 (by decide)).trans (W5_of_launch m ρ c main_arg4 (by decide) (by decide) (by decide) (by decide) (by decide))
/-- The weight matrix is the second region's input window 3: read, never written back. -/
theorem W6_main_arg1 (c : Dev nD) : W6 m ρ c (Proc.devRef .tc main_arg1) = m ((c : Thread nD τ).loc main_arg1) :=
  calc W6 m ρ c (Proc.devRef .tc main_arg1)
    _ = (dat1 (V5 m ρ) c).arrAt 3 cfg1.N := W6_arr m ρ c 3
    _ = V5 m ρ c main_arg1 := ((dat1 (V5 m ρ) c).arrAt_in 3 rfl _).trans (A_eq1 (V5 m ρ) c 3)
    _ = m ((c : Thread nD τ).loc main_arg1) := W5_of_launch m ρ c main_arg1 (by decide) (by decide) (by decide) (by decide) (by decide)

/-- THE FRAME at any float instance: every weakly fair execution terminates, nothing faulting, and the five argument
    arrays end as launched. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.Kernel.Hand

end
-- ==== Proof.KI.Conds.lean ====
/- The branch conditions of the two kernel bodies over the grid coordinates, their closed forms over the
   64 grid points (row-major, t = 8*i + k), and where each window of the two pipelines is idle or live. -/
import proofs.«114961_j26431228739923_2_alg».proof.Proof.Gen.KernelIdeal.Launch
import proofs.«114961_j26431228739923_2_alg».proof.Proof.Gen.KernelIdeal.Skeleton
import proofs.«114961_j26431228739923_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The degree kernel's branch conditions -/

/-- The condition of the degree kernel's first `scf.if` (k = 0: reset the accumulator). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the degree kernel's second `scf.if` (k = 7: store the output). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The aggregation kernel's branch conditions -/

/-- The condition of the aggregation kernel's first `scf.if` (k = 0: reset the accumulator). -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the aggregation kernel's second `scf.if` (k = i: add the diagonal rows). -/
abbrev cond1_1 (i : grid1.Coords) : Prop := k1_cond2 i = 1#1
/-- It holds at the points ≡ 0 (mod 9) (t = 8*i + k with k = i). -/
theorem hcond1_1 : ∀ t : Fin cfg1.N, cond1_1 (grid1.coords t) ↔ t.val % 9 = 0 :=
  (by decide +kernel : ∀ t : Fin grid1.N, cond1_1 (grid1.coords t) ↔ t.val % 9 = 0)

/-- The condition of the aggregation kernel's third `scf.if` (k = 7: finalize and store the output). -/
abbrev cond1_2 (i : grid1.Coords) : Prop := k1_cond3 i = 1#1
/-- It holds at the points ≡ 7 (mod 8). -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

/-- Window 0 of the degree pipeline (its input) is never idle. -/
theorem liveAt0_0 : ∀ t : Fin cfg0.N, cfg0.idle 0 (grid0.coords t) = false := by decide +kernel
/-- Away from k = 7 the degree pipeline's output window is idle: nothing is stored into it. -/
theorem idleAt0_1 : ∀ t : Fin cfg0.N, ¬cond0_1 (grid0.coords t) → cfg0.idle 1 (grid0.coords t) = true := by decide +kernel
/-- Away from k = 7 the degree pipeline does not write its output block back. -/
theorem noFlush0_1 : ∀ t : Fin cfg0.N, ¬cond0_1 (grid0.coords t) → (cfg0.win 1).flush t = false := by decide +kernel
/-- At k = 7 the degree pipeline's output window is live. -/
theorem liveAt0_1 : ∀ t : Fin cfg0.N, cond0_1 (grid0.coords t) → cfg0.idle 1 (grid0.coords t) = false := by decide +kernel

/-- The six input windows of the aggregation pipeline are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from k = 7 the aggregation pipeline's output window is idle: nothing is stored into it. -/
theorem idleAt1_6 : ∀ t : Fin cfg1.N, ¬cond1_2 (grid1.coords t) → cfg1.idle 6 (grid1.coords t) = true := by decide +kernel
/-- Away from k = 7 the aggregation pipeline does not write its output block back. -/
theorem noFlush1_6 : ∀ t : Fin cfg1.N, ¬cond1_2 (grid1.coords t) → (cfg1.win 6).flush t = false := by decide +kernel
/-- At k = 7 the aggregation pipeline's output window is live. -/
theorem liveAt1_6 : ∀ t : Fin cfg1.N, cond1_2 (grid1.coords t) → cfg1.idle 6 (grid1.coords t) = false := by decide +kernel

end Cert.KernelIdeal.Hand

end
-- ==== Proof.KI.Kit.lean ====
/-
  What both kernels' frame proofs share, at a parameter `V` (the TensorCore's buffer contents when a region is
  entered): each window's block at a grid point as the read of its array through the block's view; that an input
  window's staging buffer holds that block at every point, fetched there or not; the staging and scratch memrefs
  the pipeline calls the body with; and the region invariant split into the carried scratch accumulator, the other
  scoped buffers and the generator register.
-/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 (the row-degree kernel): windows 0 (adjacency block, input) and 1 (degree column block, output) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Region 1 (the normalized product and the linear layer): input windows 0–5, output window 6 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The memrefs the pipeline calls the bodies with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The degree kernel's accumulator: a whole scoped buffer of its own. -/
abbrev scM0_0 : Memref sig .tc .vmem S1024x1 .f32 := Memref.whole cc0_scratch0
abbrev VS0_0 : View sig .tc .vmem S1024x1 .f32 := scM0_0.view
abbrev VO0_1 : View sig .tc .vmem S1024x1 .f32 := (Memref.whole cc0_stg1_0 : Memref sig .tc .vmem S1024x1 .f32).view

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x256 .f32 := win1_6.stage (cfg1.slots t 6)
abbrev hs1_6 (t : Fin cfg1.N) : (ms1_6 t).IsWhole := hstage1_6 ((cfg1.slots t 6).cast nbuf1_6)
/-- The product kernel's accumulator. -/
abbrev scM1_0 : Memref sig .tc .vmem S1024x256 .f32 := Memref.whole cc1_scratch0
abbrev VS1_0 : View sig .tc .vmem S1024x256 .f32 := scM1_0.view
abbrev VO1_6 : View sig .tc .vmem S1024x256 .f32 := (Memref.whole cc1_stg6_0 : Memref sig .tc .vmem S1024x256 .f32).view

/-! ## The region invariants, split -/

/-- Region 0's scoped buffers that are no staging buffer of its own: its accumulator (at `S`) and the second
    kernel's staging and scratch buffers, each at some contents. -/
def scoped0 (c : Dev nD) (S : sProp 𝕄) : sProp 𝕄 :=
  iprop(S ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄) = iprop(scoped0 c (iprop(∃ d, owns (c : Thread nD τ) scM0_0 fullShare d)) ∗ (∃ r, prngReg c r)) := by
  unfold Pipeline.ΦA scoped0; rw [scopedRest0_eq]; simp only [scM0_0, owns_whole]; try rfl

/-- Region 1's: the first kernel's staging and scratch buffers at some contents and its own accumulator (at `S`). -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S)

theorem PhiA1_eq (c : Dev nD) :
    (Pipeline.ΦA spec1 c : sProp 𝕄) = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.KernelIdeal.Hand

end
-- ==== Proof.KI.Run0A.lean ====
/- The degree kernel's body run symbolically, case k = 0. -/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body at a point with k = 0 (and k ≠ 7): the accumulator, at anything on entry, is reset and then receives the block's row sums; the output buffer is untouched and handed back at its entry contents. The pieces the accumulator ends with are the witness the symbolic run finds. -/
noncomputable def kernelRun0_A (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .bf16) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.Run0B.lean ====
/- The degree kernel's body run symbolically, case 0 < k < 7. -/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body at a point with 0 < k < 7: the accumulator, at `xs0` on entry, receives the block's row sums added; the output buffer is untouched and handed back at its entry contents. The pieces the accumulator ends with are the witness the symbolic run finds. -/
noncomputable def kernelRun0_B (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .bf16) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.Run0C.lean ====
/- The degree kernel's body run symbolically, case k = 7. -/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body at a point with k = 7 (and k ≠ 0): the accumulator, at `xs0` on entry, receives the block's row sums added, and the output buffer, at anything on entry, is stored the accumulator plus one. The pieces both end with are the witness the symbolic run finds. -/
noncomputable def kernelRun0_C (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI.Data0.lean ====
/-
  The row-degree kernel's frame data at a parameter `V` (the buffer contents when its region is entered): what each
  control case leaves in the accumulator and in the output block, the accumulator point by point (reset at the first
  column block of a row block, added to at the others), the output block stored at the last column block, the region
  invariant carrying the accumulator from one grid point to the next, the proof data and the body obligation.
-/
import proofs.«114961_j26431228739923_2_alg».proof.Proof.KI.Kit
import proofs.«114961_j26431228739923_2_alg».proof.Proof.KI.Run0A
import proofs.«114961_j26431228739923_2_alg».proof.Proof.KI.Run0B
import proofs.«114961_j26431228739923_2_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first column block the accumulator's stores cover it. -/
theorem scover0_A_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .bf16) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y

/-- What a first column block leaves in the accumulator. -/
def sout0_A_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .bf16) : Vec F S1024x1 .f32 :=
  VS0_0.read (Elt F) (VS0_0.writes (Elt F) VS0_0.junk (kernelRun0_A c i arg2 harg2 arg3 harg3 arg4 harg4 hc0 hc1 x0).2.1)

theorem scover0_B_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .bf16) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y

/-- What a middle column block leaves in the accumulator, from what the block before left. -/
def sout0_B_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .bf16) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

theorem scover0_C_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

/-- What the last column block leaves in the accumulator. -/
def sout0_C_0 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

theorem cover0_C_1 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

/-- What the last column block stores into the output block. -/
def out0_C_1 (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

section Regions
variable (V : (c : Dev nD) → (b : Ref sig .tc) → Buf (Elt F) ((c : Thread nD τ).loc b))

/-! ## The accumulator and the output block, point by point -/

/-- The accumulator after the body at position `n` of the grid (row-major; the column block is `n % 8`): reset and
    added to at a first column block, added to at the others over what position `n - 1` left. -/
def accAt0 (c : Dev nD) : (n : ℕ) → n < cfg0.N → Vec F S1024x1 .f32
  | 0, hn => sout0_A_0 c (grid0.coords ⟨0, hn⟩) (ms0_0 ⟨0, hn⟩) (hs0_0 ⟨0, hn⟩) (ms0_1 ⟨0, hn⟩) (hs0_1 ⟨0, hn⟩) scM0_0 (Memref.isWhole_whole _)
      ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 8 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _)
        ((hcond0_0 ⟨n + 1, hn⟩).mpr h0) (fun h => (fun h => by (try dsimp only at h); omega) ((hcond0_1 ⟨n + 1, hn⟩).mp h)) (iblk0 V c 0 ⟨n + 1, hn⟩)
    else if h1 : (n + 1) % 8 = 7 then
      sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _)
        (fun h => h0 ((hcond0_0 ⟨n + 1, hn⟩).mp h)) ((hcond0_1 ⟨n + 1, hn⟩).mpr h1) (iblk0 V c 0 ⟨n + 1, hn⟩) (accAt0 c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _)
        (fun h => h0 ((hcond0_0 ⟨n + 1, hn⟩).mp h)) (fun h => h1 ((hcond0_1 ⟨n + 1, hn⟩).mp h)) (iblk0 V c 0 ⟨n + 1, hn⟩) (accAt0 c n (Nat.lt_of_succ_lt hn))

theorem accAt0_A (c : Dev nD) (t : Fin cfg0.N) (h0 : t.val % 8 = 0) (h1 : ¬t.val % 8 = 7) :
    accAt0 V c t.val t.isLt = sout0_A_0 c (grid0.coords t) (ms0_0 t) (hs0_0 t) (ms0_1 t) (hs0_1 t) scM0_0 (Memref.isWhole_whole _)
      ((hcond0_0 t).mpr h0) (fun h => h1 ((hcond0_1 t).mp h)) (iblk0 V c 0 t) := by
  obtain ⟨n, hn⟩ := t
  cases n with
  | zero => exact rfl
  | succ n => exact (dif_pos h0).trans rfl

theorem accAt0_B (c : Dev nD) (t : Fin cfg0.N) (h0 : ¬t.val % 8 = 0) (h1 : ¬t.val % 8 = 7) :
    accAt0 V c t.val t.isLt = sout0_B_0 c (grid0.coords t) (ms0_0 t) (hs0_0 t) (ms0_1 t) (hs0_1 t) scM0_0 (Memref.isWhole_whole _)
      (fun h => h0 ((hcond0_0 t).mp h)) (fun h => h1 ((hcond0_1 t).mp h)) (iblk0 V c 0 t)
      (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 8 = 0) (h1 : t.val % 8 = 7) :
    accAt0 V c t.val t.isLt = sout0_C_0 c (grid0.coords t) (ms0_0 t) (hs0_0 t) (ms0_1 t) (hs0_1 t) scM0_0 (Memref.isWhole_whole _)
      (fun h => h0 ((hcond0_0 t).mp h)) ((hcond0_1 t).mpr h1) (iblk0 V c 0 t)
      (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: at a last column block what that case stores over
    the accumulator the point before left; elsewhere the window is idle and nothing reads this (a placeholder). -/
def outAt0 (c : Dev nD) (t : Fin cfg0.N) : Vec F S1024x1 .f32 :=
  if h1 : t.val % 8 = 7 then
    out0_C_1 c (grid0.coords t) (ms0_0 t) (hs0_0 t) (ms0_1 t) (hs0_1 t) scM0_0 (Memref.isWhole_whole _)
      (fun h => (by omega : ¬t.val % 8 = 0) ((hcond0_0 t).mp h)) ((hcond0_1 t).mpr h1) (iblk0 V c 0 t)
      (accAt0 V c (t.val - 1) (Nat.lt_of_le_of_lt (Nat.sub_le _ _) t.isLt))
  else VO0_1.read (Elt F) VO0_1.junk

/-! ## The region invariant: the accumulator carried from point to point -/

/-- Before position `n`: at the region's entry the scoped buffers at anything; afterwards the accumulator at what
    position `n - 1` left, the other scoped buffers at anything, the generator register at some state. -/
def PhiS0 (c : Dev nD) : (n : ℕ) → n ≤ cfg0.N → sProp 𝕄
  | 0, _ => Pipeline.ΦA spec0 c
  | n + 1, hn => iprop(scoped0 c (owns (c : Thread nD τ) scM0_0 fullShare (accAt0 V c n hn)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(scoped0 c (owns (c : Thread nD τ) scM0_0 fullShare (accAt0 V c n hn)) ∗ (∃ r, prngReg c r)) := rfl

theorem PhiS0_pos (c : Dev nD) (n : ℕ) (h : n ≤ cfg0.N) (hz : n ≠ 0) :
    PhiS0 V c n h = iprop(scoped0 c (owns (c : Thread nD τ) scM0_0 fullShare (accAt0 V c (n - 1) (by omega))) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the column block decides the case; the invariant hands the body the accumulator at what the
    point before left (at anything where it is reset) and takes it back at this point's contents; the output block is
    handed back untouched except at the last column block, where it is stored. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 1 t (idleAt0_1 t hc1) (noFlush0_1 t hc1)]
    rw [accAt0_A V c t h0 h1]
    unfold sout0_A_0; (try dsimp only)
    by_cases hz : t.val = 0
    · rw [PhiS0_castSucc V c t, PhiS0_zero V c _ _ hz, PhiA0_eq]; unfold scoped0
      iintro ⟨⟨⟨HS0, Hrest⟩, Hg⟩, Ho, ⟨%d0, H0⟩, ⟨%d1, H1⟩⟩
      iapply ((kernelRun0_A c (grid0.coords t) _ _ _ _ _ _ hc0 hc1 (iblk0 V c 0 t)).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _)
          iexact Hrest
        iexact Hg
      isplitl [Ho]; · iexact Ho
      isplitl [H0]; · iexact H0
      iexists _; iexact H1
    · rw [PhiS0_castSucc V c t, PhiS0_pos V c _ _ hz]; unfold scoped0
      iintro ⟨⟨⟨HS0, Hrest⟩, Hg⟩, Ho, ⟨%d0, H0⟩, ⟨%d1, H1⟩⟩
      iapply ((kernelRun0_A c (grid0.coords t) _ _ _ _ _ _ hc0 hc1 (iblk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _)
          iexact Hrest
        iexact Hg
      isplitl [Ho]; · iexact Ho
      isplitl [H0]; · iexact H0
      iexists _; iexact H1
  · have hz : t.val ≠ 0 := fun e => h0 (by rw [e])
    have hnc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [accAt0_C V c t h0 h1, show outAt0 V c t = _ from dif_pos h1]
      unfold out0_C_1 sout0_C_0; (try dsimp only)
      rw [PhiS0_castSucc V c t, PhiS0_pos V c _ _ hz]; unfold scoped0
      iintro ⟨⟨⟨HS0, Hrest⟩, Hg⟩, Ho, ⟨%d0, H0⟩, ⟨%d1, H1⟩⟩
      iapply ((kernelRun0_C c (grid0.coords t) _ _ _ _ _ _ hnc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1)]
      rw [accAt0_B V c t h0 h1]
      unfold sout0_B_0; (try dsimp only)
      rw [PhiS0_castSucc V c t, PhiS0_pos V c _ _ hz]; unfold scoped0
      iintro ⟨⟨⟨HS0, Hrest⟩, Hg⟩, Ho, ⟨%d0, H0⟩, ⟨%d1, H1⟩⟩
      iapply ((kernelRun0_B c (grid0.coords t) _ _ _ _ _ _ hnc0 hc1 (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _)
          iexact Hrest
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]; unfold scoped0
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Regions

end Cert.KernelIdeal.Hand

end
-- ==== Proof.KI.Run1A.lean ====
/- The aggregation kernel's body run symbolically, case k = 0 = i. -/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with k = 0 = i (and k ≠ 7): the accumulator, at anything on entry, is reset, receives the product of the adjacency block with the operand's rows of block k, and then the operand's diagonal rows (block i) added; the output buffer is untouched and handed back at its entry contents. The six inputs are owned at their contents throughout. The pieces the accumulator ends with are the witness the symbolic run finds. -/
noncomputable def kernelRun1_A (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : cond1_0 i) (hc1 : cond1_1 i) (hc2 : ¬cond1_2 i)
    (x0 : Vec F S1024x1024 .bf16) (x1 : Vec F S8192x256 .bf16) (x2 : Vec F S1024x1 .f32) (x3 : Vec F S256x256 .f32) (x4 : Vec F S1x256 .f32) (x5 : Vec F S1x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Run1B.lean ====
/- The aggregation kernel's body run symbolically, case k = 0 ≠ i. -/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with k = 0 ≠ i (and k ≠ 7): the accumulator, at anything on entry, is reset and receives the product of the adjacency block with the operand's rows of block k; the output buffer is untouched and handed back at its entry contents. The six inputs are owned at their contents throughout. The pieces the accumulator ends with are the witness the symbolic run finds. -/
noncomputable def kernelRun1_B (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : cond1_0 i) (hc1 : ¬cond1_1 i) (hc2 : ¬cond1_2 i)
    (x0 : Vec F S1024x1024 .bf16) (x1 : Vec F S8192x256 .bf16) (x2 : Vec F S1024x1 .f32) (x3 : Vec F S256x256 .f32) (x4 : Vec F S1x256 .f32) (x5 : Vec F S1x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Run1C.lean ====
/- The aggregation kernel's body run symbolically, case 0 < k = i < 7. -/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with 0 < k = i < 7: the accumulator, at `xs0` on entry, receives the product of the adjacency block with the operand's rows of block k added, and then the operand's diagonal rows (block i) added; the output buffer is untouched and handed back at its entry contents. The six inputs are owned at their contents throughout. The pieces the accumulator ends with are the witness the symbolic run finds. -/
noncomputable def kernelRun1_C (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬cond1_0 i) (hc1 : cond1_1 i) (hc2 : ¬cond1_2 i)
    (x0 : Vec F S1024x1024 .bf16) (x1 : Vec F S8192x256 .bf16) (x2 : Vec F S1024x1 .f32) (x3 : Vec F S256x256 .f32) (x4 : Vec F S1x256 .f32) (x5 : Vec F S1x256 .f32) (xs0 : Vec F S1024x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Run1D.lean ====
/- The aggregation kernel's body run symbolically, case 0 < k < 7, k ≠ i. -/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with 0 < k < 7 and k ≠ i: the accumulator, at `xs0` on entry, receives the product of the adjacency block with the operand's rows of block k added; the output buffer is untouched and handed back at its entry contents. The six inputs are owned at their contents throughout. The pieces the accumulator ends with are the witness the symbolic run finds. -/
noncomputable def kernelRun1_D (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬cond1_0 i) (hc1 : ¬cond1_1 i) (hc2 : ¬cond1_2 i)
    (x0 : Vec F S1024x1024 .bf16) (x1 : Vec F S8192x256 .bf16) (x2 : Vec F S1024x1 .f32) (x3 : Vec F S256x256 .f32) (x4 : Vec F S1x256 .f32) (x5 : Vec F S1x256 .f32) (xs0 : Vec F S1024x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Run1E.lean ====
/- The aggregation kernel's body run symbolically, case k = 7 ≠ i. -/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at a point with k = 7 ≠ i: the accumulator, at `xs0` on entry, receives the product of the adjacency block with the operand's rows of block k added, and the output buffer, at anything on entry, is stored the finalized rows (scaled, multiplied by the weights, the two bias rows added). The six inputs are owned at their contents throughout. The pieces both end with are the witness the symbolic run finds. -/
noncomputable def kernelRun1_E (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬cond1_0 i) (hc1 : ¬cond1_1 i) (hc2 : cond1_2 i)
    (x0 : Vec F S1024x1024 .bf16) (x1 : Vec F S8192x256 .bf16) (x2 : Vec F S1024x1 .f32) (x3 : Vec F S256x256 .f32) (x4 : Vec F S1x256 .f32) (x5 : Vec F S1x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Run1F.lean ====
/- The aggregation kernel's body run symbolically, case k = 7 = i. -/
import proofs.«114961_j26431228739923_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The aggregation kernel's body at the point with k = 7 = i: the accumulator, at `xs0` on entry, receives the product of the adjacency block with the operand's rows of block k added, then the operand's diagonal rows (block i) added, and the output buffer, at anything on entry, is stored the finalized rows (scaled, multiplied by the weights, the two bias rows added). The six inputs are owned at their contents throughout. The pieces both end with are the witness the symbolic run finds. -/
noncomputable def kernelRun1_F (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬cond1_0 i) (hc1 : cond1_1 i) (hc2 : cond1_2 i)
    (x0 : Vec F S1024x1024 .bf16) (x1 : Vec F S8192x256 .bf16) (x2 : Vec F S1024x1 .f32) (x3 : Vec F S256x256 .f32) (x4 : Vec F S1x256 .f32) (x5 : Vec F S1x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Data1.lean ====
/-
  The second kernel's frame data at a parameter `V` (the buffer contents when its region is entered): what each of
  its six control cases leaves in the accumulator and in the output block; the accumulator point by point (reset at
  the first column block of a row block, the block product added at every column block, the diagonal rows added where
  the column block is the row block); the output block stored at the last column block; the region invariant carrying
  the accumulator from one grid point to the next; the proof data and the body obligation.
-/
import proofs.«114961_j26431228739923_2_alg».proof.Proof.KI.Kit
import proofs.«114961_j26431228739923_2_alg».proof.Proof.KI.Run1A
import proofs.«114961_j26431228739923_2_alg».proof.Proof.KI.Run1B
import proofs.«114961_j26431228739923_2_alg».proof.Proof.KI.Run1C
import proofs.«114961_j26431228739923_2_alg».proof.Proof.KI.Run1D
import proofs.«114961_j26431228739923_2_alg».proof.Proof.KI.Run1E
import proofs.«114961_j26431228739923_2_alg».proof.Proof.KI.Run1F

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves (cases: A reset and diagonal; B reset; C diagonal; D plain; E last; F last and diagonal) -/

section Cases
variable (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
  (x0 : Vec F S1024x1024 .bf16) (x1 : Vec F S8192x256 .bf16) (x2 : Vec F S1024x1 .f32) (x3 : Vec F S256x256 .f32) (x4 : Vec F S1x256 .f32) (x5 : Vec F S1x256 .f32)

theorem scover1_A_0 (hc0 : cond1_0 i) (hc1 : cond1_1 i) (hc2 : ¬cond1_2 i) (y : S1024x256.Idx) :
    ∃ pc ∈ (kernelRun1_A c i arg2 harg2 arg3 harg3 arg4 harg4 arg5 harg5 arg6 harg6 arg7 harg7 arg8 harg8 arg9 harg9 hc0 hc1 hc2 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 hc2 x0 x1 x2 x3 x4 x5).2.1 S1024x256.size (by sl_kernel_rfl) y
def sout1_A_0 (hc0 : cond1_0 i) (hc1 : cond1_1 i) (hc2 : ¬cond1_2 i) : Vec F S1024x256 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 hc2 x0 x1 x2 x3 x4 x5).2.1)

theorem scover1_B_0 (hc0 : cond1_0 i) (hc1 : ¬cond1_1 i) (hc2 : ¬cond1_2 i) (y : S1024x256.Idx) :
    ∃ pc ∈ (kernelRun1_B c i arg2 harg2 arg3 harg3 arg4 harg4 arg5 harg5 arg6 harg6 arg7 harg7 arg8 harg8 arg9 harg9 hc0 hc1 hc2 x0 x1 x2 x3 x4 x5).2.1, y ∈ pc.1.set :=
  View.cover_of_tiledL (kernelRun1_B c i arg2 harg2 arg3 harg3 arg4 harg4 arg5 harg5 arg6 harg6 arg7 harg7 arg8 harg8 arg9 harg9 hc0 hc1 hc2 x0 x1 x2 x3 x4 x5).2.1 S1024x256.size (by sl_kernel_rfl) y
def sout1_B_0 (hc0 : cond1_0 i) (hc1 : ¬cond1_1 i) (hc2 : ¬cond1_2 i) : Vec F S1024x256 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 hc2 x0 x1 x2 x3 x4 x5).2.1)

theorem scover1_C_0 (hc0 : ¬cond1_0 i) (hc1 : cond1_1 i) (hc2 : ¬cond1_2 i) (xs0 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 hc2 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 hc2 x0 x1 x2 x3 x4 x5 xs0).2.1 S1024x256.size (by sl_kernel_rfl) y
def sout1_C_0 (hc0 : ¬cond1_0 i) (hc1 : cond1_1 i) (hc2 : ¬cond1_2 i) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 hc2 x0 x1 x2 x3 x4 x5 xs0).2.1)

theorem scover1_D_0 (hc0 : ¬cond1_0 i) (hc1 : ¬cond1_1 i) (hc2 : ¬cond1_2 i) (xs0 : Vec F S1024x256 .f32) (y : S1024x256.Idx) :
    ∃ pc ∈ (kernelRun1_D c i arg2 harg2 arg3 harg3 arg4 harg4 arg5 harg5 arg6 harg6 arg7 harg7 arg8 harg8 arg9 harg9 hc0 hc1 hc2 x0 x1 x2 x3 x4 x5 xs0).2.1, y ∈ pc.1.set :=
  View.cover_of_tiledL (kernelRun1_D c i arg2 harg2 arg3 harg3 arg4 harg4 arg5 harg5 arg6 harg6 arg7 harg7 arg8 harg8 arg9 harg9 hc0 hc1 hc2 x0 x1 x2 x3 x4 x5 xs0).2.1 S1024x256.size (by sl_kernel_rfl) y
def sout1_D_0 (hc0 : ¬cond1_0 i) (hc1 : ¬cond1_1 i) (hc2 : ¬cond1_2 i) (xs0 : Vec F S1024x256 .f32) : Vec F S1024x256 .f32 :=
  VS1_0.read (Elt F) (VS1_0.writes (Elt F) VS1_0.junk (kernelRun1_D c i arg2 harg2 arg3 harg3 arg4 harg4 arg5 harg5 arg6 harg6 arg7 harg7 arg8 harg8 arg9 harg9 hc0 hc1 hc2 x0 x1 x2 x3 x4 x5 xs0).2.1)

theorem scover1_E_0 (hc0 : ¬cond1_0 i) (hc1 : ¬cond1_1 i) (hc2 : cond1_2 i) (xs0 : Vec F S1024x256 .f32) (y : S1024x256.Idx) :
    ∃ pc ∈ (kernelRun1_E c i arg2 harg2 arg3 harg3 arg4 harg4 arg5 harg5 arg6 harg6 arg7 harg7 arg8 harg8 arg9 harg9 hc0 hc1 hc2 x0 x1 x2 x3 x4 x5 xs0).2.1, y ∈ pc.1.set :=
  View.cover_of_tiledL (kernelRun1_E c i arg2 harg2 arg3 harg3 arg4 harg4 arg5 harg5 arg6 harg6 arg7 harg7 arg8 harg8 arg9 harg9 hc0 hc1 hc2 x0 x1 x2 x3 x4 x5 xs0).2.1 S1024x256.size (by sl_kernel_rfl) y
def sout1_E_0 (hc0 : ¬cond1_0 i) (hc1 : ¬cond1_1 i) (hc2 : cond1_2 i) (xs0 : Vec F S1024x256 .f32) : Vec F S1024x256 .f32 :=
  VS1_0.read (Elt F) (VS1_0.writes (Elt F) VS1_0.junk (kernelRun1_E c i arg2 harg2 arg3 harg3 arg4 harg4 arg5 harg5 arg6 harg6 arg7 harg7 arg8 harg8 arg9 harg9 hc0 hc1 hc2 x0 x1 x2 x3 x4 x5 xs0).2.1)
theorem cover1_E_6 (hc0 : ¬cond1_0 i) (hc1 : ¬cond1_1 i) (hc2 : cond1_2 i) (xs0 : Vec F S1024x256 .f32) (y : S1024x256.Idx) :
    ∃ pc ∈ (kernelRun1_E c i arg2 harg2 arg3 harg3 arg4 harg4 arg5 harg5 arg6 harg6 arg7 harg7 arg8 harg8 arg9 harg9 hc0 hc1 hc2 x0 x1 x2 x3 x4 x5 xs0).1, y ∈ pc.1.set :=
  View.cover_of_tiledL (kernelRun1_E c i arg2 harg2 arg3 harg3 arg4 harg4 arg5 harg5 arg6 harg6 arg7 harg7 arg8 harg8 arg9 harg9 hc0 hc1 hc2 x0 x1 x2 x3 x4 x5 xs0).1 S1024x256.size (by sl_kernel_rfl) y
def out1_E_6 (hc0 : ¬cond1_0 i) (hc1 : ¬cond1_1 i) (hc2 : cond1_2 i) (xs0 : Vec F S1024x256 .f32) : Vec F S1024x256 .f32 :=
  VO1_6.read (Elt F) (VO1_6.writes (Elt F) VO1_6.junk (kernelRun1_E c i arg2 harg2 arg3 harg3 arg4 harg4 arg5 harg5 arg6 harg6 arg7 harg7 arg8 harg8 arg9 harg9 hc0 hc1 hc2 x0 x1 x2 x3 x4 x5 xs0).1)

theorem scover1_F_0 (hc0 : ¬cond1_0 i) (hc1 : cond1_1 i) (hc2 : cond1_2 i) (xs0 : Vec F S1024x256 .f32) (y : S1024x256.Idx) :
    ∃ pc ∈ (kernelRun1_F c i arg2 harg2 arg3 harg3 arg4 harg4 arg5 harg5 arg6 harg6 arg7 harg7 arg8 harg8 arg9 harg9 hc0 hc1 hc2 x0 x1 x2 x3 x4 x5 xs0).2.1, y ∈ pc.1.set :=
  View.cover_of_tiledL (kernelRun1_F c i arg2 harg2 arg3 harg3 arg4 harg4 arg5 harg5 arg6 harg6 arg7 harg7 arg8 harg8 arg9 harg9 hc0 hc1 hc2 x0 x1 x2 x3 x4 x5 xs0).2.1 S1024x256.size (by sl_kernel_rfl) y
def sout1_F_0 (hc0 : ¬cond1_0 i) (hc1 : cond1_1 i) (hc2 : cond1_2 i) (xs0 : Vec F S1024x256 .f32) : Vec F S1024x256 .f32 :=
  VS1_0.read (Elt F) (VS1_0.writes (Elt F) VS1_0.junk (kernelRun1_F c i arg2 harg2 arg3 harg3 arg4 harg4 arg5 harg5 arg6 harg6 arg7 harg7 arg8 harg8 arg9 harg9 hc0 hc1 hc2 x0 x1 x2 x3 x4 x5 xs0).2.1)
theorem cover1_F_6 (hc0 : ¬cond1_0 i) (hc1 : cond1_1 i) (hc2 : cond1_2 i) (xs0 : Vec F S1024x256 .f32) (y : S1024x256.Idx) :
    ∃ pc ∈ (kernelRun1_F c i arg2 harg2 arg3 harg3 arg4 harg4 arg5 harg5 arg6 harg6 arg7 harg7 arg8 harg8 arg9 harg9 hc0 hc1 hc2 x0 x1 x2 x3 x4 x5 xs0).1, y ∈ pc.1.set :=
  View.cover_of_tiledL (kernelRun1_F c i arg2 harg2 arg3 harg3 arg4 harg4 arg5 harg5 arg6 harg6 arg7 harg7 arg8 harg8 arg9 harg9 hc0 hc1 hc2 x0 x1 x2 x3 x4 x5 xs0).1 S1024x256.size (by sl_kernel_rfl) y
def out1_F_6 (hc0 : ¬cond1_0 i) (hc1 : cond1_1 i) (hc2 : cond1_2 i) (xs0 : Vec F S1024x256 .f32) : Vec F S1024x256 .f32 :=
  VO1_6.read (Elt F) (VO1_6.writes (Elt F) VO1_6.junk (kernelRun1_F c i arg2 harg2 arg3 harg3 arg4 harg4 arg5 harg5 arg6 harg6 arg7 harg7 arg8 harg8 arg9 harg9 hc0 hc1 hc2 x0 x1 x2 x3 x4 x5 xs0).1)

end Cases

section Regions
variable (V : (c : Dev nD) → (b : Ref sig .tc) → Buf (Elt F) ((c : Thread nD τ).loc b))

/-! ## Each case at a grid point, on the memrefs and the input blocks the pipeline calls the body with there -/

def accA (c : Dev nD) (t : Fin cfg1.N) (hc0 : cond1_0 (grid1.coords t)) (hc1 : cond1_1 (grid1.coords t)) (hc2 : ¬cond1_2 (grid1.coords t)) : Vec F S1024x256 .f32 :=
  sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2
def accB (c : Dev nD) (t : Fin cfg1.N) (hc0 : cond1_0 (grid1.coords t)) (hc1 : ¬cond1_1 (grid1.coords t)) (hc2 : ¬cond1_2 (grid1.coords t)) : Vec F S1024x256 .f32 :=
  sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2
def accC (c : Dev nD) (t : Fin cfg1.N) (hc0 : ¬cond1_0 (grid1.coords t)) (hc1 : cond1_1 (grid1.coords t)) (hc2 : ¬cond1_2 (grid1.coords t)) (xs0 : Vec F S1024x256 .f32) : Vec F S1024x256 .f32 :=
  sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def accD (c : Dev nD) (t : Fin cfg1.N) (hc0 : ¬cond1_0 (grid1.coords t)) (hc1 : ¬cond1_1 (grid1.coords t)) (hc2 : ¬cond1_2 (grid1.coords t)) (xs0 : Vec F S1024x256 .f32) : Vec F S1024x256 .f32 :=
  sout1_D_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def accE (c : Dev nD) (t : Fin cfg1.N) (hc0 : ¬cond1_0 (grid1.coords t)) (hc1 : ¬cond1_1 (grid1.coords t)) (hc2 : cond1_2 (grid1.coords t)) (xs0 : Vec F S1024x256 .f32) : Vec F S1024x256 .f32 :=
  sout1_E_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def accF (c : Dev nD) (t : Fin cfg1.N) (hc0 : ¬cond1_0 (grid1.coords t)) (hc1 : cond1_1 (grid1.coords t)) (hc2 : cond1_2 (grid1.coords t)) (xs0 : Vec F S1024x256 .f32) : Vec F S1024x256 .f32 :=
  sout1_F_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def outE (c : Dev nD) (t : Fin cfg1.N) (hc0 : ¬cond1_0 (grid1.coords t)) (hc1 : ¬cond1_1 (grid1.coords t)) (hc2 : cond1_2 (grid1.coords t)) (xs0 : Vec F S1024x256 .f32) : Vec F S1024x256 .f32 :=
  out1_E_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0
def outF (c : Dev nD) (t : Fin cfg1.N) (hc0 : ¬cond1_0 (grid1.coords t)) (hc1 : cond1_1 (grid1.coords t)) (hc2 : cond1_2 (grid1.coords t)) (xs0 : Vec F S1024x256 .f32) : Vec F S1024x256 .f32 :=
  out1_F_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (iblk1 V c 5 t) hc0 hc1 hc2 xs0

/-! ## The accumulator and the output block, point by point -/

/-- The accumulator after the body at position `n` (row-major: row block `n / 8`, column block `n % 8`; the column block is
    the row block exactly when `n % 9 = 0`). -/
def accAt1 (c : Dev nD) : (n : ℕ) → n < cfg1.N → Vec F S1024x256 .f32
  | 0, hn => accA V c ⟨0, hn⟩ ((hcond1_0 ⟨0, hn⟩).mpr (Nat.zero_mod _)) ((hcond1_1 ⟨0, hn⟩).mpr (Nat.zero_mod _))
      (fun h => (fun h => by (try dsimp only at h); omega) ((hcond1_2 ⟨0, hn⟩).mp h))
  | n + 1, hn =>
    if h0 : (n + 1) % 8 = 0 then
      accB V c ⟨n + 1, hn⟩ ((hcond1_0 ⟨n + 1, hn⟩).mpr h0)
        (fun h => (fun h => by (try dsimp only at h); have hN : n + 1 < 64 := lt_of_lt_of_eq hn (show cfg1.N = 64 from N_1); omega) ((hcond1_1 ⟨n + 1, hn⟩).mp h))
        (fun h => (fun h => by (try dsimp only at h); omega) ((hcond1_2 ⟨n + 1, hn⟩).mp h))
    else if h2 : (n + 1) % 8 = 7 then
      if h1 : (n + 1) % 9 = 0 then
        accF V c ⟨n + 1, hn⟩ (fun h => h0 ((hcond1_0 ⟨n + 1, hn⟩).mp h)) ((hcond1_1 ⟨n + 1, hn⟩).mpr h1) ((hcond1_2 ⟨n + 1, hn⟩).mpr h2) (accAt1 c n (Nat.lt_of_succ_lt hn))
      else
        accE V c ⟨n + 1, hn⟩ (fun h => h0 ((hcond1_0 ⟨n + 1, hn⟩).mp h)) (fun h => h1 ((hcond1_1 ⟨n + 1, hn⟩).mp h)) ((hcond1_2 ⟨n + 1, hn⟩).mpr h2) (accAt1 c n (Nat.lt_of_succ_lt hn))
    else
      if h1 : (n + 1) % 9 = 0 then
        accC V c ⟨n + 1, hn⟩ (fun h => h0 ((hcond1_0 ⟨n + 1, hn⟩).mp h)) ((hcond1_1 ⟨n + 1, hn⟩).mpr h1) (fun h => h2 ((hcond1_2 ⟨n + 1, hn⟩).mp h)) (accAt1 c n (Nat.lt_of_succ_lt hn))
      else
        accD V c ⟨n + 1, hn⟩ (fun h => h0 ((hcond1_0 ⟨n + 1, hn⟩).mp h)) (fun h => h1 ((hcond1_1 ⟨n + 1, hn⟩).mp h)) (fun h => h2 ((hcond1_2 ⟨n + 1, hn⟩).mp h)) (accAt1 c n (Nat.lt_of_succ_lt hn))

theorem accAt1_A (c : Dev nD) (t : Fin cfg1.N) (h0 : t.val % 8 = 0) (h1 : t.val % 9 = 0) (h2 : ¬t.val % 8 = 7) :
    accAt1 V c t.val t.isLt = accA V c t ((hcond1_0 t).mpr h0) ((hcond1_1 t).mpr h1) (fun h => h2 ((hcond1_2 t).mp h)) := by
  obtain ⟨n, hn⟩ := t
  cases n with
  | zero => exact rfl
  | succ n => exact (by exfalso; (try dsimp only at h0 h1); have hN : n + 1 < 64 := lt_of_lt_of_eq hn (show cfg1.N = 64 from N_1); omega)

theorem accAt1_B (c : Dev nD) (t : Fin cfg1.N) (h0 : t.val % 8 = 0) (h1 : ¬t.val % 9 = 0) (h2 : ¬t.val % 8 = 7) :
    accAt1 V c t.val t.isLt = accB V c t ((hcond1_0 t).mpr h0) (fun h => h1 ((hcond1_1 t).mp h)) (fun h => h2 ((hcond1_2 t).mp h)) := by
  obtain ⟨n, hn⟩ := t
  cases n with
  | zero => exact (by exfalso; (try dsimp only at h1); exact absurd (Nat.zero_mod _) h1)
  | succ n => exact (dif_pos h0).trans rfl

theorem accAt1_C (c : Dev nD) (t : Fin cfg1.N) (h0 : ¬t.val % 8 = 0) (h1 : t.val % 9 = 0) (h2 : ¬t.val % 8 = 7) :
    accAt1 V c t.val t.isLt = accC V c t (fun h => h0 ((hcond1_0 t).mp h)) ((hcond1_1 t).mpr h1) (fun h => h2 ((hcond1_2 t).mp h))
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans ((dif_pos h1).trans rfl))

theorem accAt1_D (c : Dev nD) (t : Fin cfg1.N) (h0 : ¬t.val % 8 = 0) (h1 : ¬t.val % 9 = 0) (h2 : ¬t.val % 8 = 7) :
    accAt1 V c t.val t.isLt = accD V c t (fun h => h0 ((hcond1_0 t).mp h)) (fun h => h1 ((hcond1_1 t).mp h)) (fun h => h2 ((hcond1_2 t).mp h))
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans ((dif_neg h1).trans rfl))

theorem accAt1_E (c : Dev nD) (t : Fin cfg1.N) (h0 : ¬t.val % 8 = 0) (h1 : ¬t.val % 9 = 0) (h2 : t.val % 8 = 7) :
    accAt1 V c t.val t.isLt = accE V c t (fun h => h0 ((hcond1_0 t).mp h)) (fun h => h1 ((hcond1_1 t).mp h)) ((hcond1_2 t).mpr h2)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans ((dif_neg h1).trans rfl))

theorem accAt1_F (c : Dev nD) (t : Fin cfg1.N) (h0 : ¬t.val % 8 = 0) (h1 : t.val % 9 = 0) (h2 : t.val % 8 = 7) :
    accAt1 V c t.val t.isLt = accF V c t (fun h => h0 ((hcond1_0 t).mp h)) ((hcond1_1 t).mpr h1) ((hcond1_2 t).mpr h2)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans ((dif_pos h1).trans rfl))

/-- The output block's staging buffer after the body at point `t`: at a last column block what that case stores, over
    the accumulator the point before left; elsewhere the window is idle and nothing reads this (a placeholder). -/
def outAt1 (c : Dev nD) (t : Fin cfg1.N) : Vec F S1024x256 .f32 :=
  if h2 : t.val % 8 = 7 then
    if h1 : t.val % 9 = 0 then
      outF V c t (fun h => (by omega : ¬t.val % 8 = 0) ((hcond1_0 t).mp h)) ((hcond1_1 t).mpr h1) ((hcond1_2 t).mpr h2)
        (accAt1 V c (t.val - 1) (Nat.lt_of_le_of_lt (Nat.sub_le _ _) t.isLt))
    else
      outE V c t (fun h => (by omega : ¬t.val % 8 = 0) ((hcond1_0 t).mp h)) (fun h => h1 ((hcond1_1 t).mp h)) ((hcond1_2 t).mpr h2)
        (accAt1 V c (t.val - 1) (Nat.lt_of_le_of_lt (Nat.sub_le _ _) t.isLt))
  else VO1_6.read (Elt F) VO1_6.junk

/-! ## The region invariant -/

def PhiS1 (c : Dev nD) : (n : ℕ) → n ≤ cfg1.N → sProp 𝕄
  | 0, _ => Pipeline.ΦA spec1 c
  | n + 1, hn => iprop(scoped1 c (owns (c : Thread nD τ) scM1_0 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare (accAt1 V c n hn)) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare (accAt1 V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 32000000 in
/-- The body at any point: the column block and the row block decide the case; the invariant hands the body the
    accumulator at what the point before left (at anything where it is reset) and takes it back at this point's
    contents; the six input blocks pass through; the output block is handed back untouched except at the last column
    block, where it is stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  by_cases h0 : t.val % 8 = 0
  · have h2 : ¬t.val % 8 = 7 := by omega
    have hc0 : cond1_0 (grid1.coords t) := (hcond1_0 t).mpr h0
    have hnc2 : ¬cond1_2 (grid1.coords t) := fun h => h2 ((hcond1_2 t).mp h)
    by_cases h1 : t.val % 9 = 0
    · have hz : t.val = 0 := by omega
      have hc1 : cond1_1 (grid1.coords t) := (hcond1_1 t).mpr h1
      rw [Dat.leavesExact_idle (dat1 V c) 6 t (idleAt1_6 t hnc2) (noFlush1_6 t hnc2)]
      rw [accAt1_A V c t h0 h1 h2]
      unfold accA sout1_A_0; (try dsimp only)
      rw [PhiS1_castSucc V c t, PhiS1_zero V c _ _ hz, PhiA1_eq]; unfold scoped1
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 hnc2 (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hb1 Hb2 Hb3 Hb4 Hb5 Hg]
      · isplitl [HS0 Hb1 Hb2 Hb3 Hb4 Hb5]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scover1_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hz : t.val ≠ 0 := fun e => h1 (by rw [e])
      have hnc1 : ¬cond1_1 (grid1.coords t) := fun h => h1 ((hcond1_1 t).mp h)
      rw [Dat.leavesExact_idle (dat1 V c) 6 t (idleAt1_6 t hnc2) (noFlush1_6 t hnc2)]
      rw [accAt1_B V c t h0 h1 h2]
      unfold accB sout1_B_0; (try dsimp only)
      rw [PhiS1_castSucc V c t, PhiS1_pos V c _ _ hz]; unfold scoped1
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ hc0 hnc1 hnc2 (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hb1 Hb2 Hb3 Hb4 Hb5 Hg]
      · isplitl [HS0 Hb1 Hb2 Hb3 Hb4 Hb5]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    have hnc0 : ¬cond1_0 (grid1.coords t) := fun h => h0 ((hcond1_0 t).mp h)
    by_cases h2 : t.val % 8 = 7
    · have hc2 : cond1_2 (grid1.coords t) := (hcond1_2 t).mpr h2
      by_cases h1 : t.val % 9 = 0
      · have hc1 : cond1_1 (grid1.coords t) := (hcond1_1 t).mpr h1
        rw [show (dat1 V c).leavesExact 6 t = owns (c : Thread nD τ) (ms1_6 t) fullShare ((dat1 V c).after 6 t) from by
          unfold Dat.leavesExact; rw [liveAt1_6 t hc2], after1_6]
        rw [accAt1_F V c t h0 h1 h2, show outAt1 V c t = _ from (dif_pos h2).trans (dif_pos h1)]
        unfold accF sout1_F_0 outF out1_F_6; (try dsimp only)
        rw [PhiS1_castSucc V c t, PhiS1_pos V c _ _ hz]; unfold scoped1
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_F c (grid1.coords t) _ _ _ _ _ _ _ _ _ _ _ _ _ _ _ _ hnc0 hc1 hc2 (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hb1 Hb2 Hb3 Hb4 Hb5 Hg]
        · isplitl [HS0 Hb1 Hb2 Hb3 Hb4 Hb5]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_F_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_F_6 c _ _ _ _ _ _ _ _ _ _ _ _ _ _ _ _ _ _ _ _ _ _ _ _ _ _ _)
      · have hnc1 : ¬cond1_1 (grid1.coords t) := fun h => h1 ((hcond1_1 t).mp h)
        rw [show (dat1 V c).leavesExact 6 t = owns (c : Thread nD τ) (ms1_6 t) fullShare ((dat1 V c).after 6 t) from by
          unfold Dat.leavesExact; rw [liveAt1_6 t hc2], after1_6]
        rw [accAt1_E V c t h0 h1 h2, show outAt1 V c t = _ from (dif_pos h2).trans (dif_neg h1)]
        unfold accE sout1_E_0 outE out1_E_6; (try dsimp only)
        rw [PhiS1_castSucc V c t, PhiS1_pos V c _ _ hz]; unfold scoped1
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_E c (grid1.coords t) _ _ _ _ _ _ _ _ _ _ _ _ _ _ _ _ hnc0 hnc1 hc2 (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hb1 Hb2 Hb3 Hb4 Hb5 Hg]
        · isplitl [HS0 Hb1 Hb2 Hb3 Hb4 Hb5]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_E_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_E_6 c _ _ _ _ _ _ _ _ _ _ _ _ _ _ _ _ _ _ _ _ _ _ _ _ _ _ _)
    · have hnc2 : ¬cond1_2 (grid1.coords t) := fun h => h2 ((hcond1_2 t).mp h)
      by_cases h1 : t.val % 9 = 0
      · have hc1 : cond1_1 (grid1.coords t) := (hcond1_1 t).mpr h1
        rw [Dat.leavesExact_idle (dat1 V c) 6 t (idleAt1_6 t hnc2) (noFlush1_6 t hnc2)]
        rw [accAt1_C V c t h0 h1 h2]
        unfold accC sout1_C_0; (try dsimp only)
        rw [PhiS1_castSucc V c t, PhiS1_pos V c _ _ hz]; unfold scoped1
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ hnc0 hc1 hnc2 (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hb1 Hb2 Hb3 Hb4 Hb5 Hg]
        · isplitl [HS0 Hb1 Hb2 Hb3 Hb4 Hb5]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_C_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · have hnc1 : ¬cond1_1 (grid1.coords t) := fun h => h1 ((hcond1_1 t).mp h)
        rw [Dat.leavesExact_idle (dat1 V c) 6 t (idleAt1_6 t hnc2) (noFlush1_6 t hnc2)]
        rw [accAt1_D V c t h0 h1 h2]
        unfold accD sout1_D_0; (try dsimp only)
        rw [PhiS1_castSucc V c t, PhiS1_pos V c _ _ hz]; unfold scoped1
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_D c (grid1.coords t) _ _ _ _ _ _ _ _ _ _ _ _ _ _ _ _ hnc0 hnc1 hnc2 (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hb1 Hb2 Hb3 Hb4 Hb5 Hg]
        · isplitl [HS0 Hb1 Hb2 Hb3 Hb4 Hb5]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_D_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold scoped1
  iintro ⟨⟨Hb1, Hb2, Hb3, Hb4, Hb5, HS0⟩, Hg⟩
  isplitl [HS0 Hb1 Hb2 Hb3 Hb4 Hb5]
  · isplitl [Hb1]; · iexact Hb1
    isplitl [Hb2]; · iexact Hb2
    isplitl [Hb3]; · iexact Hb3
    isplitl [Hb4]; · iexact Hb4
    isplitl [Hb5]; · iexact Hb5
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Regions

end Cert.KernelIdeal.Hand

end
-- ==== Proof.KI.Launch.lean ====
/-
  The run of the whole program at any float instance: the buffer contents at every boundary between @main's items
  (a fold from the launch memory: a host stretch applies its operations; a kernel region leaves its arrays at what
  its write-backs leave), every pipeline's proof data at its region's entry contents, each region as a segment
  around the thread state "every unscoped buffer at the boundary's contents, the generator register at some state,
  nothing owed", and the run: every weakly fair execution terminates and every unscoped buffer ends at the last
  boundary's contents.
-/
import proofs.«114961_j26431228739923_2_alg».proof.Proof.KI.Data0
import proofs.«114961_j26431228739923_2_alg».proof.Proof.KI.Data1
import proofs.«114961_j26431228739923_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations that build the adjacency (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the regions (the second region's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first region: entered from every unscoped buffer at `W1`, left at `W2`; the generator register into the
    invariant and out; the accumulator's contents forgotten at the exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]

set_option backward.isDefEq.respectTransparency.types false in
/-- THE RUN, at any float instance: from any memory with zero counters every weakly fair execution of @main on the
    TensorCores terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Hand

end
-- ==== Proof.KI.Args.lean ====
/-
  The argument arrays at the last boundary are the launch contents: no host operation writes an argument, the first
  region's arrays are the adjacency and the degree column, and the second region reads the weight matrix through an
  input window (never written back) and touches no other argument. With that, the frame claim at any float instance.
-/
import proofs.«114961_j26431228739923_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A reference no host stretch writes and no window of the first region stages holds, when the second region is
    entered, its launch contents. -/
theorem W5_of_launch (c : Dev nD) (r : Ref sig .tc) (h0 : r ∉ hostOps0_W) (h1 : r ∉ hostOps1_W) (h2 : r ∉ hostOps1_1_W)
    (h3 : r ∉ hostOps1_2_W) (hw : ∀ w, Pipeline.arrRef spec0 w ≠ r) :
    W5 m ρ c (Proc.devRef .tc r) = m ((c : Thread nD τ).loc r) :=
  calc W5 m ρ c (Proc.devRef .tc r)
    _ = W4 m ρ c (Proc.devRef .tc r) := StableHlo.after_of_writes_sub hostOps1_2 _ hostOps1_2_writes h3
    _ = W3 m ρ c (Proc.devRef .tc r) := StableHlo.after_of_writes_sub hostOps1_1 _ hostOps1_1_writes h2
    _ = W2 m ρ c (Proc.devRef .tc r) := StableHlo.after_of_writes_sub hostOps1 _ hostOps1_writes h1
    _ = W1 m ρ c (Proc.devRef .tc r) := W2_of_ne m ρ c r hw
    _ = W0 m ρ c (Proc.devRef .tc r) := StableHlo.after_of_writes_sub hostOps0 _ hostOps0_writes h0
    _ = m ((c : Thread nD τ).loc r) := rfl

theorem W6_main_arg0 (c : Dev nD) : W6 m ρ c (Proc.devRef .tc main_arg0) = m ((c : Thread nD τ).loc main_arg0) :=
  (W6_of_ne m ρ c main_arg0 (by decide)).trans (W5_of_launch m ρ c main_arg0 (by decide) (by decide) (by decide) (by decide) (by decide))
theorem W6_main_arg2 (c : Dev nD) : W6 m ρ c (Proc.devRef .tc main_arg2) = m ((c : Thread nD τ).loc main_arg2) :=
  (W6_of_ne m ρ c main_arg2 (by decide)).trans (W5_of_launch m ρ c main_arg2 (by decide) (by decide) (by decide) (by decide) (by decide))
theorem W6_main_arg3 (c : Dev nD) : W6 m ρ c (Proc.devRef .tc main_arg3) = m ((c : Thread nD τ).loc main_arg3) :=
  (W6_of_ne m ρ c main_arg3 (by decide)).trans (W5_of_launch m ρ c main_arg3 (by decide) (by decide) (by decide) (by decide) (by decide))
theorem W6_main_arg4 (c : Dev nD) : W6 m ρ c (Proc.devRef .tc main_arg4) = m ((c : Thread nD τ).loc main_arg4) :=
  (W6_of_ne m ρ c main_arg4 (by decide)).trans (W5_of_launch m ρ c main_arg4 (by decide) (by decide) (by decide) (by decide) (by decide))
/-- The weight matrix is the second region's input window 3: read, never written back. -/
theorem W6_main_arg1 (c : Dev nD) : W6 m ρ c (Proc.devRef .tc main_arg1) = m ((c : Thread nD τ).loc main_arg1) :=
  calc W6 m ρ c (Proc.devRef .tc main_arg1)
    _ = (dat1 (V5 m ρ) c).arrAt 3 cfg1.N := W6_arr m ρ c 3
    _ = V5 m ρ c main_arg1 := ((dat1 (V5 m ρ) c).arrAt_in 3 rfl _).trans (A_eq1 (V5 m ρ) c 3)
    _ = m ((c : Thread nD τ).loc main_arg1) := W5_of_launch m ρ c main_arg1 (by decide) (by decide) (by decide) (by decide) (by decide)

/-- THE FRAME at any float instance: every weakly fair execution terminates, nothing faulting, and the five argument
    arrays end as launched. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Hand

end
-- ==== Proof.KI.Pieces0.lean ====
/- What each control case of the row-degree kernel leaves in the accumulator and in the output block, read back as the kernel's payload functions of the block and of the accumulator's entry contents. -/
import proofs.«114961_j26431228739923_2_alg».proof.Proof.KI.Data0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two rectangle, as the constant function. -/
theorem hz2 : (![0, 0] : Fin 2 → Nat) = fun _ => 0 := funext fun a => by fin_cases a <;> rfl

/-- At a first column block the accumulator ends holding the block's row sums added to the reset value. -/
theorem sout0_A_0_eq (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .bf16) :
    sout0_A_0 c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1024x1) hz2, View.readCov_unit_zero (S := S1024x1) _ hz2]
  simp only [View.readAt_eq_ld, harg2.read_unread, View.ld_unit_zero (S := S1024x1024) hz2]

/-- At a middle column block the accumulator ends holding the block's row sums added to what it held. -/
theorem sout0_B_0_eq (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .bf16) (xs0 : Vec F S1024x1 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  rw [View.canon_unit_zero hz2]
  simp only [View.readAt_eq_ld, harg2.read_unread, harg4.read_unread, View.ld_unit_zero (S := S1024x1024) hz2, View.ld_unit_zero (S := S1024x1) hz2]

/-- At the last column block the accumulator ends holding the block's row sums added to what it held. -/
theorem sout0_C_0_eq (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz2]
  simp only [View.readAt_eq_ld, harg2.read_unread, harg4.read_unread, View.ld_unit_zero (S := S1024x1024) hz2, View.ld_unit_zero (S := S1024x1) hz2]

/-- At the last column block the output block is stored the accumulator's final contents plus one. -/
theorem out0_C_1_eq (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .bf16) (xs0 : Vec F S1024x1 .f32) :
    out0_C_1 c i arg2 harg2 arg3 harg3 arg4 harg4 hc0 hc1 x0 xs0 = k0_pay3 (k0_pay2 x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz2, View.readCov_unit_zero (S := S1024x1) _ hz2]
  simp only [View.readAt_eq_ld, harg2.read_unread, harg4.read_unread, View.ld_unit_zero (S := S1024x1024) hz2, View.ld_unit_zero (S := S1024x1) hz2]

end Cert.KernelIdeal.Hand

end
-- ==== Proof.Spec.lean ====
/- The two results as closed index-by-index functions of abstract arrays, at the exact
   instance (every float an extended real). -/
import proofs.«114961_j26431228739923_2_alg».proof.KernelIdeal
import proofs.«114961_j26431228739923_2_alg».proof.ReferenceIdeal
import proofs.«114961_j26431228739923_2_alg».proof.Proof.Gen.KernelIdeal
import proofs.«114961_j26431228739923_2_alg».proof.Proof.Gen.ReferenceIdeal
import Idealize.ShloMosaic.Lib.ValueIdx
import Idealize.ShloMosaic.PureOps.Ideal

noncomputable section

open scoped BigOperators

namespace Cert.Spec

open Idealize.ShloMosaic Idealize.ShloMosaic.ValueIdx

/-- The value of the single-precision word of one. -/
def oneW : EReal := Ideal.ofBits .f32 0x3F800000#32

/-- The value of the single-precision zero word. -/
def zeroW : EReal := Ideal.ofBits .f32 0x00000000#32

theorem oneW_eq : oneW = 1 := by
  simp [oneW, Ideal.ofBits, Ideal.ieee]
  exact_mod_cast (by norm_num : (8388608 : ℝ) * ((2 : ℝ) ^ 23)⁻¹ = 1)

theorem zeroW_eq : zeroW = 0 := by
  simp [zeroW, Ideal.ofBits, Ideal.ieee]

/-! ## The first program's form -/

section K
open Cert.KernelIdeal Cert.KernelIdeal.Facts₀

/-- Row degree: the row sum of the adjacency entries, plus one. -/
def degK (adj : S8192x8192.Idx → EReal) : FVec Ideal S8192x1 .f32 :=
  fun i => (∑ j : Fin 8192, adj (ix2 (⟨(i 0).val, idx2_lt0 i⟩ : Fin 8192) j)) + oneW

/-- Inverse square root of the degree where it is positive, zero elsewhere. -/
def disK (deg : FVec Ideal S8192x1 .f32) : FVec Ideal S8192x1 .f32 :=
  select (cmpf .ogt deg (broadcastInDim S8192x1 ![] bcast_S_S8192x1 (constant (F := Ideal) S_ .f32 0x00000000#32)))
    (Host.divf (F := Ideal) (broadcastInDim S8192x1 ![] bcast_S_S8192x1 (constant (F := Ideal) S_ .f32 0x3F800000#32))
      (Host.sqrt (F := Ideal) deg))
    (broadcastInDim S8192x1 ![] bcast_S_S8192x1 (id (constant (F := Ideal) S_ .f32 0x00000000#32)))

/-- The features scaled row by row. -/
def xsK (dis : FVec Ideal S8192x1 .f32) (x : FVec Ideal S8192x256 .f32) : FVec Ideal S8192x256 .f32 :=
  mulf (broadcastInDim S8192x256 ![0, 1] bcast_S8192x1_S8192x256_0_1 dis) x

/-- The first program's result at an index. -/
def kernelOut (adj : S8192x8192.Idx → EReal) (x : FVec Ideal S8192x256 .f32) (W : FVec Ideal S256x256 .f32)
    (bl bi : FVec Ideal S256 .f32) : S8192x256.Idx → EReal :=
  fun i =>
    let r : Fin 8192 := ⟨(i 0).val, idx2_lt0 i⟩
    let o : Fin 256 := ⟨(i 1).val, idx2_lt1 i⟩
    let dis := disK (degK adj)
    let xs := xsK dis x
    ((∑ c : Fin 256, (((∑ j : Fin 8192, adj (ix2 r j) * xs (ix2 j c)) + xs (ix2 r c)) * dis (ix2 r (0 : Fin 1)))
        * W (ix2 o c)) + bl (ix1 o)) + bi (ix1 o)

end K

/-! ## The second program's form -/

section R
open Cert.ReferenceIdeal Cert.ReferenceIdeal.Facts₀

/-- Row degree: zero plus the row sum of the adjacency entries (self loops included). -/
def degR (adj1 : S8192x8192.Idx → EReal) : FVec Ideal S8192 .f32 :=
  fun i => zeroW + ∑ j : Fin 8192, adj1 (ix2 (⟨(i 0).val, (i 0).isLt⟩ : Fin 8192) j)

/-- Inverse square root of the degree where it is positive, zero elsewhere. -/
def disR (deg : FVec Ideal S8192 .f32) : FVec Ideal S8192 .f32 :=
  select (cmpf .ogt deg (broadcastInDim S8192 ![] bcast_S_S8192 (constant (F := Ideal) S_ .f32 0x00000000#32)))
    (Host.divf (F := Ideal) (broadcastInDim S8192 ![] bcast_S_S8192 (constant (F := Ideal) S_ .f32 0x3F800000#32))
      (Host.sqrt (F := Ideal) deg))
    (broadcastInDim S8192 ![] bcast_S_S8192 (id (constant (F := Ideal) S_ .f32 0x00000000#32)))

/-- The second program's result at an index. -/
def refOut (adj1 : S8192x8192.Idx → EReal) (x : FVec Ideal S8192x256 .f32) (W : FVec Ideal S256x256 .f32)
    (bl bi : FVec Ideal S256 .f32) : S8192x256.Idx → EReal :=
  fun i =>
    let r : Fin 8192 := ⟨(i 0).val, idx2_lt0 i⟩
    let o : Fin 256 := ⟨(i 1).val, idx2_lt1 i⟩
    let dis := disR (degR adj1)
    ((∑ c : Fin 256, (∑ j : Fin 8192, ((dis (ix1 r) * adj1 (ix2 r j)) * dis (ix1 j)) * x (ix2 j c)) * W (ix2 o c))
        + bl (ix1 o)) + bi (ix1 o)

end R

end Cert.Spec

end
-- ==== Proof.KI.Pay0.lean ====
/- The first kernel's stored values, read at an index, at the exact instance. -/
import proofs.«114961_j26431228739923_2_alg».proof.Proof.Gen.KernelIdeal.Skeleton
import proofs.«114961_j26431228739923_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen Cert.KernelIdeal.Facts₀

/-! ## Layout: a column kept as a unit axis -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row sum over the second axis of a rank-2 array, with the reduction's proof arguments as the program prints them. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction (F := Ideal) .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun k _ => congrArg src (funext fun c => Fin.ext ?_)
  rw [Shape.Reduces.lift_val]
  match c with
  | ⟨0, _⟩ => rfl
  | ⟨1, _⟩ => rfl

/-! ## The three stored values -/

/-- The accumulator's initial value: zero everywhere. -/
theorem k0_pay1_apply (y : S1024x1.Idx) : (k0_pay1 (F := Ideal)) y = Cert.Spec.zeroW := by
  unfold k0_pay1
  rw [shapeCast_self]
  rfl

/-- One step: the accumulator plus the block's row sum. -/
theorem k0_pay2_apply (v3 : FVec Ideal S1024x1024 .bf16) (v8 : FVec Ideal S1024x1 .f32) (r : Fin 1024) :
    k0_pay2 (F := Ideal) v3 v8 (ix2 r (0 : Fin 1)) = v8 (ix2 r (0 : Fin 1)) + ∑ j : Fin 1024, v3 (ix2 r j) := by
  unfold k0_pay2
  dsimp only
  rw [shapeCast_self, shapeCast_self, addf_apply]
  congr 1
  refine (shapeCast_a_a1_apply _ _ r (0 : Fin 1)).trans ?_
  exact rowSum_apply _ _ _ _ r

/-- The result: the accumulator plus one. -/
theorem k0_pay3_apply (v16 : FVec Ideal S1024x1 .f32) (y : S1024x1.Idx) :
    k0_pay3 (F := Ideal) v16 y = v16 y + Cert.Spec.oneW := rfl

end Cert.KernelIdeal.Hand

end
-- ==== Proof.LibAccFold.lean ====
/- A running total that starts at `z` and adds one term per step is `z` plus the sum of the terms;
   the same with one extra term added once, after a chosen step. -/
import Mathlib.Algebra.BigOperators.Fin
import Mathlib.Algebra.BigOperators.Intervals

open scoped BigOperators

namespace Cert.Spec

variable {M : Type*} [AddCommMonoid M]

/-- The running total after step `k`: step `0` gives `z + g 0`, step `k + 1` adds `g (k + 1)`. -/
def foldAcc (z : M) (g : ℕ → M) : ℕ → M
  | 0 => z + g 0
  | k + 1 => foldAcc z g k + g (k + 1)

theorem foldAcc_zero (z : M) (g : ℕ → M) : foldAcc z g 0 = z + g 0 := rfl

theorem foldAcc_succ (z : M) (g : ℕ → M) (k : ℕ) : foldAcc z g (k + 1) = foldAcc z g k + g (k + 1) := rfl

/-- The running total is the start plus the sum of the terms so far. -/
theorem foldAcc_eq (z : M) (g : ℕ → M) (k : ℕ) : foldAcc z g k = z + ∑ j ∈ Finset.range (k + 1), g j := by
  induction k with
  | zero => simp [foldAcc]
  | succ k ih => rw [foldAcc_succ, ih, Finset.sum_range_succ _ (k + 1), add_assoc]

/-- The running total with the extra term `x` added once, right after step `d`'s own term. -/
def foldAccD (z : M) (g : ℕ → M) (x : M) (d : ℕ) : ℕ → M
  | 0 => if 0 = d then (z + g 0) + x else z + g 0
  | k + 1 => if k + 1 = d then (foldAccD z g x d k + g (k + 1)) + x else foldAccD z g x d k + g (k + 1)

theorem foldAccD_zero (z : M) (g : ℕ → M) (x : M) (d : ℕ) :
    foldAccD z g x d 0 = if 0 = d then (z + g 0) + x else z + g 0 := rfl

theorem foldAccD_succ (z : M) (g : ℕ → M) (x : M) (d k : ℕ) :
    foldAccD z g x d (k + 1)
      = if k + 1 = d then (foldAccD z g x d k + g (k + 1)) + x else foldAccD z g x d k + g (k + 1) := rfl

/-- Before the chosen step the extra term has not been added. -/
theorem foldAccD_lt (z : M) (g : ℕ → M) (x : M) (d k : ℕ) (h : k < d) :
    foldAccD z g x d k = z + ∑ j ∈ Finset.range (k + 1), g j := by
  induction k with
  | zero => rw [foldAccD_zero, if_neg (by omega)]; simp
  | succ k ih =>
    rw [foldAccD_succ, if_neg (by omega), ih (by omega), Finset.sum_range_succ _ (k + 1), add_assoc]

/-- From the chosen step on, the running total is the start plus the sum of the terms so far, plus the extra term. -/
theorem foldAccD_eq (z : M) (g : ℕ → M) (x : M) (d k : ℕ) (h : d ≤ k) :
    foldAccD z g x d k = (z + ∑ j ∈ Finset.range (k + 1), g j) + x := by
  induction k with
  | zero =>
    obtain rfl : d = 0 := by omega
    rw [foldAccD_zero, if_pos rfl]; simp
  | succ k ih =>
    rw [foldAccD_succ]
    by_cases hd : k + 1 = d
    · rw [if_pos hd, foldAccD_lt z g x d k (by omega), Finset.sum_range_succ _ (k + 1), add_assoc z]
    · rw [if_neg hd, ih (by omega), Finset.sum_range_succ _ (k + 1), ← add_assoc z, add_right_comm]

/-- A sum over `range n` of a function of naturals is the sum over `Fin n` of it at the values. -/
theorem sum_range_eq_sum_fin (n : ℕ) (g : ℕ → M) : ∑ j ∈ Finset.range n, g j = ∑ j : Fin n, g j.val :=
  (Fin.sum_univ_eq_sum_range g n).symm

end Cert.Spec
-- ==== Proof.LibBlocks.lean ====
/- A sum over a range, cut into consecutive blocks of equal length. -/
import Mathlib.Algebra.BigOperators.Fin
import Mathlib.Logic.Equiv.Fin.Basic

open scoped BigOperators

namespace Cert.Spec

/-- The `t`-th index of the `k`-th block of length `n` is below `b * n`. -/
theorem block_lt {b n : ℕ} (k : Fin b) (t : Fin n) : k.val * n + t.val < b * n :=
  calc k.val * n + t.val < k.val * n + n := Nat.add_lt_add_left t.isLt _
    _ = (k.val + 1) * n := (Nat.succ_mul _ _).symm
    _ ≤ b * n := Nat.mul_le_mul_right n k.isLt

/-- A sum over `b * n` consecutive indices is the sum over the `b` blocks of the sums over each block's `n` indices. -/
theorem sum_blocks {M : Type*} [AddCommMonoid M] (b n : ℕ) (f : Fin (b * n) → M) :
    ∑ j, f j = ∑ k : Fin b, ∑ t : Fin n, f ⟨k.val * n + t.val, block_lt k t⟩ := by
  rw [← Fintype.sum_prod_type', ← Equiv.sum_comp (finProdFinEquiv (m := b) (n := n)) f]
  refine Finset.sum_congr rfl fun p _ => congrArg f (Fin.ext ?_)
  simp [finProdFinEquiv, Nat.mul_comm, Nat.add_comm]

/-- The rows and columns of this certificate: 8192 indices are 8 blocks of 1024. -/
theorem sum_8192 {M : Type*} [AddCommMonoid M] (f : Fin 8192 → M) :
    ∑ j, f j = ∑ k : Fin 8, ∑ t : Fin 1024, f ⟨k.val * 1024 + t.val, block_lt (b := 8) k t⟩ :=
  sum_blocks 8 1024 f

end Cert.Spec
-- ==== Proof.KI.Val0.lean ====
/-
  The first kernel's result at the exact instance: the degree column the region leaves is, row by row, the row sum of
  the adjacency the region found, plus one. A grid point (row block i, column block k) adds to the accumulator the sums
  over the block's 1024 columns; after the eight column blocks of a row block the accumulator holds the whole row sums
  (a fold in block order, re-associated over the extended reals), and the last column block stores them plus one into
  the row block's output block; the eight output blocks tile the column.
-/
import proofs.«114961_j26431228739923_2_alg».proof.Proof.KI.Data0
import proofs.«114961_j26431228739923_2_alg».proof.Proof.KI.Pieces0
import proofs.«114961_j26431228739923_2_alg».proof.Proof.KI.Pay0
import proofs.«114961_j26431228739923_2_alg».proof.Proof.Spec
import proofs.«114961_j26431228739923_2_alg».proof.Proof.LibAccFold
import proofs.«114961_j26431228739923_2_alg».proof.Proof.LibBlocks
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The adjacency the region finds, as an array of extended reals. -/
def adjV (c : Dev nD) : FVec Ideal S8192x8192 .bf16 := V c main_v19

/-- The adjacency block at a grid point, as an array of extended reals. -/
def blk0 (c : Dev nD) (t : Fin cfg0.N) : FVec Ideal S1024x1024 .bf16 := iblk0 V c 0 t

/-- The accumulator after position `n`, at a row of the block. -/
def acc0 (c : Dev nD) (n : ℕ) (hn : n < cfg0.N) (r : Fin 1024) : EReal := accAt0 V c n hn (ix2 r (0 : Fin 1))

/-- The adjacency at a row and a column given as naturals (read modulo the extent, so that it is total; every use is
    in range). -/
def adjAt (c : Dev nD) (row col : ℕ) : EReal :=
  adjV V c (ix2 (⟨row % 8192, Nat.mod_lt _ (by norm_num)⟩ : Fin 8192) (⟨col % 8192, Nat.mod_lt _ (by norm_num)⟩ : Fin 8192))

/-- The windows' block indices over the grid: the adjacency block at point `t` is (t / 8, t % 8), the degree block (t / 8, 0). -/
theorem idx0 : ∀ t : Fin cfg0.N, win0_0.index t 0 = t.val / 8 ∧ win0_0.index t 1 = t.val % 8 ∧ win0_1.index t 0 = t.val / 8 ∧ win0_1.index t 1 = 0 :=
  (by decide +kernel : ∀ t : Fin grid0.N, win0_0.index t 0 = t.val / 8 ∧ win0_0.index t 1 = t.val % 8 ∧ win0_1.index t 0 = t.val / 8 ∧ win0_1.index t 1 = 0)

/-- The adjacency block at point `t`, element (r, j), is the adjacency at row 1024 (t / 8) + r, column 1024 (t % 8) + j. -/
theorem iblk0_at (c : Dev nD) (t : Fin cfg0.N) (r j : Fin 1024) :
    blk0 V c t (ix2 r j) = adjAt V c (1024 * (t.val / 8) + r.val) (1024 * (t.val % 8) + j.val) := by
  have hi := idx0 t
  have hN : t.val < 64 := lt_of_lt_of_eq t.isLt (show cfg0.N = 64 from N_0)
  unfold blk0 iblk0 adjAt adjV
  rw [View.read_apply]
  show V c main_v19 _ = V c main_v19 _
  congr 1
  funext a
  apply Fin.ext
  match a with
  | ⟨0, _⟩ => show win0_0.index t 0 * 1024 + 1 * r.val = (1024 * (t.val / 8) + r.val) % 8192; rw [hi.1]; omega
  | ⟨1, _⟩ => show win0_0.index t 1 * 1024 + 1 * j.val = (1024 * (t.val % 8) + j.val) % 8192; rw [hi.2.1]; omega

/-- The sum over one column block. -/
def g0 (c : Dev nD) (i : ℕ) (r : Fin 1024) (k : ℕ) : EReal := ∑ j : Fin 1024, adjAt V c (1024 * i + r.val) (1024 * k + j.val)

/-- The accumulator after position `n`, at row `r` of the block: the fold, in column-block order, of the block sums of
    the row block `n / 8` up to column block `n % 8`. -/
theorem accAt0_eq (c : Dev nD) (r : Fin 1024) : ∀ (n : ℕ) (hn : n < cfg0.N),
    acc0 V c n hn r = Cert.Spec.foldAcc Cert.Spec.zeroW (g0 V c (n / 8) r) (n % 8)
  | 0, hn => by
    unfold acc0
    rw [show accAt0 V c 0 hn = _ from accAt0_A V c ⟨0, hn⟩ rfl (by dsimp only; omega), sout0_A_0_eq, k0_pay2_apply, k0_pay1_apply]
    show _ = Cert.Spec.zeroW + g0 V c 0 r 0
    unfold g0
    congr 1
    refine Finset.sum_congr rfl fun j _ => (iblk0_at V c ⟨0, hn⟩ r j).trans ?_
    show adjAt V c (1024 * (0 / 8) + r.val) (1024 * (0 % 8) + j.val) = _
    rw [Nat.zero_div, Nat.zero_mod]
  | n + 1, hn => by
    have hN : n + 1 < 64 := lt_of_lt_of_eq hn (show cfg0.N = 64 from N_0)
    by_cases h0 : (n + 1) % 8 = 0
    · unfold acc0
      rw [show accAt0 V c (n + 1) hn = _ from accAt0_A V c ⟨n + 1, hn⟩ h0 (by dsimp only; omega), sout0_A_0_eq, k0_pay2_apply, k0_pay1_apply, h0]
      show _ = Cert.Spec.zeroW + g0 V c ((n + 1) / 8) r 0
      unfold g0
      congr 1
      refine Finset.sum_congr rfl fun j _ => (iblk0_at V c ⟨n + 1, hn⟩ r j).trans ?_
      show adjAt V c (1024 * ((n + 1) / 8) + r.val) (1024 * ((n + 1) % 8) + j.val) = _
      rw [h0]
    · have hd : (n + 1) / 8 = n / 8 := by omega
      have hm : (n + 1) % 8 = n % 8 + 1 := by omega
      have hstep : acc0 V c (n + 1) hn r
          = acc0 V c n (Nat.lt_of_succ_lt hn) r + ∑ j : Fin 1024, blk0 V c ⟨n + 1, hn⟩ (ix2 r j) := by
        unfold acc0
        by_cases h1 : (n + 1) % 8 = 7
        · rw [show accAt0 V c (n + 1) hn = _ from accAt0_C V c ⟨n + 1, hn⟩ h0 h1, sout0_C_0_eq, k0_pay2_apply]; rfl
        · rw [show accAt0 V c (n + 1) hn = _ from accAt0_B V c ⟨n + 1, hn⟩ h0 h1, sout0_B_0_eq, k0_pay2_apply]; rfl
      rw [hstep, accAt0_eq c r n (Nat.lt_of_succ_lt hn), hd, hm, Cert.Spec.foldAcc_succ]
      congr 1
      unfold g0
      refine Finset.sum_congr rfl fun j _ => (iblk0_at V c ⟨n + 1, hn⟩ r j).trans ?_
      show adjAt V c (1024 * ((n + 1) / 8) + r.val) (1024 * ((n + 1) % 8) + j.val) = _
      rw [hd, hm]

/-- The degree of a row as the specification states it, at any index of the column whose row is `row`. -/
theorem degK_at (adj : S8192x8192.Idx → EReal) (i : S8192x1.Idx) (row : Fin 8192) (h : (i 0).val = row.val) :
    Cert.Spec.degK adj i = (∑ j : Fin 8192, adj (ix2 row j)) + Cert.Spec.oneW := by
  unfold Cert.Spec.degK
  have e : (⟨(i 0).val, idx2_lt0 i⟩ : Fin 8192) = row := Fin.ext h
  rw [e]

/-- The whole row sum is the eight block sums. -/
theorem rowsum_blocks (c : Dev nD) (i : ℕ) (hi : i < 8) (r : Fin 1024) (row : Fin 8192) (hrow : row.val = 1024 * i + r.val) :
    (∑ j : Fin 8192, adjV V c (ix2 row j)) = ∑ k ∈ Finset.range 8, g0 V c i r k := by
  rw [Cert.Spec.sum_8192, Cert.Spec.sum_range_eq_sum_fin]
  refine Finset.sum_congr rfl fun k _ => ?_
  unfold g0 adjAt
  refine Finset.sum_congr rfl fun j _ => ?_
  congr 1
  have hk := k.isLt
  have hj := j.isLt
  have hr := r.isLt
  funext a
  match a with
  | ⟨0, _⟩ => exact Fin.ext (show row.val = (1024 * i + r.val) % 8192 by omega)
  | ⟨1, _⟩ => exact Fin.ext (show k.val * 1024 + j.val = (1024 * k.val + j.val) % 8192 by omega)

/-- What a last column block writes back is its block of the degree column. -/
theorem flushed0_eq (c : Dev nD) (t : Fin cfg0.N) (hf : (cfg0.win 1).flush t = true) :
    (dat0 V c).flushed 1 t = ((cfg0.win 1).blk t).view.read (Elt Ideal) (Cert.Spec.degK (adjV V c)) := by
  have hN : t.val < 64 := lt_of_lt_of_eq t.isLt (show cfg0.N = 64 from N_0)
  have h7 : t.val % 8 = 7 := (flush0_1 t).mp hf
  have h0 : ¬t.val % 8 = 0 := by omega
  have hi := idx0 t
  show (cfg0.win 1).cut (grid0.coords t) ((dat0 V c).after 1 t) = _
  rw [after0_1]
  funext y
  obtain ⟨r, z, rfl⟩ : ∃ (r : Fin 1024) (z : Fin 1), y = ix2 r z := ⟨y 0, y 1, eq_ix2 y⟩
  obtain rfl : z = 0 := Subsingleton.elim _ _
  rw [View.read_apply]
  show outAt0 V c t (ix2 r (0 : Fin 1)) = _
  rw [show outAt0 V c t = _ from dif_pos h7, out0_C_1_eq, k0_pay3_apply, k0_pay2_apply]
  show (acc0 V c (t.val - 1) (Nat.lt_of_le_of_lt (Nat.sub_le _ _) t.isLt) r + ∑ j : Fin 1024, blk0 V c t (ix2 r j)) + Cert.Spec.oneW = _
  rw [accAt0_eq V c r (t.val - 1) (Nat.lt_of_le_of_lt (Nat.sub_le _ _) t.isLt)]
  have hd : (t.val - 1) / 8 = t.val / 8 := by omega
  have hm : (t.val - 1) % 8 = 6 := by omega
  have hrow : 1024 * (t.val / 8) + r.val < 8192 := by have := r.isLt; omega
  rw [hd, hm]
  have hsum : (∑ j : Fin 1024, blk0 V c t (ix2 r j)) = g0 V c (t.val / 8) r 7 := by
    unfold g0
    refine Finset.sum_congr rfl fun j _ => ?_
    rw [iblk0_at V c t r j, h7]
  rw [hsum, ← Cert.Spec.foldAcc_succ, Cert.Spec.foldAcc_eq, Cert.Spec.zeroW_eq, zero_add]
  refine (congrArg (· + Cert.Spec.oneW) (rowsum_blocks V c (t.val / 8) (by omega) r ⟨1024 * (t.val / 8) + r.val, hrow⟩ rfl).symm).trans ?_
  refine (degK_at _ _ ⟨1024 * (t.val / 8) + r.val, hrow⟩ ?_).symm
  show win0_1.index t 0 * 1024 + 1 * r.val = 1024 * (t.val / 8) + r.val
  rw [hi.2.2.1]; omega

/-- Every index of the degree column lies in the output block of the last column block of its row block. -/
theorem cover0 (i : ((cfg0.win 1).arr.view.loc ((0 : Dev nD).tc : Thread nD τ)).2.ty.Idx) :
    ∃ t : Fin cfg0.N, (cfg0.win 1).flush t = true ∧ i ∈ ((cfg0.win 1).blk t).view.set := by
  have h0 : (i 0 : Nat) < 8192 := (i 0).isLt
  have h1 : (i 1 : Nat) < 1 := (i 1).isLt
  have hN : cfg0.N = 64 := N_0
  let t : Fin cfg0.N := ⟨8 * ((i 0 : Nat) / 1024) + 7, by rw [hN]; omega⟩
  have ht : t.val = 8 * ((i 0 : Nat) / 1024) + 7 := rfl
  have hi := idx0 t
  refine ⟨t, (flush0_1 t).mpr (by rw [ht]; omega), ?_⟩
  show i ∈ ((View.whole main_v20).slice (win0_1.rect t)).set
  rw [View.set_slice_whole, Rect.mem_set_unit]
  intro a
  match a with
  | ⟨0, _⟩ => show win0_1.index t 0 * win0_1.size 0 ≤ (i 0 : Nat) ∧ (i 0 : Nat) < win0_1.index t 0 * win0_1.size 0 + win0_1.xsize (grid0.coords t) 0
              rw [hi.2.2.1, show win0_1.size 0 = 1024 from rfl, show win0_1.xsize (grid0.coords t) 0 = 1024 from rfl, ht]; omega
  | ⟨1, _⟩ => show win0_1.index t 1 * win0_1.size 1 ≤ (i 1 : Nat) ∧ (i 1 : Nat) < win0_1.index t 1 * win0_1.size 1 + win0_1.xsize (grid0.coords t) 1
              rw [hi.2.2.2, show win0_1.size 1 = 1 from rfl, show win0_1.xsize (grid0.coords t) 1 = 1 from rfl]; omega

/-- THE DEGREE COLUMN the first region leaves. -/
theorem final0 (c : Dev nD) : (dat0 V c).arrAt 1 cfg0.N = Cert.Spec.degK (adjV V c) :=
  (dat0 V c).arrAt_eq_of_cover 1 _ (flushed0_eq V c) fun i => cover0 i

end Cert.KernelIdeal.Hand

end
-- ==== Proof.KI.Pieces1.lean ====
/- What each control case of the aggregation kernel leaves in the accumulator and in the output block, read back as the kernel's payload functions of the input blocks and of the accumulator's entry contents. -/
import proofs.«114961_j26431228739923_2_alg».proof.Proof.KI.Data1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two rectangle, as the constant function. -/
theorem hz2b : (![0, 0] : Fin 2 → Nat) = fun _ => 0 := funext fun a => by fin_cases a <;> rfl

/-- A load through the whole-shape rectangle of what stores left, the LAST of them through that rectangle, reads that
    last store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨⟨Rect.unit _ S.size inb, w⟩, List.mem_cons_self .., View.mem_set_unit_zero rfl inb y⟩),
    View.canon_cons_unit_zero rfl, View.ld_unit_zero rfl]

/-- The operand's rows of column block k (the rows the product with the adjacency block reads). -/
abbrev ldK1 (i : grid1.Coords) (x1 : Vec F S8192x256 .bf16) : Vec F S1024x256 .bf16 :=
  View.ld x1 (Rect.unit (s := S8192x256) (k1_off1 i) S1024x256.size (k1_off1_inb i))

/-- The operand's rows of row block i (the diagonal rows, read where k = i). -/
abbrev ldK2 (i : grid1.Coords) (h : k1_cond2 i = 1#1) (x1 : Vec F S8192x256 .bf16) : Vec F S1024x256 .bf16 :=
  View.ld x1 (Rect.unit (s := S8192x256) (k1_off2 i) S1024x256.size (k1_off2_inb i h))

/-- At k = 0 = i the accumulator ends holding the reset value, plus the block product, plus the diagonal rows. -/
theorem sout1_A_0_eq (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (x0 : Vec F S1024x1024 .bf16) (x1 : Vec F S8192x256 .bf16) (x2 : Vec F S1024x1 .f32) (x3 : Vec F S256x256 .f32) (x4 : Vec F S1x256 .f32) (x5 : Vec F S1x256 .f32)
    (hc0 : cond1_0 i) (hc1 : cond1_1 i) (hc2 : ¬cond1_2 i) :
    sout1_A_0 c i arg2 harg2 arg3 harg3 arg4 harg4 arg5 harg5 arg6 harg6 arg7 harg7 arg8 harg8 arg9 harg9 x0 x1 x2 x3 x4 x5 hc0 hc1 hc2 = k1_pay3 (ldK2 i hc1 x1) (k1_pay2 (ldK1 i x1) (k1_pay1 (F := F)) x0) := by
  unfold sout1_A_0
  rw [View.read_writes_eq_canon _ _ _ (scover1_A_0 c i arg2 harg2 arg3 harg3 arg4 harg4 arg5 harg5 arg6 harg6 arg7 harg7 arg8 harg8 arg9 harg9 x0 x1 x2 x3 x4 x5 hc0 hc1 hc2)]
  unfold kernelRun1_A
  dsimp only
  sl_unfold_words
  rw [View.canon_cons_unit_zero (S := S1024x256) hz2b]
  repeat rw [readCov_cons_unit_zero (S := S1024x256) _ hz2b]
  simp only [View.readAt_eq_ld, harg2.read_unread, harg3.read_unread, harg4.read_unread, harg5.read_unread, harg6.read_unread, harg7.read_unread, harg9.read_unread,
    View.ld_unit_zero (S := S1024x1024) hz2b, View.ld_unit_zero (S := S1024x1) hz2b, View.ld_unit_zero (S := S256x256) hz2b, View.ld_unit_zero (S := S1x256) hz2b, View.ld_unit_zero (S := S1024x256) hz2b]
  rfl

/-- At k = 0 ≠ i the accumulator ends holding the reset value plus the block product. -/
theorem sout1_B_0_eq (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (x0 : Vec F S1024x1024 .bf16) (x1 : Vec F S8192x256 .bf16) (x2 : Vec F S1024x1 .f32) (x3 : Vec F S256x256 .f32) (x4 : Vec F S1x256 .f32) (x5 : Vec F S1x256 .f32)
    (hc0 : cond1_0 i) (hc1 : ¬cond1_1 i) (hc2 : ¬cond1_2 i) :
    sout1_B_0 c i arg2 harg2 arg3 harg3 arg4 harg4 arg5 harg5 arg6 harg6 arg7 harg7 arg8 harg8 arg9 harg9 x0 x1 x2 x3 x4 x5 hc0 hc1 hc2 = k1_pay2 (ldK1 i x1) (k1_pay1 (F := F)) x0 := by
  unfold sout1_B_0
  rw [View.read_writes_eq_canon _ _ _ (scover1_B_0 c i arg2 harg2 arg3 harg3 arg4 harg4 arg5 harg5 arg6 harg6 arg7 harg7 arg8 harg8 arg9 harg9 x0 x1 x2 x3 x4 x5 hc0 hc1 hc2)]
  unfold kernelRun1_B
  dsimp only
  sl_unfold_words
  rw [View.canon_cons_unit_zero (S := S1024x256) hz2b]
  repeat rw [readCov_cons_unit_zero (S := S1024x256) _ hz2b]
  simp only [View.readAt_eq_ld, harg2.read_unread, harg3.read_unread, harg4.read_unread, harg5.read_unread, harg6.read_unread, harg7.read_unread, harg9.read_unread,
    View.ld_unit_zero (S := S1024x1024) hz2b, View.ld_unit_zero (S := S1024x1) hz2b, View.ld_unit_zero (S := S256x256) hz2b, View.ld_unit_zero (S := S1x256) hz2b, View.ld_unit_zero (S := S1024x256) hz2b]
  rfl

/-- At 0 < k = i < 7 the accumulator ends holding what it held, plus the block product, plus the diagonal rows. -/
theorem sout1_C_0_eq (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (x0 : Vec F S1024x1024 .bf16) (x1 : Vec F S8192x256 .bf16) (x2 : Vec F S1024x1 .f32) (x3 : Vec F S256x256 .f32) (x4 : Vec F S1x256 .f32) (x5 : Vec F S1x256 .f32)
    (hc0 : ¬cond1_0 i) (hc1 : cond1_1 i) (hc2 : ¬cond1_2 i) (xs0 : Vec F S1024x256 .f32) :
    sout1_C_0 c i arg2 harg2 arg3 harg3 arg4 harg4 arg5 harg5 arg6 harg6 arg7 harg7 arg8 harg8 arg9 harg9 x0 x1 x2 x3 x4 x5 hc0 hc1 hc2 xs0 = k1_pay3 (ldK2 i hc1 x1) (k1_pay2 (ldK1 i x1) xs0 x0) := by
  unfold sout1_C_0
  rw [View.read_writes_eq_canon _ _ _ (scover1_C_0 c i arg2 harg2 arg3 harg3 arg4 harg4 arg5 harg5 arg6 harg6 arg7 harg7 arg8 harg8 arg9 harg9 x0 x1 x2 x3 x4 x5 hc0 hc1 hc2 xs0)]
  unfold kernelRun1_C
  dsimp only
  sl_unfold_words
  rw [View.canon_cons_unit_zero (S := S1024x256) hz2b]
  repeat rw [readCov_cons_unit_zero (S := S1024x256) _ hz2b]
  simp only [View.readAt_eq_ld, harg2.read_unread, harg3.read_unread, harg4.read_unread, harg5.read_unread, harg6.read_unread, harg7.read_unread, harg9.read_unread,
    View.ld_unit_zero (S := S1024x1024) hz2b, View.ld_unit_zero (S := S1024x1) hz2b, View.ld_unit_zero (S := S256x256) hz2b, View.ld_unit_zero (S := S1x256) hz2b, View.ld_unit_zero (S := S1024x256) hz2b]
  rfl

/-- At 0 < k < 7, k ≠ i, the accumulator ends holding what it held plus the block product. -/
theorem sout1_D_0_eq (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (x0 : Vec F S1024x1024 .bf16) (x1 : Vec F S8192x256 .bf16) (x2 : Vec F S1024x1 .f32) (x3 : Vec F S256x256 .f32) (x4 : Vec F S1x256 .f32) (x5 : Vec F S1x256 .f32)
    (hc0 : ¬cond1_0 i) (hc1 : ¬cond1_1 i) (hc2 : ¬cond1_2 i) (xs0 : Vec F S1024x256 .f32) :
    sout1_D_0 c i arg2 harg2 arg3 harg3 arg4 harg4 arg5 harg5 arg6 harg6 arg7 harg7 arg8 harg8 arg9 harg9 x0 x1 x2 x3 x4 x5 hc0 hc1 hc2 xs0 = k1_pay2 (ldK1 i x1) xs0 x0 := by
  unfold sout1_D_0
  rw [View.read_writes_eq_canon _ _ _ (scover1_D_0 c i arg2 harg2 arg3 harg3 arg4 harg4 arg5 harg5 arg6 harg6 arg7 harg7 arg8 harg8 arg9 harg9 x0 x1 x2 x3 x4 x5 hc0 hc1 hc2 xs0)]
  unfold kernelRun1_D
  dsimp only
  sl_unfold_words
  rw [View.canon_cons_unit_zero (S := S1024x256) hz2b]
  repeat rw [readCov_cons_unit_zero (S := S1024x256) _ hz2b]
  simp only [View.readAt_eq_ld, harg2.read_unread, harg3.read_unread, harg4.read_unread, harg5.read_unread, harg6.read_unread, harg7.read_unread, harg9.read_unread,
    View.ld_unit_zero (S := S1024x1024) hz2b, View.ld_unit_zero (S := S1024x1) hz2b, View.ld_unit_zero (S := S256x256) hz2b, View.ld_unit_zero (S := S1x256) hz2b, View.ld_unit_zero (S := S1024x256) hz2b]
  rfl

/-- At k = 7 ≠ i the accumulator ends holding what it held plus the block product. -/
theorem sout1_E_0_eq (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (x0 : Vec F S1024x1024 .bf16) (x1 : Vec F S8192x256 .bf16) (x2 : Vec F S1024x1 .f32) (x3 : Vec F S256x256 .f32) (x4 : Vec F S1x256 .f32) (x5 : Vec F S1x256 .f32)
    (hc0 : ¬cond1_0 i) (hc1 : ¬cond1_1 i) (hc2 : cond1_2 i) (xs0 : Vec F S1024x256 .f32) :
    sout1_E_0 c i arg2 harg2 arg3 harg3 arg4 harg4 arg5 harg5 arg6 harg6 arg7 harg7 arg8 harg8 arg9 harg9 x0 x1 x2 x3 x4 x5 hc0 hc1 hc2 xs0 = k1_pay2 (ldK1 i x1) xs0 x0 := by
  unfold sout1_E_0
  rw [View.read_writes_eq_canon _ _ _ (scover1_E_0 c i arg2 harg2 arg3 harg3 arg4 harg4 arg5 harg5 arg6 harg6 arg7 harg7 arg8 harg8 arg9 harg9 x0 x1 x2 x3 x4 x5 hc0 hc1 hc2 xs0)]
  unfold kernelRun1_E
  dsimp only
  sl_unfold_words
  rw [View.canon_cons_unit_zero (S := S1024x256) hz2b]
  repeat rw [readCov_cons_unit_zero (S := S1024x256) _ hz2b]
  simp only [View.readAt_eq_ld, harg2.read_unread, harg3.read_unread, harg4.read_unread, harg5.read_unread, harg6.read_unread, harg7.read_unread, harg9.read_unread,
    View.ld_unit_zero (S := S1024x1024) hz2b, View.ld_unit_zero (S := S1024x1) hz2b, View.ld_unit_zero (S := S256x256) hz2b, View.ld_unit_zero (S := S1x256) hz2b, View.ld_unit_zero (S := S1024x256) hz2b]
  rfl

/-- At k = 7 ≠ i the output block is stored the finalized accumulator. -/
theorem out1_E_6_eq (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (x0 : Vec F S1024x1024 .bf16) (x1 : Vec F S8192x256 .bf16) (x2 : Vec F S1024x1 .f32) (x3 : Vec F S256x256 .f32) (x4 : Vec F S1x256 .f32) (x5 : Vec F S1x256 .f32)
    (hc0 : ¬cond1_0 i) (hc1 : ¬cond1_1 i) (hc2 : cond1_2 i) (xs0 : Vec F S1024x256 .f32) :
    out1_E_6 c i arg2 harg2 arg3 harg3 arg4 harg4 arg5 harg5 arg6 harg6 arg7 harg7 arg8 harg8 arg9 harg9 x0 x1 x2 x3 x4 x5 hc0 hc1 hc2 xs0 = k1_pay4 (k1_pay2 (ldK1 i x1) xs0 x0) x2 x3 x4 x5 := by
  unfold out1_E_6
  rw [View.read_writes_eq_canon _ _ _ (cover1_E_6 c i arg2 harg2 arg3 harg3 arg4 harg4 arg5 harg5 arg6 harg6 arg7 harg7 arg8 harg8 arg9 harg9 x0 x1 x2 x3 x4 x5 hc0 hc1 hc2 xs0)]
  unfold kernelRun1_E
  dsimp only
  sl_unfold_words
  rw [View.canon_cons_unit_zero (S := S1024x256) hz2b]
  repeat rw [readCov_cons_unit_zero (S := S1024x256) _ hz2b]
  simp only [View.readAt_eq_ld, harg2.read_unread, harg3.read_unread, harg4.read_unread, harg5.read_unread, harg6.read_unread, harg7.read_unread, harg9.read_unread,
    View.ld_unit_zero (S := S1024x1024) hz2b, View.ld_unit_zero (S := S1024x1) hz2b, View.ld_unit_zero (S := S256x256) hz2b, View.ld_unit_zero (S := S1x256) hz2b, View.ld_unit_zero (S := S1024x256) hz2b]
  rfl

/-- At k = 7 = i the accumulator ends holding what it held, plus the block product, plus the diagonal rows. -/
theorem sout1_F_0_eq (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (x0 : Vec F S1024x1024 .bf16) (x1 : Vec F S8192x256 .bf16) (x2 : Vec F S1024x1 .f32) (x3 : Vec F S256x256 .f32) (x4 : Vec F S1x256 .f32) (x5 : Vec F S1x256 .f32)
    (hc0 : ¬cond1_0 i) (hc1 : cond1_1 i) (hc2 : cond1_2 i) (xs0 : Vec F S1024x256 .f32) :
    sout1_F_0 c i arg2 harg2 arg3 harg3 arg4 harg4 arg5 harg5 arg6 harg6 arg7 harg7 arg8 harg8 arg9 harg9 x0 x1 x2 x3 x4 x5 hc0 hc1 hc2 xs0 = k1_pay3 (ldK2 i hc1 x1) (k1_pay2 (ldK1 i x1) xs0 x0) := by
  unfold sout1_F_0
  rw [View.read_writes_eq_canon _ _ _ (scover1_F_0 c i arg2 harg2 arg3 harg3 arg4 harg4 arg5 harg5 arg6 harg6 arg7 harg7 arg8 harg8 arg9 harg9 x0 x1 x2 x3 x4 x5 hc0 hc1 hc2 xs0)]
  unfold kernelRun1_F
  dsimp only
  sl_unfold_words
  rw [View.canon_cons_unit_zero (S := S1024x256) hz2b]
  repeat rw [readCov_cons_unit_zero (S := S1024x256) _ hz2b]
  simp only [View.readAt_eq_ld, harg2.read_unread, harg3.read_unread, harg4.read_unread, harg5.read_unread, harg6.read_unread, harg7.read_unread, harg9.read_unread,
    View.ld_unit_zero (S := S1024x1024) hz2b, View.ld_unit_zero (S := S1024x1) hz2b, View.ld_unit_zero (S := S256x256) hz2b, View.ld_unit_zero (S := S1x256) hz2b, View.ld_unit_zero (S := S1024x256) hz2b]
  rfl

/-- At k = 7 = i the output block is stored the finalized accumulator. -/
theorem out1_F_6_eq (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (x0 : Vec F S1024x1024 .bf16) (x1 : Vec F S8192x256 .bf16) (x2 : Vec F S1024x1 .f32) (x3 : Vec F S256x256 .f32) (x4 : Vec F S1x256 .f32) (x5 : Vec F S1x256 .f32)
    (hc0 : ¬cond1_0 i) (hc1 : cond1_1 i) (hc2 : cond1_2 i) (xs0 : Vec F S1024x256 .f32) :
    out1_F_6 c i arg2 harg2 arg3 harg3 arg4 harg4 arg5 harg5 arg6 harg6 arg7 harg7 arg8 harg8 arg9 harg9 x0 x1 x2 x3 x4 x5 hc0 hc1 hc2 xs0 = k1_pay4 (k1_pay3 (ldK2 i hc1 x1) (k1_pay2 (ldK1 i x1) xs0 x0)) x2 x3 x4 x5 := by
  unfold out1_F_6
  rw [View.read_writes_eq_canon _ _ _ (cover1_F_6 c i arg2 harg2 arg3 harg3 arg4 harg4 arg5 harg5 arg6 harg6 arg7 harg7 arg8 harg8 arg9 harg9 x0 x1 x2 x3 x4 x5 hc0 hc1 hc2 xs0)]
  unfold kernelRun1_F
  dsimp only
  sl_unfold_words
  rw [View.canon_cons_unit_zero (S := S1024x256) hz2b]
  repeat rw [readCov_cons_unit_zero (S := S1024x256) _ hz2b]
  simp only [View.readAt_eq_ld, harg2.read_unread, harg3.read_unread, harg4.read_unread, harg5.read_unread, harg6.read_unread, harg7.read_unread, harg9.read_unread,
    View.ld_unit_zero (S := S1024x1024) hz2b, View.ld_unit_zero (S := S1024x1) hz2b, View.ld_unit_zero (S := S256x256) hz2b, View.ld_unit_zero (S := S1x256) hz2b, View.ld_unit_zero (S := S1024x256) hz2b]
  rfl

end Cert.KernelIdeal.Hand

end
-- ==== Proof.KI.Pay1.lean ====
/- The second kernel's stored values, read at an index, at the exact instance. -/
import proofs.«114961_j26431228739923_2_alg».proof.Proof.Gen.KernelIdeal.Skeleton
import proofs.«114961_j26431228739923_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen Cert.KernelIdeal.Facts₀

/-! ## Layout: a column broadcast along its unit axis -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The two matrix products at an index -/

theorem rc_lhs0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
theorem rc_lhs1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rc_rhs0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rc_rhs1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

theorem rr_lhs0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide),
    dif_pos (show (0 : Fin S1024x256.rank) ∈ dot_S1024x256_S256x256_S1024x256_1_1_0_0_n_n.lhsNonContracting by decide)]
  rfl
theorem rr_lhs1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rr_rhs0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide),
    dif_pos (show (0 : Fin S256x256.rank) ∈ dot_S1024x256_S256x256_S1024x256_1_1_0_0_n_n.rhsNonContracting by decide)]
  rfl
theorem rr_rhs1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- Rows by columns: the adjacency block times the feature rows. -/
theorem matmul_rows_cols_apply (lhs : FVec Ideal S1024x1024 .bf16) (rhs : FVec Ideal S1024x256 .bf16)
    (r : Fin 1024) (c : Fin 256) :
    matmul (F := Ideal) dot_S1024x1024_S1024x256_S1024x256_1_0_0_1_n_n none lhs rhs
        (constant (F := Ideal) S1024x256 .f32 0x00000000#32) (ix2 r c)
      = ∑ j : Fin 1024, lhs (ix2 r j) * rhs (ix2 j c) := by
  refine (Ideal.matmul_constant_zero_apply dot_S1024x1024_S1024x256_S1024x256_1_0_0_1_n_n none lhs rhs (ix2 r c)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r c)
      ((contrEquiv1 dot_S1024x1024_S1024x256_S1024x256_1_0_0_1_n_n 1024 rfl rfl).symm k) = ix2 r k :=
    funext fun a => Fin.ext (by
      match a with
      | ⟨0, _⟩ => exact rc_lhs0 _ _
      | ⟨1, _⟩ => exact (rc_lhs1 _ _).trans hk)
  have er : dot_S1024x1024_S1024x256_S1024x256_1_0_0_1_n_n.rhsIdx (ix2 r c)
      ((contrEquiv1 dot_S1024x1024_S1024x256_S1024x256_1_0_0_1_n_n 1024 rfl rfl).symm k) = ix2 k c :=
    funext fun a => Fin.ext (by
      match a with
      | ⟨0, _⟩ => exact (rc_rhs0 _ _).trans hk
      | ⟨1, _⟩ => exact rc_rhs1 _ _)
  rw [el, er]

/-- Rows by rows: both operands contract their second axis. -/
theorem matmul_rows_rows_apply (lhs : FVec Ideal S1024x256 .bf16) (rhs : FVec Ideal S256x256 .bf16)
    (r : Fin 1024) (o : Fin 256) :
    matmul (F := Ideal) dot_S1024x256_S256x256_S1024x256_1_1_0_0_n_n none lhs rhs
        (constant (F := Ideal) S1024x256 .f32 0x00000000#32) (ix2 r o)
      = ∑ c : Fin 256, lhs (ix2 r c) * rhs (ix2 o c) := by
  refine (Ideal.matmul_constant_zero_apply dot_S1024x256_S256x256_S1024x256_1_1_0_0_n_n none lhs rhs (ix2 r o)).trans ?_
  rw [← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 r o)
      ((contrEquiv1 dot_S1024x256_S256x256_S1024x256_1_1_0_0_n_n 256 rfl rfl).symm k) = ix2 r k :=
    funext fun a => Fin.ext (by
      match a with
      | ⟨0, _⟩ => exact rr_lhs0 _ _
      | ⟨1, _⟩ => exact (rr_lhs1 _ _).trans hk)
  have er : dot_S1024x256_S256x256_S1024x256_1_1_0_0_n_n.rhsIdx (ix2 r o)
      ((contrEquiv1 dot_S1024x256_S256x256_S1024x256_1_1_0_0_n_n 256 rfl rfl).symm k) = ix2 o k :=
    funext fun a => Fin.ext (by
      match a with
      | ⟨0, _⟩ => exact rr_rhs0 _ _
      | ⟨1, _⟩ => exact (rr_rhs1 _ _).trans hk)
  rw [el, er]

/-! ## The four stored values -/

/-- The accumulator's initial value: zero everywhere. -/
theorem k1_pay1_apply (y : S1024x256.Idx) : (k1_pay1 (F := Ideal)) y = Cert.Spec.zeroW := by
  unfold k1_pay1
  rw [shapeCast_self]
  rfl

/-- One step: the accumulator plus the block's product with the feature rows. -/
theorem k1_pay2_apply (v6 : FVec Ideal S1024x256 .bf16) (v8 : FVec Ideal S1024x256 .f32)
    (v9 : FVec Ideal S1024x1024 .bf16) (r : Fin 1024) (c : Fin 256) :
    k1_pay2 (F := Ideal) v6 v8 v9 (ix2 r c) = v8 (ix2 r c) + ∑ j : Fin 1024, v9 (ix2 r j) * v6 (ix2 j c) := by
  unfold k1_pay2
  rw [shapeCast_self, shapeCast_self, shapeCast_self, addf_apply]
  congr 1
  exact matmul_rows_cols_apply v9 v6 r c

/-- The diagonal step: the accumulator plus the block's own feature rows. -/
theorem k1_pay3_apply (v25 : FVec Ideal S1024x256 .bf16) (v27 : FVec Ideal S1024x256 .f32) (y : S1024x256.Idx) :
    k1_pay3 (F := Ideal) v25 v27 y = v27 y + v25 y := by
  unfold k1_pay3
  rw [shapeCast_self, shapeCast_self]
  rfl

/-- The result: rows scaled, times the weights' rows, plus the two bias rows. -/
theorem k1_pay4_apply (v22 : FVec Ideal S1024x256 .f32) (v23 : FVec Ideal S1024x1 .f32) (v28 : FVec Ideal S256x256 .f32)
    (v31 v35 : FVec Ideal S1x256 .f32) (r : Fin 1024) (o : Fin 256) :
    k1_pay4 (F := Ideal) v22 v23 v28 v31 v35 (ix2 r o)
      = ((∑ c : Fin 256, (v22 (ix2 r c) * v23 (ix2 r (0 : Fin 1))) * v28 (ix2 o c)) + v31 (ix2 (0 : Fin 1) o))
        + v35 (ix2 (0 : Fin 1) o) := by
  unfold k1_pay4
  rw [shapeCast_self, shapeCast_self, shapeCast_self, addf_apply, addf_apply]
  congr 1
  · congr 1
    · refine (matmul_rows_rows_apply _ _ r o).trans ?_
      refine Finset.sum_congr rfl fun c _ => ?_
      rw [truncf_apply, truncf_apply, mulf_apply]
      congr 2
      exact broadcastTo_a1_ab_apply v23 _ r c
    · exact broadcastTo_1b_ab_apply v31 _ r o
  · exact broadcastTo_1b_ab_apply v35 _ r o

end Cert.KernelIdeal.Hand

end
-- ==== Proof.KI.Lds.lean ====
/- The aggregation kernel's two dynamic row loads, read at an index, at a grid point. -/
import proofs.«114961_j26431228739923_2_alg».proof.Proof.KI.Pieces1
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- The grid runs row-major over 8 × 8 points: point `t` is row block `t / 8`, column block `t % 8`. -/
theorem coords1 : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

/-- The rows of column block `t % 8`: row `j` of the load is row `1024 * (t % 8) + j` of the operand. -/
theorem ldK1_at (t : Fin cfg1.N) (x1 : Vec F S8192x256 .bf16) (j : Fin 1024) (cc : Fin 256) (p : Fin 8192)
    (hp : p.val = 1024 * (t.val % 8) + j.val) :
    ldK1 (F := F) (grid1.coords t) x1 (ix2 j cc) = x1 (ix2 p cc) := by
  show x1 ((Rect.unit (s := S8192x256) (k1_off1 (grid1.coords t)) S1024x256.size (k1_off1_inb (grid1.coords t))).emb (ix2 j cc))
    = x1 (ix2 p cc)
  refine congrArg x1 (funext fun a => Fin.ext ?_)
  rw [Rect.emb_apply, Rect.off_unit, Rect.stride_unit, Nat.one_mul]
  match a with
  | ⟨0, _⟩ =>
    have e : k1_off1 (grid1.coords t) 0 = 1024 * ((grid1.coords t) 1).val := congrFun (k1_off1_eq (grid1.coords t)) 0
    show k1_off1 (grid1.coords t) 0 + j.val = p.val
    rw [e, (coords1 t).2, hp]
  | ⟨1, _⟩ =>
    have e : k1_off1 (grid1.coords t) 1 = 0 := congrFun (k1_off1_eq (grid1.coords t)) 1
    show k1_off1 (grid1.coords t) 1 + cc.val = cc.val
    rw [e, Nat.zero_add]

/-- The rows of row block `t / 8` (read where the two blocks coincide): row `j` of the load is row
    `1024 * (t / 8) + j` of the operand. -/
theorem ldK2_at (t : Fin cfg1.N) (h : k1_cond2 (grid1.coords t) = 1#1) (x1 : Vec F S8192x256 .bf16) (j : Fin 1024)
    (cc : Fin 256) (p : Fin 8192) (hp : p.val = 1024 * (t.val / 8) + j.val) :
    ldK2 (F := F) (grid1.coords t) h x1 (ix2 j cc) = x1 (ix2 p cc) := by
  show x1 ((Rect.unit (s := S8192x256) (k1_off2 (grid1.coords t)) S1024x256.size (k1_off2_inb (grid1.coords t) h)).emb (ix2 j cc))
    = x1 (ix2 p cc)
  refine congrArg x1 (funext fun a => Fin.ext ?_)
  rw [Rect.emb_apply, Rect.off_unit, Rect.stride_unit, Nat.one_mul]
  match a with
  | ⟨0, _⟩ =>
    have e : k1_off2 (grid1.coords t) 0 = 1024 * ((grid1.coords t) 0).val := congrFun (k1_off2_eq (grid1.coords t)) 0
    show k1_off2 (grid1.coords t) 0 + j.val = p.val
    rw [e, (coords1 t).1, hp]
  | ⟨1, _⟩ =>
    have e : k1_off2 (grid1.coords t) 1 = 0 := congrFun (k1_off2_eq (grid1.coords t)) 1
    show k1_off2 (grid1.coords t) 1 + cc.val = cc.val
    rw [e, Nat.zero_add]

end Cert.KernelIdeal.Hand

end
-- ==== Proof.KI.Val1.lean ====
/-
  The second kernel's result at the exact instance. At a grid point (row block i, column block k) the accumulator
  receives the product of the adjacency block with rows 1024 k … of the scaled features, and, where k = i, those rows
  1024 i … themselves (the identity's share); after the eight column blocks it holds, for row `row` of the row block,
  (Σ_j adj(row, j) · xs(j, c)) + xs(row, c) — a fold in block order with one inserted term, re-associated over the
  extended reals; the last column block multiplies by the row's inverse square-root degree, contracts with the weight
  matrix's rows and adds the two bias rows, and stores the row block's output block; the eight output blocks tile the
  result.
-/
import proofs.«114961_j26431228739923_2_alg».proof.Proof.KI.Data1
import proofs.«114961_j26431228739923_2_alg».proof.Proof.KI.Pieces1
import proofs.«114961_j26431228739923_2_alg».proof.Proof.KI.Pay1
import proofs.«114961_j26431228739923_2_alg».proof.Proof.KI.Lds
import proofs.«114961_j26431228739923_2_alg».proof.Proof.Spec
import proofs.«114961_j26431228739923_2_alg».proof.Proof.LibAccFold
import proofs.«114961_j26431228739923_2_alg».proof.Proof.LibBlocks
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The arrays the region finds, and the blocks at a grid point, as arrays of extended reals -/

def adjV1 (c : Dev nD) : FVec Ideal S8192x8192 .bf16 := V c main_v19
def xsV (c : Dev nD) : FVec Ideal S8192x256 .bf16 := V c main_v29
def disV (c : Dev nD) : FVec Ideal S8192x1 .f32 := V c main_v26
def wV (c : Dev nD) : FVec Ideal S256x256 .f32 := V c main_arg1
def blV (c : Dev nD) : FVec Ideal S1x256 .f32 := V c main_v30
def biV (c : Dev nD) : FVec Ideal S1x256 .f32 := V c main_v31

def b1_0 (c : Dev nD) (t : Fin cfg1.N) : FVec Ideal S1024x1024 .bf16 := iblk1 V c 0 t
def b1_1 (c : Dev nD) (t : Fin cfg1.N) : FVec Ideal S8192x256 .bf16 := iblk1 V c 1 t
def b1_2 (c : Dev nD) (t : Fin cfg1.N) : FVec Ideal S1024x1 .f32 := iblk1 V c 2 t
def b1_3 (c : Dev nD) (t : Fin cfg1.N) : FVec Ideal S256x256 .f32 := iblk1 V c 3 t
def b1_4 (c : Dev nD) (t : Fin cfg1.N) : FVec Ideal S1x256 .f32 := iblk1 V c 4 t
def b1_5 (c : Dev nD) (t : Fin cfg1.N) : FVec Ideal S1x256 .f32 := iblk1 V c 5 t

/-- The accumulator after position `n`, at an element of the block. -/
def acc1 (c : Dev nD) (n : ℕ) (hn : n < cfg1.N) (r : Fin 1024) (cc : Fin 256) : EReal := accAt1 V c n hn (ix2 r cc)

/-- Rows and columns given as naturals, read modulo the extent (total; every use is in range). -/
def adjAt1 (c : Dev nD) (row col : ℕ) : EReal :=
  adjV1 V c (ix2 (⟨row % 8192, Nat.mod_lt _ (by norm_num)⟩ : Fin 8192) (⟨col % 8192, Nat.mod_lt _ (by norm_num)⟩ : Fin 8192))
def xsAt (c : Dev nD) (row : ℕ) (cc : Fin 256) : EReal :=
  xsV V c (ix2 (⟨row % 8192, Nat.mod_lt _ (by norm_num)⟩ : Fin 8192) cc)
def disAt (c : Dev nD) (row : ℕ) : EReal :=
  disV V c (ix2 (⟨row % 8192, Nat.mod_lt _ (by norm_num)⟩ : Fin 8192) (0 : Fin 1))

/-- The windows' block indices over the grid. -/
theorem idx1 : ∀ t : Fin cfg1.N, win1_0.index t 0 = t.val / 8 ∧ win1_0.index t 1 = t.val % 8 ∧ win1_1.index t 0 = 0 ∧ win1_1.index t 1 = 0
      ∧ win1_2.index t 0 = t.val / 8 ∧ win1_2.index t 1 = 0 ∧ win1_3.index t 0 = 0 ∧ win1_3.index t 1 = 0 ∧ win1_4.index t 0 = 0 ∧ win1_4.index t 1 = 0
      ∧ win1_5.index t 0 = 0 ∧ win1_5.index t 1 = 0 ∧ win1_6.index t 0 = t.val / 8 ∧ win1_6.index t 1 = 0 :=
  (by decide +kernel : ∀ t : Fin grid1.N, win1_0.index t 0 = t.val / 8 ∧ win1_0.index t 1 = t.val % 8 ∧ win1_1.index t 0 = 0 ∧ win1_1.index t 1 = 0
      ∧ win1_2.index t 0 = t.val / 8 ∧ win1_2.index t 1 = 0 ∧ win1_3.index t 0 = 0 ∧ win1_3.index t 1 = 0 ∧ win1_4.index t 0 = 0 ∧ win1_4.index t 1 = 0
      ∧ win1_5.index t 0 = 0 ∧ win1_5.index t 1 = 0 ∧ win1_6.index t 0 = t.val / 8 ∧ win1_6.index t 1 = 0)

theorem b1_0_at (c : Dev nD) (t : Fin cfg1.N) (r j : Fin 1024) :
    b1_0 V c t (ix2 r j) = adjAt1 V c (1024 * (t.val / 8) + r.val) (1024 * (t.val % 8) + j.val) := by
  have hi := idx1 t
  have hN : t.val < 64 := lt_of_lt_of_eq t.isLt (show cfg1.N = 64 from N_1)
  unfold b1_0 iblk1 adjAt1 adjV1
  rw [View.read_apply]
  show V c main_v19 _ = V c main_v19 _
  congr 1
  funext a
  apply Fin.ext
  match a with
  | ⟨0, _⟩ => show win1_0.index t 0 * 1024 + 1 * r.val = (1024 * (t.val / 8) + r.val) % 8192; rw [hi.1]; omega
  | ⟨1, _⟩ => show win1_0.index t 1 * 1024 + 1 * j.val = (1024 * (t.val % 8) + j.val) % 8192; rw [hi.2.1]; omega

theorem b1_1_at (c : Dev nD) (t : Fin cfg1.N) (p : Fin 8192) (cc : Fin 256) : b1_1 V c t (ix2 p cc) = xsV V c (ix2 p cc) := by
  have hi := idx1 t
  unfold b1_1 iblk1 xsV
  rw [View.read_apply]
  show V c main_v29 _ = V c main_v29 _
  congr 1
  funext a
  apply Fin.ext
  match a with
  | ⟨0, _⟩ => show win1_1.index t 0 * 8192 + 1 * p.val = p.val; rw [hi.2.2.1]; omega
  | ⟨1, _⟩ => show win1_1.index t 1 * 256 + 1 * cc.val = cc.val; rw [hi.2.2.2.1]; omega

theorem b1_2_at (c : Dev nD) (t : Fin cfg1.N) (r : Fin 1024) : b1_2 V c t (ix2 r (0 : Fin 1)) = disAt V c (1024 * (t.val / 8) + r.val) := by
  have hi := idx1 t
  have hN : t.val < 64 := lt_of_lt_of_eq t.isLt (show cfg1.N = 64 from N_1)
  unfold b1_2 iblk1 disAt disV
  rw [View.read_apply]
  show V c main_v26 _ = V c main_v26 _
  congr 1
  funext a
  apply Fin.ext
  match a with
  | ⟨0, _⟩ => show win1_2.index t 0 * 1024 + 1 * r.val = (1024 * (t.val / 8) + r.val) % 8192; rw [hi.2.2.2.2.1]; omega
  | ⟨1, _⟩ => show win1_2.index t 1 * 1 + 1 * 0 = 0; rw [hi.2.2.2.2.2.1]

theorem b1_3_at (c : Dev nD) (t : Fin cfg1.N) (o cc : Fin 256) : b1_3 V c t (ix2 o cc) = wV V c (ix2 o cc) := by
  have hi := idx1 t
  unfold b1_3 iblk1 wV
  rw [View.read_apply]
  show V c main_arg1 _ = V c main_arg1 _
  congr 1
  funext a
  apply Fin.ext
  match a with
  | ⟨0, _⟩ => show win1_3.index t 0 * 256 + 1 * o.val = o.val; rw [hi.2.2.2.2.2.2.1]; omega
  | ⟨1, _⟩ => show win1_3.index t 1 * 256 + 1 * cc.val = cc.val; rw [hi.2.2.2.2.2.2.2.1]; omega

theorem b1_4_at (c : Dev nD) (t : Fin cfg1.N) (o : Fin 256) : b1_4 V c t (ix2 (0 : Fin 1) o) = blV V c (ix2 (0 : Fin 1) o) := by
  have hi := idx1 t
  unfold b1_4 iblk1 blV
  rw [View.read_apply]
  show V c main_v30 _ = V c main_v30 _
  congr 1
  funext a
  apply Fin.ext
  match a with
  | ⟨0, _⟩ => show win1_4.index t 0 * 1 + 1 * 0 = 0; rw [hi.2.2.2.2.2.2.2.2.1]
  | ⟨1, _⟩ => show win1_4.index t 1 * 256 + 1 * o.val = o.val; rw [hi.2.2.2.2.2.2.2.2.2.1]; omega

theorem b1_5_at (c : Dev nD) (t : Fin cfg1.N) (o : Fin 256) : b1_5 V c t (ix2 (0 : Fin 1) o) = biV V c (ix2 (0 : Fin 1) o) := by
  have hi := idx1 t
  unfold b1_5 iblk1 biV
  rw [View.read_apply]
  show V c main_v31 _ = V c main_v31 _
  congr 1
  funext a
  apply Fin.ext
  match a with
  | ⟨0, _⟩ => show win1_5.index t 0 * 1 + 1 * 0 = 0; rw [hi.2.2.2.2.2.2.2.2.2.2.1]
  | ⟨1, _⟩ => show win1_5.index t 1 * 256 + 1 * o.val = o.val; rw [hi.2.2.2.2.2.2.2.2.2.2.2.1]; omega

/-! ## One grid point's contributions -/

/-- The block product's element: the sum over one column block. -/
def g1 (c : Dev nD) (i : ℕ) (r : Fin 1024) (cc : Fin 256) (k : ℕ) : EReal :=
  ∑ j : Fin 1024, adjAt1 V c (1024 * i + r.val) (1024 * k + j.val) * xsAt V c (1024 * k + j.val) cc

/-- At point `t` the product of the adjacency block with the feature rows the body loads is the block sum. -/
theorem prod_at (c : Dev nD) (t : Fin cfg1.N) (r : Fin 1024) (cc : Fin 256) :
    (∑ j : Fin 1024, b1_0 V c t (ix2 r j) * ldK1 (F := Ideal) (grid1.coords t) (b1_1 V c t) (ix2 j cc)) = g1 V c (t.val / 8) r cc (t.val % 8) := by
  have hN : t.val < 64 := lt_of_lt_of_eq t.isLt (show cfg1.N = 64 from N_1)
  unfold g1
  refine Finset.sum_congr rfl fun j _ => ?_
  have hj := j.isLt
  have e1 : ldK1 (F := Ideal) (grid1.coords t) (b1_1 V c t) (ix2 j cc) = xsAt V c (1024 * (t.val % 8) + j.val) cc := by
    refine (ldK1_at (F := Ideal) t (b1_1 V c t) j cc ⟨1024 * (t.val % 8) + j.val, by omega⟩ rfl).trans ?_
    refine (b1_1_at V c t _ cc).trans ?_
    unfold xsAt
    congr 2
    exact Fin.ext (show 1024 * (t.val % 8) + j.val = (1024 * (t.val % 8) + j.val) % 8192 by omega)
  rw [b1_0_at, e1]

/-- Where the column block is the row block, the rows the body adds are the row block's own. -/
theorem diag_at (c : Dev nD) (t : Fin cfg1.N) (h : k1_cond2 (grid1.coords t) = 1#1) (r : Fin 1024) (cc : Fin 256) :
    ldK2 (F := Ideal) (grid1.coords t) h (b1_1 V c t) (ix2 r cc) = xsAt V c (1024 * (t.val / 8) + r.val) cc := by
  have hN : t.val < 64 := lt_of_lt_of_eq t.isLt (show cfg1.N = 64 from N_1)
  have hr := r.isLt
  refine (ldK2_at (F := Ideal) t h (b1_1 V c t) r cc ⟨1024 * (t.val / 8) + r.val, by omega⟩ rfl).trans ?_
  refine (b1_1_at V c t _ cc).trans ?_
  unfold xsAt
  congr 2
  exact Fin.ext (show 1024 * (t.val / 8) + r.val = (1024 * (t.val / 8) + r.val) % 8192 by omega)

/-! ## The accumulator, point by point -/

/-- The accumulator after position `n`, at an element (r, c) of the block: the fold, in column-block order, of the block
    sums of the row block `n / 8` up to column block `n % 8`, the row's own scaled features added after block `n / 8`. -/
theorem accAt1_eq (c : Dev nD) (r : Fin 1024) (cc : Fin 256) : ∀ (n : ℕ) (hn : n < cfg1.N),
    acc1 V c n hn r cc = Cert.Spec.foldAccD Cert.Spec.zeroW (g1 V c (n / 8) r cc) (xsAt V c (1024 * (n / 8) + r.val) cc) (n / 8) (n % 8)
  | 0, hn => by
    unfold acc1
    rw [show accAt1 V c 0 hn = _ from accAt1_A V c ⟨0, hn⟩ rfl rfl (by dsimp only; omega)]
    unfold accA
    rw [sout1_A_0_eq, k1_pay3_apply, k1_pay2_apply, k1_pay1_apply]
    show (Cert.Spec.zeroW + ∑ j : Fin 1024, b1_0 V c ⟨0, hn⟩ (ix2 r j) * ldK1 (F := Ideal) (grid1.coords ⟨0, hn⟩) (b1_1 V c ⟨0, hn⟩) (ix2 j cc))
        + ldK2 (F := Ideal) (grid1.coords ⟨0, hn⟩) _ (b1_1 V c ⟨0, hn⟩) (ix2 r cc) = _
    rw [prod_at, diag_at]
    show _ = Cert.Spec.foldAccD Cert.Spec.zeroW (g1 V c (0 / 8) r cc) (xsAt V c (1024 * (0 / 8) + r.val) cc) (0 / 8) (0 % 8)
    rw [Nat.zero_div, Nat.zero_mod, Cert.Spec.foldAccD_zero, if_pos rfl]
  | n + 1, hn => by
    have hN : n + 1 < 64 := lt_of_lt_of_eq hn (show cfg1.N = 64 from N_1)
    by_cases h0 : (n + 1) % 8 = 0
    · -- a first column block (and not the first point): reset; the column block 0 is not the row block
      have h1 : ¬(n + 1) % 9 = 0 := by omega
      have hd : ¬(0 = (n + 1) / 8) := by omega
      unfold acc1
      rw [show accAt1 V c (n + 1) hn = _ from accAt1_B V c ⟨n + 1, hn⟩ h0 h1 (by dsimp only; omega)]
      unfold accB
      rw [sout1_B_0_eq, k1_pay2_apply, k1_pay1_apply]
      show Cert.Spec.zeroW + ∑ j : Fin 1024, b1_0 V c ⟨n + 1, hn⟩ (ix2 r j) * ldK1 (F := Ideal) (grid1.coords ⟨n + 1, hn⟩) (b1_1 V c ⟨n + 1, hn⟩) (ix2 j cc) = _
      rw [prod_at]
      show Cert.Spec.zeroW + g1 V c ((n + 1) / 8) r cc ((n + 1) % 8) = _
      rw [h0, Cert.Spec.foldAccD_zero, if_neg hd]
    · have hd : (n + 1) / 8 = n / 8 := by omega
      have hm : (n + 1) % 8 = n % 8 + 1 := by omega
      have ih := accAt1_eq c r cc n (Nat.lt_of_succ_lt hn)
      by_cases h1 : (n + 1) % 9 = 0
      · -- the column block is the row block: the block product, then the row block's own rows
        have hk : n % 8 + 1 = n / 8 := by omega
        have hstep : acc1 V c (n + 1) hn r cc = (acc1 V c n (Nat.lt_of_succ_lt hn) r cc
            + ∑ j : Fin 1024, b1_0 V c ⟨n + 1, hn⟩ (ix2 r j) * ldK1 (F := Ideal) (grid1.coords ⟨n + 1, hn⟩) (b1_1 V c ⟨n + 1, hn⟩) (ix2 j cc))
            + ldK2 (F := Ideal) (grid1.coords ⟨n + 1, hn⟩) ((hcond1_1 ⟨n + 1, hn⟩).mpr h1) (b1_1 V c ⟨n + 1, hn⟩) (ix2 r cc) := by
          unfold acc1
          by_cases h2 : (n + 1) % 8 = 7
          · rw [show accAt1 V c (n + 1) hn = _ from accAt1_F V c ⟨n + 1, hn⟩ h0 h1 h2]; unfold accF
            rw [sout1_F_0_eq, k1_pay3_apply, k1_pay2_apply]; rfl
          · rw [show accAt1 V c (n + 1) hn = _ from accAt1_C V c ⟨n + 1, hn⟩ h0 h1 h2]; unfold accC
            rw [sout1_C_0_eq, k1_pay3_apply, k1_pay2_apply]; rfl
        rw [hstep, prod_at, diag_at, ih]
        show _ = Cert.Spec.foldAccD Cert.Spec.zeroW (g1 V c ((n + 1) / 8) r cc) (xsAt V c (1024 * ((n + 1) / 8) + r.val) cc) ((n + 1) / 8) ((n + 1) % 8)
        rw [hd, hm, Cert.Spec.foldAccD_succ, if_pos hk]
      · have hk : ¬(n % 8 + 1 = n / 8) := by omega
        have hstep : acc1 V c (n + 1) hn r cc = acc1 V c n (Nat.lt_of_succ_lt hn) r cc
            + ∑ j : Fin 1024, b1_0 V c ⟨n + 1, hn⟩ (ix2 r j) * ldK1 (F := Ideal) (grid1.coords ⟨n + 1, hn⟩) (b1_1 V c ⟨n + 1, hn⟩) (ix2 j cc) := by
          unfold acc1
          by_cases h2 : (n + 1) % 8 = 7
          · rw [show accAt1 V c (n + 1) hn = _ from accAt1_E V c ⟨n + 1, hn⟩ h0 h1 h2]; unfold accE
            rw [sout1_E_0_eq, k1_pay2_apply]; rfl
          · rw [show accAt1 V c (n + 1) hn = _ from accAt1_D V c ⟨n + 1, hn⟩ h0 h1 h2]; unfold accD
            rw [sout1_D_0_eq, k1_pay2_apply]; rfl
        rw [hstep, prod_at, ih]
        show _ = Cert.Spec.foldAccD Cert.Spec.zeroW (g1 V c ((n + 1) / 8) r cc) (xsAt V c (1024 * ((n + 1) / 8) + r.val) cc) ((n + 1) / 8) ((n + 1) % 8)
        rw [hd, hm, Cert.Spec.foldAccD_succ, if_neg hk]

/-! ## The result -/

/-- The result the region leaves, as one function of the arrays it found. -/
def out1 (c : Dev nD) : S8192x256.Idx → EReal := fun i =>
  let row : Fin 8192 := ⟨(i 0).val, idx2_lt0 i⟩
  let o : Fin 256 := ⟨(i 1).val, idx2_lt1 i⟩
  ((∑ cc : Fin 256, (((∑ j : Fin 8192, adjV1 V c (ix2 row j) * xsV V c (ix2 j cc)) + xsV V c (ix2 row cc)) * disV V c (ix2 row (0 : Fin 1)))
      * wV V c (ix2 o cc)) + blV V c (ix2 (0 : Fin 1) o)) + biV V c (ix2 (0 : Fin 1) o)

theorem out1_at (c : Dev nD) (i : S8192x256.Idx) (row : Fin 8192) (o : Fin 256) (hrow : (i 0).val = row.val) (ho : (i 1).val = o.val) :
    out1 V c i = ((∑ cc : Fin 256, (((∑ j : Fin 8192, adjV1 V c (ix2 row j) * xsV V c (ix2 j cc)) + xsV V c (ix2 row cc)) * disV V c (ix2 row (0 : Fin 1)))
      * wV V c (ix2 o cc)) + blV V c (ix2 (0 : Fin 1) o)) + biV V c (ix2 (0 : Fin 1) o) := by
  unfold out1
  have e0 : (⟨(i 0).val, idx2_lt0 i⟩ : Fin 8192) = row := Fin.ext hrow
  have e1 : (⟨(i 1).val, idx2_lt1 i⟩ : Fin 256) = o := Fin.ext ho
  simp only [e0, e1]

/-- The whole contraction over the 8192 rows is the eight block sums. -/
theorem contr_blocks (c : Dev nD) (i : ℕ) (hi : i < 8) (r : Fin 1024) (cc : Fin 256) (row : Fin 8192) (hrow : row.val = 1024 * i + r.val) :
    (∑ j : Fin 8192, adjV1 V c (ix2 row j) * xsV V c (ix2 j cc)) = ∑ k ∈ Finset.range 8, g1 V c i r cc k := by
  rw [Cert.Spec.sum_8192, Cert.Spec.sum_range_eq_sum_fin]
  refine Finset.sum_congr rfl fun k _ => ?_
  unfold g1 adjAt1 xsAt
  refine Finset.sum_congr rfl fun j _ => ?_
  have hk := k.isLt
  have hj := j.isLt
  have hr := r.isLt
  have e0 : (row : Fin 8192) = ⟨(1024 * i + r.val) % 8192, Nat.mod_lt _ (by norm_num)⟩ := Fin.ext (show row.val = (1024 * i + r.val) % 8192 by omega)
  have e1 : (⟨k.val * 1024 + j.val, Cert.Spec.block_lt (b := 8) k j⟩ : Fin 8192) = ⟨(1024 * k.val + j.val) % 8192, Nat.mod_lt _ (by norm_num)⟩ :=
    Fin.ext (show k.val * 1024 + j.val = (1024 * k.val + j.val) % 8192 by omega)
  rw [e0, e1]

/-- What a last column block writes back is its block of the result. -/
theorem flushed1_eq (c : Dev nD) (t : Fin cfg1.N) (hf : (cfg1.win 6).flush t = true) :
    (dat1 V c).flushed 6 t = ((cfg1.win 6).blk t).view.read (Elt Ideal) (out1 V c) := by
  have hN : t.val < 64 := lt_of_lt_of_eq t.isLt (show cfg1.N = 64 from N_1)
  have h7 : t.val % 8 = 7 := (flush1_6 t).mp hf
  have h0 : ¬t.val % 8 = 0 := by omega
  have hi := idx1 t
  show (cfg1.win 6).cut (grid1.coords t) ((dat1 V c).after 6 t) = _
  rw [after1_6]
  funext y
  obtain ⟨r, o, rfl⟩ : ∃ (r : Fin 1024) (o : Fin 256), y = ix2 r o := ⟨y 0, y 1, eq_ix2 y⟩
  rw [View.read_apply]
  have hrowlt : 1024 * (t.val / 8) + r.val < 8192 := by have := r.isLt; omega
  have hout : outAt1 V c t (ix2 r o) = ((∑ cc : Fin 256, (acc1 V c t.val t.isLt r cc * b1_2 V c t (ix2 r (0 : Fin 1))) * b1_3 V c t (ix2 o cc))
      + b1_4 V c t (ix2 (0 : Fin 1) o)) + b1_5 V c t (ix2 (0 : Fin 1) o) := by
    unfold acc1
    by_cases h1 : t.val % 9 = 0
    · rw [show outAt1 V c t = _ from (dif_pos h7).trans (dif_pos h1), accAt1_F V c t h0 h1 h7]; unfold outF accF
      rw [out1_F_6_eq, sout1_F_0_eq, k1_pay4_apply]; rfl
    · rw [show outAt1 V c t = _ from (dif_pos h7).trans (dif_neg h1), accAt1_E V c t h0 h1 h7]; unfold outE accE
      rw [out1_E_6_eq, sout1_E_0_eq, k1_pay4_apply]; rfl
  show outAt1 V c t (ix2 r o) = _
  rw [hout]
  have hacc : ∀ cc : Fin 256, acc1 V c t.val t.isLt r cc
      = (∑ j : Fin 8192, adjV1 V c (ix2 ⟨1024 * (t.val / 8) + r.val, hrowlt⟩ j) * xsV V c (ix2 j cc)) + xsV V c (ix2 ⟨1024 * (t.val / 8) + r.val, hrowlt⟩ cc) := by
    intro cc
    rw [accAt1_eq V c r cc t.val t.isLt, h7, Cert.Spec.foldAccD_eq _ _ _ _ _ (by omega), Cert.Spec.zeroW_eq, zero_add,
      contr_blocks V c (t.val / 8) (by omega) r cc ⟨1024 * (t.val / 8) + r.val, hrowlt⟩ rfl]
    congr 1
    unfold xsAt
    congr 2
    exact Fin.ext (show (1024 * (t.val / 8) + r.val) % 8192 = 1024 * (t.val / 8) + r.val by omega)
  have hdis : b1_2 V c t (ix2 r (0 : Fin 1)) = disV V c (ix2 ⟨1024 * (t.val / 8) + r.val, hrowlt⟩ (0 : Fin 1)) := by
    rw [b1_2_at]; unfold disAt
    congr 2
    exact Fin.ext (show (1024 * (t.val / 8) + r.val) % 8192 = 1024 * (t.val / 8) + r.val by omega)
  rw [hdis, b1_4_at, b1_5_at]
  refine Eq.trans ?_ (out1_at V c _ ⟨1024 * (t.val / 8) + r.val, hrowlt⟩ o ?_ ?_).symm
  · congr 2
    refine Finset.sum_congr rfl fun cc _ => ?_
    rw [hacc cc, b1_3_at]
  · show win1_6.index t 0 * 1024 + 1 * r.val = 1024 * (t.val / 8) + r.val
    rw [hi.2.2.2.2.2.2.2.2.2.2.2.2.1]; omega
  · show win1_6.index t 1 * 256 + 1 * o.val = o.val
    rw [hi.2.2.2.2.2.2.2.2.2.2.2.2.2]; omega

/-- Every index of the result lies in the output block of the last column block of its row block. -/
theorem cover1 (i : ((cfg1.win 6).arr.view.loc ((0 : Dev nD).tc : Thread nD τ)).2.ty.Idx) :
    ∃ t : Fin cfg1.N, (cfg1.win 6).flush t = true ∧ i ∈ ((cfg1.win 6).blk t).view.set := by
  have h0 : (i 0 : Nat) < 8192 := (i 0).isLt
  have h1 : (i 1 : Nat) < 256 := (i 1).isLt
  have hN : cfg1.N = 64 := N_1
  let t : Fin cfg1.N := ⟨8 * ((i 0 : Nat) / 1024) + 7, by rw [hN]; omega⟩
  have ht : t.val = 8 * ((i 0 : Nat) / 1024) + 7 := rfl
  have hi := idx1 t
  refine ⟨t, (flush1_6 t).mpr (by rw [ht]; omega), ?_⟩
  show i ∈ ((View.whole main_v32).slice (win1_6.rect t)).set
  rw [View.set_slice_whole, Rect.mem_set_unit]
  intro a
  match a with
  | ⟨0, _⟩ => show win1_6.index t 0 * win1_6.size 0 ≤ (i 0 : Nat) ∧ (i 0 : Nat) < win1_6.index t 0 * win1_6.size 0 + win1_6.xsize (grid1.coords t) 0
              rw [hi.2.2.2.2.2.2.2.2.2.2.2.2.1, show win1_6.size 0 = 1024 from rfl, show win1_6.xsize (grid1.coords t) 0 = 1024 from rfl, ht]; omega
  | ⟨1, _⟩ => show win1_6.index t 1 * win1_6.size 1 ≤ (i 1 : Nat) ∧ (i 1 : Nat) < win1_6.index t 1 * win1_6.size 1 + win1_6.xsize (grid1.coords t) 1
              rw [hi.2.2.2.2.2.2.2.2.2.2.2.2.2, show win1_6.size 1 = 256 from rfl, show win1_6.xsize (grid1.coords t) 1 = 256 from rfl]; omega

/-- THE RESULT the second region leaves. -/
theorem final1 (c : Dev nD) : (dat1 V c).arrAt 6 cfg1.N = out1 V c :=
  (dat1 V c).arrAt_eq_of_cover 6 _ (flushed1_eq V c) fun i => cover1 i

end Cert.KernelIdeal.Hand

end
-- ==== Proof.RefValue.lean ====
/- The second program's result read at an index, as the specification's function of the adjacency
   with self loops; what the two scatters hold; and the first program's adjacency against the second's. -/
import proofs.«114961_j26431228739923_2_alg».proof.Proof.RefRead
import proofs.«114961_j26431228739923_2_alg».proof.Proof.Spec
import proofs.«114961_j26431228739923_2_alg».proof.KernelIdeal
import proofs.«114961_j26431228739923_2_alg».proof.Proof.Gen.KernelIdeal

noncomputable section

open scoped BigOperators

namespace Cert.RefValue

open Idealize.ShloMosaic Idealize.ShloMosaic.ValueIdx

section R
open Cert.ReferenceIdeal Cert.ReferenceIdeal.Gen Idealize.ShloMosaic.TcCoe Idealize.SL.Sem Idealize.ShloMosaic.StableHlo
open Cert.ReferenceIdeal.ReadP

/-- The adjacency: ones set at the (wrapped) index pairs of the edge array, zeros elsewhere. -/
def adjR (e : (⟨S2x131072, .i32⟩ : BufTy).Contents (Elt Ideal)) : S8192x8192.Idx → EReal :=
  val_main_v19 (F := Ideal) e

/-- The adjacency with one added at every diagonal index pair. -/
def adj1R (e : (⟨S2x131072, .i32⟩ : BufTy).Contents (Elt Ideal)) : S8192x8192.Idx → EReal :=
  val_main_v35 (F := Ideal) e

/-- The row sums of the second program are the specification's degrees. -/
theorem deg_eq (e : (⟨S2x131072, .i32⟩ : BufTy).Contents (Elt Ideal)) :
    val_main_v36 (F := Ideal) e = Cert.Spec.degR (adj1R e) := by
  funext i
  rw [val_main_v36_apply]
  unfold Cert.Spec.degR Cert.Spec.zeroW adj1R
  simp only [val_main_cst_9_apply, Ideal.ofBits_def]
  refine congrArg (_ + ·) (Finset.sum_congr rfl fun k _ => ?_)
  exact congrArg _ (funext fun a => Fin.ext (by match a with | ⟨0, _⟩ => rfl | ⟨1, _⟩ => rfl))

/-- The scaling vector of the second program is the specification's. -/
theorem dis_eq (e : (⟨S2x131072, .i32⟩ : BufTy).Contents (Elt Ideal)) :
    val_main_v42 (F := Ideal) e = Cert.Spec.disR (Cert.Spec.degR (adj1R e)) := by
  rw [← deg_eq]; rfl

/-- The second program's result, as a function of its arguments, is the specification's. -/
theorem refVal_eq (x0 : (⟨S8192x256, .f32⟩ : BufTy).Contents (Elt Ideal)) (x1 : (⟨S256x256, .f32⟩ : BufTy).Contents (Elt Ideal))
    (x2 x3 : (⟨S256, .f32⟩ : BufTy).Contents (Elt Ideal)) (e : (⟨S2x131072, .i32⟩ : BufTy).Contents (Elt Ideal)) :
    val_main_v57 (F := Ideal) x0 x1 x2 x3 e = Cert.Spec.refOut (adj1R e) x0 x1 x2 x3 := by
  funext i
  simp only [val_main_v57_apply, val_main_v56_apply, val_main_v55_apply, val_main_v54_apply, val_main_v53_apply,
    val_main_v52_apply, val_main_v51_apply, val_main_v50_apply, val_main_v49_apply, val_main_v48_apply,
    val_main_v47_apply, val_main_v46_apply, val_main_v45_apply, val_main_v44_apply, val_main_v43_apply, dis_eq,
    Ideal.addf_def, Ideal.mulf_def]
  unfold Cert.Spec.refOut adj1R
  dsimp only
  refine congrArg₂ (· + ·) (congrArg₂ (· + ·) (Finset.sum_congr rfl fun c _ => congrArg₂ (· * ·)
    (Finset.sum_congr rfl fun j _ => congrArg₂ (· * ·) (congrArg₂ (· * ·) (congrArg₂ (· * ·) ?_ ?_) ?_) ?_) ?_) ?_) ?_
  · exact congrArg _ (funext fun a => Fin.ext (by match a with | ⟨0, _⟩ => rfl))
  · exact congrArg _ (funext fun a => Fin.ext (by match a with | ⟨0, _⟩ => rfl | ⟨1, _⟩ => rfl))
  · exact congrArg _ (funext fun a => Fin.ext (by match a with | ⟨0, _⟩ => rfl))
  · exact congrArg _ (funext fun a => Fin.ext (by match a with | ⟨0, _⟩ => rfl | ⟨1, _⟩ => rfl))
  · exact congrArg _ (funext fun a => Fin.ext (by match a with | ⟨0, _⟩ => rfl | ⟨1, _⟩ => rfl))
  · exact congrArg _ (funext fun a => Fin.ext (by match a with | ⟨0, _⟩ => rfl))
  · exact congrArg _ (funext fun a => Fin.ext (by match a with | ⟨0, _⟩ => rfl))

/-- The second program's result buffer after its run is the specification's function of the run's arguments. -/
theorem refResult_eq (m : (ℓ : Loc nD τ sig) → Buf (Elt Ideal) ℓ) (c : Dev nD) :
    Cert.ReferenceIdeal.ValueP.res_main_v57 (F := Ideal) m c
      = Cert.Spec.refOut (adj1R (m ((c.tc : Thread nD τ).loc main_arg4))) (m ((c.tc : Thread nD τ).loc main_arg0))
          (m ((c.tc : Thread nD τ).loc main_arg1)) (m ((c.tc : Thread nD τ).loc main_arg2))
          (m ((c.tc : Thread nD τ).loc main_arg3)) := by
  rw [val_main_v57_eq]
  exact refVal_eq _ _ _ _ _

end R

end Cert.RefValue

end
-- ==== Proof.RefAdj.lean ====
/- What the two scatters of the second program hold, entry by entry, and the first program's
   adjacency against the second's. -/
import proofs.«114961_j26431228739923_2_alg».proof.Proof.RefValue
import Idealize.ShloMosaic.Lib.Pipeline.Value

noncomputable section

open scoped BigOperators

namespace Cert.RefValue

open Idealize.ShloMosaic Idealize.ShloMosaic.ValueIdx

/-- A set-scatter keeps every property that all the operand's and all the updates' elements have. -/
theorem scatter_set_ind {s si u : Shape} {w : Nat} {α : Type} (d : ScatterDims s si u) (P : α → Prop)
    (idx : IVec si w) (upd : u.Idx → α) (hu : ∀ j, P (upd j)) (x : s.Idx → α) (hx : ∀ i, P (x i)) (i : s.Idx) :
    P (Host.scatter d (fun _ b => b) x idx upd i) := by
  unfold Host.scatter
  generalize List.finRange u.numel = l
  induction l generalizing x with
  | nil => exact hx i
  | cons n l ih =>
    rw [List.foldl_cons]
    refine ih _ (fun i' => ?_)
    generalize d.resultIdx? (u.rowMajor.symm n) idx = o
    cases o with
    | none => exact hx i'
    | some k =>
      show P (if i' = k then upd _ else x i')
      by_cases h' : i' = k
      · rw [if_pos h']; exact hu _
      · rw [if_neg h']; exact hx _

/-- The 32-bit word of a number below 8192 reads, signed, as that number. -/
theorem word_toInt (n : Nat) (hn : n < 8192) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- The word of a row number below 8192, normalised as a possibly negative index, is unchanged. -/
theorem wrap_word (n : Nat) (hn : n < 8192) :
    Scalar.select (IntOp.cmpi .slt (BitVec.ofNat 32 n) 0#32) (IntOp.addi (BitVec.ofNat 32 n) 8192#32) (BitVec.ofNat 32 n)
      = BitVec.ofNat 32 n := by
  have h : (BitVec.ofNat 32 n).slt 0#32 = false := by
    rw [BitVec.slt_eq_decide, word_toInt n hn]; simp
  simp [Scalar.select, IntOp.cmpi, h]

section R
open Cert.ReferenceIdeal Cert.ReferenceIdeal.Gen Idealize.ShloMosaic.TcCoe Idealize.SL.Sem Idealize.ShloMosaic.StableHlo
open Cert.ReferenceIdeal.ReadP

/-- Every entry of the adjacency is zero or one. -/
theorem adjR_01 (e : (⟨S2x131072, .i32⟩ : BufTy).Contents (Elt Ideal)) (i : S8192x8192.Idx) :
    adjR e i = 0 ∨ adjR e i = 1 := by
  unfold adjR val_main_v19
  refine scatter_set_ind _ (fun v => v = 0 ∨ v = 1) _ _ (fun j => Or.inr ?_) _ (fun i => Or.inl ?_) i
  · rw [val_main_v18_apply, val_main_cst_3_apply]; exact Cert.Spec.oneW_eq
  · rw [val_main_v0_apply, val_main_cst_apply]; exact Cert.Spec.zeroW_eq

/-- The normalised row numbers, as a column: entry n is the word of n. -/
theorem diagCol31_apply (p : S8192x1.Idx) : val_main_v31 (F := Ideal) p = BitVec.ofNat 32 (p 0).val := by
  rw [val_main_v31_apply, val_main_v25_apply, val_main_v22_apply, val_main_v24_apply, val_main_v20_apply,
    val_main_v21_apply, val_main_v23_apply, val_main_c_4_apply, val_main_c_5_apply]
  exact wrap_word _ (p 0).isLt

theorem diagCol32_apply (p : S8192x1.Idx) : val_main_v32 (F := Ideal) p = BitVec.ofNat 32 (p 0).val := by
  rw [val_main_v32_apply, val_main_v30_apply, val_main_v27_apply, val_main_v29_apply, val_main_v20_apply,
    val_main_v26_apply, val_main_v28_apply, val_main_c_6_apply, val_main_c_7_apply]
  exact wrap_word _ (p 0).isLt

/-- The diagonal index array: both components of index vector n are the word of n. -/
theorem diagIdx_apply (k : S8192x2.Idx) : val_main_v33 (F := Ideal) k = BitVec.ofNat 32 (k 0).val := by
  unfold val_main_v33
  have h01 : (k 1).val = 0 ∨ (k 1).val = 1 := by have h2 : (k 1).val < 2 := (k 1).isLt; omega
  rcases h01 with h0 | h1
  · rw [concatenate_pair_apply_left (t := S8192x2) (s₁ := S8192x1) (s₂ := S8192x1) (1 : Fin 2) _ _
      concatenates_S8192x1_S8192x1_S8192x2_d1 k rfl (ix2 (⟨(k 0).val, (k 0).isLt⟩ : Fin 8192) (0 : Fin 1))
      (fun b => by match b with | ⟨0, _⟩ => rfl | ⟨1, _⟩ => exact h0.symm)]
    exact diagCol31_apply _
  · rw [concatenate_pair_apply_right (t := S8192x2) (s₁ := S8192x1) (s₂ := S8192x1) (1 : Fin 2) _ _
      concatenates_S8192x1_S8192x1_S8192x2_d1 k rfl rfl (ix2 (⟨(k 0).val, (k 0).isLt⟩ : Fin 8192) (0 : Fin 1))
      (fun b hb => by match b with | ⟨0, _⟩ => rfl | ⟨1, _⟩ => exact absurd rfl hb)
      (by show 0 + 1 = (k 1).val; omega)]
    exact diagCol32_apply _

/-- The scatter-indices index that diagonal update n reads has row n. -/
theorem diag_siIdx_val0 (j : S8192.Idx)
    (c : Fin scatter_S8192x8192_S8192x2_S8192_n_01_01_1.scatterDimsToOperandDims.length) :
    ((scatter_S8192x8192_S8192x2_S8192_n_01_01_1.siIdx j c) 0).val = (j 0).val := by
  unfold ScatterDims.siIdx
  rw [dif_neg (by decide)]
  unfold ScatterDims.siCoord
  show (j _).val = (j 0).val
  exact congrArg (fun x => (j x).val) (Subsingleton.elim _ _)

/-- The start index of diagonal update n on either axis is n. -/
theorem diag_start (j : S8192.Idx) (a : Fin S8192x8192.rank) :
    scatter_S8192x8192_S8192x2_S8192_n_01_01_1.start j (val_main_v33 (F := Ideal)) a = ((j 0).val : Int) := by
  unfold ScatterDims.start
  have hall : ∀ a : Fin S8192x8192.rank, a ∈ scatter_S8192x8192_S8192x2_S8192_n_01_01_1.scatterDimsToOperandDims := by
    decide
  rw [dif_pos (hall a), diagIdx_apply, diag_siIdx_val0, word_toInt _ (j 0).isLt]

/-- A diagonal update has no window coordinate. -/
theorem diag_window (j : S8192.Idx) (a : Fin S8192x8192.rank) :
    scatter_S8192x8192_S8192x2_S8192_n_01_01_1.window j a = 0 := by
  unfold ScatterDims.window
  have hall : ∀ a : Fin S8192x8192.rank, a ∉ scatter_S8192x8192_S8192x2_S8192_n_01_01_1.sKept := by decide
  rw [dif_neg (hall a)]

/-- Diagonal update n lands at entry (n, n). -/
theorem diag_resultIdx (j : S8192.Idx) :
    scatter_S8192x8192_S8192x2_S8192_n_01_01_1.resultIdx? j (val_main_v33 (F := Ideal))
      = some (ix2 (⟨(j 0).val, (j 0).isLt⟩ : Fin 8192) (⟨(j 0).val, (j 0).isLt⟩ : Fin 8192)) := by
  unfold ScatterDims.resultIdx?
  have hj : (j 0).val < 8192 := (j 0).isLt
  have h : ∀ a, 0 ≤ scatter_S8192x8192_S8192x2_S8192_n_01_01_1.start j (val_main_v33 (F := Ideal)) a
        + scatter_S8192x8192_S8192x2_S8192_n_01_01_1.window j a
      ∧ scatter_S8192x8192_S8192x2_S8192_n_01_01_1.start j (val_main_v33 (F := Ideal)) a
        + scatter_S8192x8192_S8192x2_S8192_n_01_01_1.window j a < S8192x8192.size a := by
    intro a
    rw [diag_start, diag_window]
    have hs : S8192x8192.size a = 8192 := by match a with | ⟨0, _⟩ => rfl | ⟨1, _⟩ => rfl
    rw [hs]
    constructor <;> omega
  rw [dif_pos h]
  refine congrArg some (funext fun a => Fin.ext ?_)
  show (scatter_S8192x8192_S8192x2_S8192_n_01_01_1.start j (val_main_v33 (F := Ideal)) a
        + scatter_S8192x8192_S8192x2_S8192_n_01_01_1.window j a).toNat = _
  rw [diag_start, diag_window]
  match a with
  | ⟨0, _⟩ => show ((((j 0).val : Nat) : Int) + ((0 : Nat) : Int)).toNat = (j 0).val; omega
  | ⟨1, _⟩ => show ((((j 0).val : Nat) : Int) + ((0 : Nat) : Int)).toNat = (j 0).val; omega

/-- The adjacency with self loops: the adjacency plus one on the diagonal. -/
theorem adj1R_eq (e : (⟨S2x131072, .i32⟩ : BufTy).Contents (Elt Ideal)) (i : S8192x8192.Idx) :
    adj1R e i = adjR e i + (if (i 0).val = (i 1).val then (1 : EReal) else 0) := by
  show Ideal.hostScatterAdd scatter_S8192x8192_S8192x2_S8192_n_01_01_1 (val_main_v19 (F := Ideal) e)
      (val_main_v33 (F := Ideal)) (val_main_v34 (F := Ideal)) i = _
  unfold Ideal.hostScatterAdd
  refine congrArg (adjR e i + ·) ?_
  rw [Finset.sum_filter]
  simp only [diag_resultIdx, val_main_v34_apply, val_main_cst_8_apply, Ideal.ofBits_def]
  have hone : Ideal.ofBits .f32 0x3F800000#32 = 1 := Cert.Spec.oneW_eq
  rw [hone]
  by_cases h : (i 0).val = (i 1).val
  · rw [if_pos h, Finset.sum_eq_single (ix1 (⟨(i 0).val, (i 0).isLt⟩ : Fin 8192))]
    · rw [if_pos]
      refine congrArg some (funext fun a => Fin.ext ?_)
      match a with
      | ⟨0, _⟩ => rfl
      | ⟨1, _⟩ => exact h
    · intro b _ hb
      rw [if_neg]
      intro hEq
      apply hb
      have h0 := congrArg (fun f : S8192x8192.Idx => (f 0).val) (Option.some.inj hEq)
      rw [eq_ix1 b]
      exact congrArg ix1 (Fin.ext h0)
    · intro hn; exact absurd (Finset.mem_univ _) hn
  · rw [if_neg h]
    refine Finset.sum_eq_zero fun b _ => ?_
    rw [if_neg]
    intro hEq
    apply h
    have h0 := congrArg (fun f : S8192x8192.Idx => (f 0).val) (Option.some.inj hEq)
    have h1 := congrArg (fun f : S8192x8192.Idx => (f 1).val) (Option.some.inj hEq)
    exact h0.symm.trans h1

end R

section K
open Cert.KernelIdeal Cert.KernelIdeal.Gen

/-- The first program's adjacency: ones (half-precision words) set at the (wrapped) index pairs of the edge
    array, zeros elsewhere; the host term of its first 26 operations. -/
def adjK (e : (⟨S2x131072, .i32⟩ : BufTy).Contents (Elt Ideal)) : FVec Ideal S8192x8192 .bf16 :=
  Host.scatter scatter_S8192x8192_S131072x2_S131072_n_01_01_1 (fun _ b => b) (broadcastInDim S8192x8192 ![] bcast_S_S8192x8192 (constant (F := Ideal) S_ .bf16 0x0000#16)) (concatenate S131072x2 1 [⟨S131072x1, (broadcastInDim S131072x1 ![0] bcast_S131072_S131072x1_0 (select (cmpi .slt (shapeCast _ (extractStridedSlice S1x131072 ![0, 0] e slices_S2x131072_S1x131072_0_0) shapeCasts_S1x131072_S131072) (broadcastInDim S131072 ![] bcast_S_S131072 (constantI S_ 32 0#32))) (addi (shapeCast _ (extractStridedSlice S1x131072 ![0, 0] e slices_S2x131072_S1x131072_0_0) shapeCasts_S1x131072_S131072) (broadcastInDim S131072 ![] bcast_S_S131072 (constantI S_ 32 8192#32))) (shapeCast _ (extractStridedSlice S1x131072 ![0, 0] e slices_S2x131072_S1x131072_0_0) shapeCasts_S1x131072_S131072)))⟩, ⟨S131072x1, (broadcastInDim S131072x1 ![0] bcast_S131072_S131072x1_0 (select (cmpi .slt (shapeCast _ (extractStridedSlice S1x131072 ![1, 0] e slices_S2x131072_S1x131072_1_0) shapeCasts_S1x131072_S131072) (broadcastInDim S131072 ![] bcast_S_S131072 (constantI S_ 32 0#32))) (addi (shapeCast _ (extractStridedSlice S1x131072 ![1, 0] e slices_S2x131072_S1x131072_1_0) shapeCasts_S1x131072_S131072) (broadcastInDim S131072 ![] bcast_S_S131072 (constantI S_ 32 8192#32))) (shapeCast _ (extractStridedSlice S1x131072 ![1, 0] e slices_S2x131072_S1x131072_1_0) shapeCasts_S1x131072_S131072)))⟩] concatenates_S131072x1_S131072x1_S131072x2_d1) (broadcastInDim S131072 ![] bcast_S_S131072 (constant (F := Ideal) S_ .bf16 0x3F80#16))

/-- The half-precision zero word is zero, as the single-precision one. -/
theorem zero_bf16_eq : (constant (F := Ideal) S_ .bf16 0x0000#16 : S_.Idx → EReal)
    = constant (F := Ideal) Cert.ReferenceIdeal.S_ .f32 0x00000000#32 := by
  funext k
  show Ideal.ofBits .bf16 0x0000#16 = Ideal.ofBits .f32 0x00000000#32
  simp [Ideal.ofBits, Ideal.ieee]

/-- The half-precision word of one is one, as the single-precision one. -/
theorem one_bf16_eq : (constant (F := Ideal) S_ .bf16 0x3F80#16 : S_.Idx → EReal)
    = constant (F := Ideal) Cert.ReferenceIdeal.S_ .f32 0x3F800000#32 := by
  funext k
  show Ideal.ofBits .bf16 0x3F80#16 = Ideal.ofBits .f32 0x3F800000#32
  have h32 : Ideal.ofBits .f32 0x3F800000#32 = 1 := Cert.Spec.oneW_eq
  rw [h32]
  simp [Ideal.ofBits, Ideal.ieee, -EReal.coe_mul]
  norm_num

/-- The two programs' adjacencies agree entry by entry. -/
theorem adjK_eq_adjR (e : (⟨S2x131072, .i32⟩ : BufTy).Contents (Elt Ideal)) (i : S8192x8192.Idx) :
    adjK e i = adjR e i := by
  unfold adjK
  rw [zero_bf16_eq, one_bf16_eq]
  rfl

/-- Every entry of the first program's adjacency is zero or one. -/
theorem adjK_01 (e : (⟨S2x131072, .i32⟩ : BufTy).Contents (Elt Ideal)) (i : S8192x8192.Idx) :
    adjK e i = 0 ∨ adjK e i = 1 := by
  rw [adjK_eq_adjR]; exact adjR_01 e i

end K

end Cert.RefValue

end
-- ==== Proof.KI.HostVals.lean ====
/- The contents of the buffers the host operations of the first program compute, at the exact instance: the adjacency
   the first region reads, the scaling column and the scaled features and the two bias rows the second region reads,
   each as a closed term of the launch contents (and of the first region's result, the degree column). -/
import proofs.«114961_j26431228739923_2_alg».proof.Proof.KI.Launch
import proofs.«114961_j26431228739923_2_alg».proof.Proof.KI.Args
import proofs.«114961_j26431228739923_2_alg».proof.Proof.Spec
import proofs.«114961_j26431228739923_2_alg».proof.Proof.RefAdj
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

set_option maxHeartbeats 2000000 in
/-- When the first region is entered the adjacency array holds ones at the (wrapped) index pairs of the edge array and
    zeros elsewhere. -/
theorem W1_adj (c : Dev nD) :
    (W1 m ρ c (Proc.devRef .tc main_v19) : FVec Ideal S8192x8192 .bf16) = Cert.RefValue.adjK (m ((c : Thread nD τ).loc main_arg4)) := by
  show StableHlo.after hostOps0 (fun b => m (c, b)) (Proc.devRef .tc main_v19) = _
  after_results_simp
  rfl

/-- When the second region is entered the scaling column is the inverse square root of the degree column the first
    region left, where that is positive, and zero elsewhere. -/
theorem W5_dis (c : Dev nD) :
    (W5 m ρ c (Proc.devRef .tc main_v26) : FVec Ideal S8192x1 .f32) = Cert.Spec.disK (W2 m ρ c (Proc.devRef .tc main_v20)) := by
  show StableHlo.after hostOps1_2 (StableHlo.after hostOps1_1 (StableHlo.after hostOps1 (W2 m ρ c))) (Proc.devRef .tc main_v26) = _
  generalize W2 m ρ c = U
  after_results
  rfl

/-- The scaled features are the features multiplied row by row by the scaling column (the narrowing to half precision
    is the identity at the exact instance). -/
theorem W5_xs (c : Dev nD) :
    (W5 m ρ c (Proc.devRef .tc main_v29) : FVec Ideal S8192x256 .bf16)
      = Cert.Spec.xsK (W5 m ρ c (Proc.devRef .tc main_v26)) (m ((c : Thread nD τ).loc main_arg0)) := by
  have e26 : W5 m ρ c (Proc.devRef .tc main_v26) = W4 m ρ c (Proc.devRef .tc main_v26) :=
    StableHlo.after_of_writes_sub hostOps1_2 _ hostOps1_2_writes (by decide)
  have e0 : W4 m ρ c (Proc.devRef .tc main_arg0) = m ((c : Thread nD τ).loc main_arg0) :=
    (StableHlo.after_of_writes_sub hostOps1_2 _ hostOps1_2_writes (by decide)).symm.trans
      (W5_of_launch m ρ c main_arg0 (by decide) (by decide) (by decide) (by decide) (by decide))
  have h : (W5 m ρ c (Proc.devRef .tc main_v29) : FVec Ideal S8192x256 .bf16)
      = truncf (F := Ideal) .bf16 (mulf (F := Ideal) (broadcastInDim S8192x256 ![0, 1] bcast_S8192x1_S8192x256_0_1 (W4 m ρ c (Proc.devRef .tc main_v26) : FVec Ideal S8192x1 .f32))
          (W4 m ρ c (Proc.devRef .tc main_arg0) : FVec Ideal S8192x256 .f32)) bitsLt_bf16_f32 := by
    show StableHlo.after hostOps1_2 (W4 m ρ c) (Proc.devRef .tc main_v29) = _
    generalize W4 m ρ c = U
    after_results
  rw [h, e26, e0]
  rfl

/-- The first bias row, read at a column, is the first bias vector there. -/
theorem W5_bl (c : Dev nD) (o : Fin 256) :
    (W5 m ρ c (Proc.devRef .tc main_v30) : FVec Ideal S1x256 .f32) (ix2 (0 : Fin 1) o)
      = (m ((c : Thread nD τ).loc main_arg2) : FVec Ideal S256 .f32) (ix1 o) := by
  have e2 : W4 m ρ c (Proc.devRef .tc main_arg2) = m ((c : Thread nD τ).loc main_arg2) :=
    (StableHlo.after_of_writes_sub hostOps1_2 _ hostOps1_2_writes (by decide)).symm.trans
      (W5_of_launch m ρ c main_arg2 (by decide) (by decide) (by decide) (by decide) (by decide))
  have h : (W5 m ρ c (Proc.devRef .tc main_v30) : FVec Ideal S1x256 .f32)
      = shapeCast S1x256 (W4 m ρ c (Proc.devRef .tc main_arg2) : FVec Ideal S256 .f32) shapeCasts_S256_S1x256 := by
    show StableHlo.after hostOps1_2 (W4 m ρ c) (Proc.devRef .tc main_v30) = _
    generalize W4 m ρ c = U
    after_results
    rfl
  rw [h, e2]
  exact shapeCast_apply _ _ (ix2 (0 : Fin 1) o) (ix1 o) (by
    rw [Shape.rowMajor_val_two, Shape.rowMajor_val_one]; show o.val = 0 * 256 + o.val; omega)

/-- The second bias row, read at a column, is the second bias vector there. -/
theorem W5_bi (c : Dev nD) (o : Fin 256) :
    (W5 m ρ c (Proc.devRef .tc main_v31) : FVec Ideal S1x256 .f32) (ix2 (0 : Fin 1) o)
      = (m ((c : Thread nD τ).loc main_arg3) : FVec Ideal S256 .f32) (ix1 o) := by
  have e3 : W4 m ρ c (Proc.devRef .tc main_arg3) = m ((c : Thread nD τ).loc main_arg3) :=
    (StableHlo.after_of_writes_sub hostOps1_2 _ hostOps1_2_writes (by decide)).symm.trans
      (W5_of_launch m ρ c main_arg3 (by decide) (by decide) (by decide) (by decide) (by decide))
  have h : (W5 m ρ c (Proc.devRef .tc main_v31) : FVec Ideal S1x256 .f32)
      = shapeCast S1x256 (W4 m ρ c (Proc.devRef .tc main_arg3) : FVec Ideal S256 .f32) shapeCasts_S256_S1x256 := by
    show StableHlo.after hostOps1_2 (W4 m ρ c) (Proc.devRef .tc main_v31) = _
    generalize W4 m ρ c = U
    after_results
    rfl
  rw [h, e3]
  exact shapeCast_apply _ _ (ix2 (0 : Fin 1) o) (ix1 o) (by
    rw [Shape.rowMajor_val_two, Shape.rowMajor_val_one]; show o.val = 0 * 256 + o.val; omega)

end Cert.KernelIdeal.Hand

end
-- ==== Proof.KI.Result.lean ====
/-
  The idealized kernel program's result array, at the exact instance, as the specification's function of the five
  argument arrays: the last boundary's contents at the result buffer are the second region's result (Val1), whose
  inputs are the adjacency built on the host, the inverse square-root degree column computed on the host from the first
  region's degree column (Val0), the scaled features, the weight matrix and the two bias rows.
-/
import proofs.«114961_j26431228739923_2_alg».proof.Proof.KI.Val0
import proofs.«114961_j26431228739923_2_alg».proof.Proof.KI.Val1
import proofs.«114961_j26431228739923_2_alg».proof.Proof.KI.HostVals
import proofs.«114961_j26431228739923_2_alg».proof.Proof.KI.Args

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The adjacency is still the host's when the second region is entered: the first region only reads it and no later
    host operation writes it. -/
theorem W5_adj (c : Dev nD) : W5 m ρ c (Proc.devRef .tc main_v19) = W1 m ρ c (Proc.devRef .tc main_v19) :=
  calc W5 m ρ c (Proc.devRef .tc main_v19)
    _ = W4 m ρ c (Proc.devRef .tc main_v19) := StableHlo.after_of_writes_sub hostOps1_2 _ hostOps1_2_writes (by decide)
    _ = W3 m ρ c (Proc.devRef .tc main_v19) := StableHlo.after_of_writes_sub hostOps1_1 _ hostOps1_1_writes (by decide)
    _ = W2 m ρ c (Proc.devRef .tc main_v19) := StableHlo.after_of_writes_sub hostOps1 _ hostOps1_writes (by decide)
    _ = (dat0 (V1 m ρ) c).arrAt 0 cfg0.N := W2_arr m ρ c 0
    _ = V1 m ρ c main_v19 := ((dat0 (V1 m ρ) c).arrAt_in 0 rfl _).trans (A_eq0 (V1 m ρ) c 0)

/-- The adjacency the second region finds. -/
theorem adj_eq (c : Dev nD) : adjV1 (V5 m ρ) c = Cert.RefValue.adjK (m ((c : Thread nD τ).loc main_arg4)) :=
  (W5_adj m ρ c).trans (W1_adj m ρ c)

/-- The degree column the first region leaves. -/
theorem deg_eq (c : Dev nD) : (W2 m ρ c (Proc.devRef .tc main_v20) : FVec Ideal S8192x1 .f32)
    = Cert.Spec.degK (Cert.RefValue.adjK (m ((c : Thread nD τ).loc main_arg4))) :=
  calc (W2 m ρ c (Proc.devRef .tc main_v20) : FVec Ideal S8192x1 .f32)
    _ = (dat0 (V1 m ρ) c).arrAt 1 cfg0.N := W2_arr m ρ c 1
    _ = Cert.Spec.degK (adjV (V1 m ρ) c) := final0 (V1 m ρ) c
    _ = _ := congrArg Cert.Spec.degK (W1_adj m ρ c)

theorem dis_eq (c : Dev nD) : disV (V5 m ρ) c = Cert.Spec.disK (Cert.Spec.degK (Cert.RefValue.adjK (m ((c : Thread nD τ).loc main_arg4)))) :=
  (W5_dis m ρ c).trans (congrArg Cert.Spec.disK (deg_eq m ρ c))

theorem xs_eq (c : Dev nD) : xsV (V5 m ρ) c
    = Cert.Spec.xsK (Cert.Spec.disK (Cert.Spec.degK (Cert.RefValue.adjK (m ((c : Thread nD τ).loc main_arg4))))) (m ((c : Thread nD τ).loc main_arg0)) :=
  (W5_xs m ρ c).trans (congrArg (fun d => Cert.Spec.xsK d (m ((c : Thread nD τ).loc main_arg0))) (dis_eq m ρ c))

theorem w_eq (c : Dev nD) : wV (V5 m ρ) c = m ((c : Thread nD τ).loc main_arg1) :=
  W5_of_launch m ρ c main_arg1 (by decide) (by decide) (by decide) (by decide) (by decide)

/-- THE RESULT of the idealized kernel program: the specification's function of the argument arrays. -/
theorem kernel_result (c : Dev nD) : (W6 m ρ c (Proc.devRef .tc main_v32) : S8192x256.Idx → EReal)
    = Cert.Spec.kernelOut (Cert.RefValue.adjK (m ((c : Thread nD τ).loc main_arg4))) (m ((c : Thread nD τ).loc main_arg0))
        (m ((c : Thread nD τ).loc main_arg1)) (m ((c : Thread nD τ).loc main_arg2)) (m ((c : Thread nD τ).loc main_arg3)) := by
  refine ((W6_arr m ρ c 6).trans (final1 (V5 m ρ) c)).trans ?_
  funext i
  unfold out1 Cert.Spec.kernelOut
  simp only [adj_eq m ρ c, dis_eq m ρ c, xs_eq m ρ c, w_eq m ρ c]
  have hbl : ∀ o : Fin 256, blV (V5 m ρ) c (ix2 (0 : Fin 1) o) = (m ((c : Thread nD τ).loc main_arg2) : FVec Ideal S256 .f32) (ix1 o) := W5_bl m ρ c
  have hbi : ∀ o : Fin 256, biV (V5 m ρ) c (ix2 (0 : Fin 1) o) = (m ((c : Thread nD τ).loc main_arg3) : FVec Ideal S256 .f32) (ix1 o) := W5_bi m ρ c
  rw [hbl, hbi]

end Cert.KernelIdeal.Hand

end
-- ==== Proof.Algebra.lean ====
/- The algebra: both closed forms are finite reals, where the distributive law holds. -/
import proofs.«114961_j26431228739923_2_alg».proof.Proof.Spec
import Idealize.ShloMosaic.Lib.Pipeline.Value

noncomputable section

open scoped BigOperators

namespace Cert.Spec

open Idealize.ShloMosaic Idealize.ShloMosaic.ValueIdx

/-! ## Over the reals, on finite index types -/

section Abstract
variable {ι κ : Type} [Fintype ι] [Fintype κ]

/-- The inner identity: a normalised sum with self loops, against the scaled sum plus the scaled own row. -/
theorem real_inner (a δ d : ι → ℝ) (x : ι → ℝ) (dr xr : ℝ) (hδ : ∑ j, δ j * (d j * x j) = dr * xr) :
    ((∑ j, a j * (d j * x j)) + dr * xr) * dr = ∑ j, ((dr * (a j + δ j)) * d j) * x j := by
  have h : ∀ j, ((dr * (a j + δ j)) * d j) * x j = dr * (a j * (d j * x j)) + dr * (δ j * (d j * x j)) := by
    intro j; ring
  simp only [h, Finset.sum_add_distrib, ← Finset.mul_sum, hδ]
  ring

/-- A finite sum of real coercions is the coercion of the sum. -/
theorem coe_sum (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- The identity on extended reals, all of whose entries are real. -/
theorem ereal_alg (a δ d : ι → ℝ) (x : ι → κ → ℝ) (W : κ → ℝ) (dr : ℝ) (xr : κ → ℝ)
    (hδ : ∀ c, ∑ j, δ j * (d j * x j c) = dr * xr c) :
    (∑ c, (((∑ j, (a j : EReal) * ((d j : EReal) * (x j c : EReal))) + (dr : EReal) * (xr c : EReal)) * (dr : EReal))
        * (W c : EReal))
      = ∑ c, (∑ j, (((dr : EReal) * ((a j : EReal) + (δ j : EReal))) * (d j : EReal)) * (x j c : EReal)) * (W c : EReal) := by
  simp only [← EReal.coe_mul, ← EReal.coe_add, coe_sum]
  refine congrArg _ (Finset.sum_congr rfl fun c _ => ?_)
  rw [real_inner a δ d (fun j => x j c) dr (xr c) (hδ c)]

end Abstract

/-! ## The inverse square root of a positive real degree -/

/-- At a positive real degree the selected value is the real `1 / √D`. -/
theorem dis_coe (D : ℝ) (hD : 0 < D) :
    Scalar.select (Ideal.cmp .ogt (D : EReal) zeroW) (Ideal.div oneW (Ideal.sqrt (D : EReal))) zeroW
      = ((1 / Real.sqrt D : ℝ) : EReal) := by
  have hs : Real.sqrt D ≠ 0 := (Real.sqrt_pos.mpr hD).ne'
  have hc : Ideal.cmp .ogt (D : EReal) zeroW = 1#1 := by
    rw [zeroW_eq]
    have : (0 : EReal) < (D : EReal) := by exact_mod_cast hD
    simp [Ideal.cmp, this]
  rw [hc, select_one, Ideal.sqrt_coe, if_neg (not_lt.mpr hD.le), Ideal.div_coe hs, oneW_eq, one_mul]

theorem disK_apply (deg : FVec Ideal Cert.KernelIdeal.S8192x1 .f32) (i : Cert.KernelIdeal.S8192x1.Idx) :
    disK deg i = Scalar.select (Ideal.cmp .ogt (deg i) zeroW) (Ideal.div oneW (Ideal.sqrt (deg i))) zeroW := rfl

theorem disR_apply (deg : FVec Ideal Cert.ReferenceIdeal.S8192 .f32) (i : Cert.ReferenceIdeal.S8192.Idx) :
    disR deg i = Scalar.select (Ideal.cmp .ogt (deg i) zeroW) (Ideal.div oneW (Ideal.sqrt (deg i))) zeroW := rfl

theorem xsK_apply (dis : FVec Ideal Cert.KernelIdeal.S8192x1 .f32) (x : FVec Ideal Cert.KernelIdeal.S8192x256 .f32)
    (j : Fin 8192) (c : Fin 256) : xsK dis x (ix2 j c) = dis (ix2 j (0 : Fin 1)) * x (ix2 j c) := by
  unfold xsK
  rw [mulf_apply]
  congr 1
  refine broadcastInDim_apply _ _ _ _ _ fun a => ?_
  match a with
  | ⟨0, _⟩ => rfl
  | ⟨1, _⟩ => rfl

/-! ## The two closed forms agree -/

/-- A 0/1-valued array has real entries, nonnegative. -/
theorem exists_real_of_zero_one (adj : Cert.KernelIdeal.S8192x8192.Idx → EReal) (hadj : ∀ i, adj i = 0 ∨ adj i = 1) :
    ∃ a : Fin 8192 → Fin 8192 → ℝ, (∀ r j, adj (ix2 r j) = (a r j : EReal)) ∧ ∀ r j, 0 ≤ a r j := by
  refine ⟨fun r j => (adj (ix2 r j)).toReal, fun r j => ?_, fun r j => ?_⟩
  · rcases hadj (ix2 r j) with h | h <;> simp [h]
  · rcases hadj (ix2 r j) with h | h <;> simp [h]

/-- An array of real entries is the coercion of a real array. -/
theorem exists_real_of_finite {n0 n1 : Nat} (x : (⟨2, ![n0, n1]⟩ : Shape).Idx → EReal) (hx : ∀ i, ∃ r : ℝ, x i = (r : EReal)) :
    ∃ xr : Fin n0 → Fin n1 → ℝ, ∀ j c, x (ix2 j c) = (xr j c : EReal) := by
  refine ⟨fun j c => (x (ix2 j c)).toReal, fun j c => ?_⟩
  obtain ⟨t, ht⟩ := hx (ix2 j c)
  simp [ht]

theorem kernelOut_eq_refOut (adj : Cert.KernelIdeal.S8192x8192.Idx → EReal) (hadj : ∀ i, adj i = 0 ∨ adj i = 1)
    (x : FVec Ideal Cert.KernelIdeal.S8192x256 .f32) (W : FVec Ideal Cert.KernelIdeal.S256x256 .f32)
    (bl bi : FVec Ideal Cert.KernelIdeal.S256 .f32)
    (hx : ∀ i, ∃ r : ℝ, x i = (r : EReal)) (hW : ∀ i, ∃ r : ℝ, W i = (r : EReal)) :
    kernelOut adj x W bl bi
      = refOut (fun i => adj i + (if (i 0).val = (i 1).val then (1 : EReal) else 0)) x W bl bi := by
  classical
  obtain ⟨a, ha, ha0⟩ := exists_real_of_zero_one adj hadj
  obtain ⟨xr, hxr⟩ := exists_real_of_finite x hx
  obtain ⟨Wr, hWr⟩ := exists_real_of_finite W hW
  -- the degree: a real, at least one
  obtain ⟨D, hDdef⟩ : ∃ D : Fin 8192 → ℝ, ∀ r, D r = (∑ j, a r j) + 1 := ⟨_, fun _ => rfl⟩
  have hD : ∀ r, 0 < D r := fun r => by
    rw [hDdef]; exact add_pos_of_nonneg_of_pos (Finset.sum_nonneg fun j _ => ha0 r j) one_pos
  obtain ⟨d, hddef⟩ : ∃ d : Fin 8192 → ℝ, ∀ r, d r = 1 / Real.sqrt (D r) := ⟨_, fun _ => rfl⟩
  obtain ⟨δ, hδdef⟩ : ∃ δ : Fin 8192 → Fin 8192 → ℝ, ∀ r j, δ r j = if r = j then 1 else 0 := ⟨_, fun _ _ => rfl⟩
  -- the first form's degree and scaling
  have hdegK : ∀ r : Fin 8192, degK adj (ix2 r (0 : Fin 1)) = (D r : EReal) := by
    intro r
    show (∑ j : Fin 8192, adj (ix2 r j)) + oneW = _
    simp only [ha, coe_sum, oneW_eq, hDdef, EReal.coe_add, EReal.coe_one]
  have hdK : ∀ r : Fin 8192, disK (degK adj) (ix2 r (0 : Fin 1)) = (d r : EReal) := by
    intro r; rw [disK_apply, hdegK, hddef]; exact dis_coe _ (hD r)
  -- the second form's
  obtain ⟨adj1, hadj1def⟩ : ∃ adj1 : Cert.KernelIdeal.S8192x8192.Idx → EReal,
      adj1 = fun i => adj i + (if (i 0).val = (i 1).val then (1 : EReal) else 0) := ⟨_, rfl⟩
  have hadj1 : ∀ r j : Fin 8192, adj1 (ix2 r j) = (a r j : EReal) + (δ r j : EReal) := by
    intro r j
    rw [hadj1def, hδdef]
    show adj (ix2 r j) + (if r.val = j.val then (1 : EReal) else 0) = _
    rw [ha]
    by_cases h : r = j
    · rw [if_pos (congrArg Fin.val h), if_pos h, EReal.coe_one]
    · rw [if_neg (fun h' => h (Fin.ext h')), if_neg h, EReal.coe_zero]
  have hδsum : ∀ (r : Fin 8192) (f : Fin 8192 → ℝ), ∑ j, δ r j * f j = f r := by
    intro r f
    simp only [hδdef, ite_mul, one_mul, zero_mul, Finset.sum_ite_eq, Finset.mem_univ, if_true]
  have hdegR : ∀ r : Fin 8192, degR adj1 (ix1 r) = (D r : EReal) := by
    intro r
    show zeroW + ∑ j : Fin 8192, adj1 (ix2 r j) = _
    have h1 : ∑ j, δ r j = 1 := by simpa using hδsum r (fun _ => 1)
    simp only [hadj1, ← EReal.coe_add, coe_sum, zeroW_eq, zero_add, hDdef, Finset.sum_add_distrib, h1]
  have hdR : ∀ r : Fin 8192, disR (degR adj1) (ix1 r) = (d r : EReal) := by
    intro r; rw [disR_apply, hdegR, hddef]; exact dis_coe _ (hD r)
  rw [← hadj1def]
  funext i
  obtain ⟨r, o, rfl⟩ : ∃ r o, i = ix2 r o := ⟨i 0, i 1, eq_ix2 i⟩
  show ((∑ c : Fin 256, (((∑ j : Fin 8192, adj (ix2 r j) * xsK (disK (degK adj)) x (ix2 j c))
          + xsK (disK (degK adj)) x (ix2 r c)) * disK (degK adj) (ix2 r (0 : Fin 1))) * W (ix2 o c)) + bl (ix1 o)) + bi (ix1 o)
      = ((∑ c : Fin 256, (∑ j : Fin 8192, ((disR (degR adj1) (ix1 r) * adj1 (ix2 r j)) * disR (degR adj1) (ix1 j))
          * x (ix2 j c)) * W (ix2 o c)) + bl (ix1 o)) + bi (ix1 o)
  congr 2
  simp only [xsK_apply, hdK, hdR, ha, hxr, hWr, hadj1]
  exact ereal_alg (a r) (δ r) d xr (Wr o) (d r) (xr r) (fun c => hδsum r fun j => d j * xr j c)

end Cert.Spec

end
-- ==== Proof.Finite.lean ====
/- From the stated precondition to "every entry of the four float inputs is a real". -/
import proofs.«114961_j26431228739923_2_alg».proof.Pre_finite_inputs
import Idealize.ShloMosaic.Lib.ValueIdx
import Idealize.ShloMosaic.Lib.ReduceAll
import Idealize.ShloMosaic.PureOps.Ideal

noncomputable section

namespace Cert.Spec

open Idealize.ShloMosaic Idealize.ShloMosaic.ValueIdx

/-- The scalar shape has one index. -/
instance subsingleton_scalar_idx : Subsingleton Cert.Pre_finite_inputs.S_.Idx :=
  ⟨fun a b => funext fun d => d.elim0⟩

/-- The single-precision infinity word is the top element. -/
theorem infW_eq : Ideal.ofBits .f32 0x7F800000#32 = (⊤ : EReal) := by
  simp [Ideal.ofBits, Ideal.ieee]

/-- An extended real whose absolute value is below infinity is a real. -/
theorem real_of_abs_lt_inf (x : EReal)
    (h : Ideal.cmp .olt (max x (-x)) (Ideal.ofBits .f32 0x7F800000#32) = 1#1) : ∃ r : ℝ, x = (r : EReal) := by
  rw [infW_eq] at h
  induction x using EReal.rec with
  | bot => simp [Ideal.cmp] at h
  | coe r => exact ⟨r, rfl⟩
  | top => simp [Ideal.cmp] at h

open Cert.Pre_finite_inputs in
/-- The precondition says every entry of the four float inputs is finite. -/
theorem finite_of_pre [Cert.Pre_finite_inputs.Facts]
    (x : FVec Ideal S8192x256 .f32) (W : FVec Ideal S256x256 .f32) (bl bi : FVec Ideal S256 .f32)
    (e : IVec S2x131072 32)
    (h : Cert.Pre_finite_inputs.fn (F := Ideal) x W bl bi e = fun _ => 1#1) :
    (∀ i, ∃ r : ℝ, x i = (r : EReal)) ∧ (∀ i, ∃ r : ℝ, W i = (r : EReal))
      ∧ (∀ i, ∃ r : ℝ, bl i = (r : EReal)) ∧ (∀ i, ∃ r : ℝ, bi i = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)
  · exact real_of_abs_lt_inf _ (Host.reduce_andi_all _ _ _ _ _ h4 i)

end Cert.Spec

end
-- ==== Proof.lean ====
/-
  The certificate of a dense-adjacency graph convolution: two Pallas kernels (the row degrees of a 0/1 adjacency matrix,
  summed in eight column blocks, plus one; then, per row block, the products of adjacency blocks with the scaled feature
  rows accumulated over eight column blocks, the row block's own scaled rows added where the column block is the row
  block, the post-scaling by the inverse square-root degrees and the linear layer) against jnp's reference, which adds
  the identity to the adjacency, normalizes it on both sides and multiplies.

  The three frames: each kernel program runs region by region — the accumulator a kernel carries from one grid point to
  the next rides the region's invariant — and its argument arrays end as launched (KB/ at the word-level instance, KI/ at
  the exact one); the reference's frame is its run with the result dropped. The ideal pass rewrote nothing, so
  `preserves` is `True`. For `algebraic`: at the exact instance the kernel program's result array is the specification's
  `kernelOut` of the arguments (KI/Result.lean), the reference's is `refOut` of them with the identity added to the
  adjacency (RefValue.lean, RefAdj.lean), the two adjacencies agree entrywise with entries 0 or 1, and, the features and
  the weights being finite, the degrees are finite reals ≥ 1 and distributivity joins the two forms (Algebra.lean).
-/
import proofs.«114961_j26431228739923_2_alg».proof.Defs
import proofs.«114961_j26431228739923_2_alg».proof.Proof.Gen.Kernel
import proofs.«114961_j26431228739923_2_alg».proof.Proof.Gen.KernelIdeal
import proofs.«114961_j26431228739923_2_alg».proof.Proof.Gen.ReferenceIdeal
import proofs.«114961_j26431228739923_2_alg».proof.Proof.Gen.Pre_finite_inputs
import proofs.«114961_j26431228739923_2_alg».proof.Proof.KB.Args
import proofs.«114961_j26431228739923_2_alg».proof.Proof.KI.Args
import proofs.«114961_j26431228739923_2_alg».proof.Proof.KI.Result
import proofs.«114961_j26431228739923_2_alg».proof.Proof.RefRun
import proofs.«114961_j26431228739923_2_alg».proof.Proof.RefValue
import proofs.«114961_j26431228739923_2_alg».proof.Proof.RefAdj
import proofs.«114961_j26431228739923_2_alg».proof.Proof.Algebra
import proofs.«114961_j26431228739923_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame_any (F := Bits) m ρ

theorem frame_ki : Cert.frame_KernelIdeal := fun m ρ _ => Cert.KernelIdeal.Hand.frame_any (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the exact instance the kernel program's result array ends at `kernelOut` of the arguments and the reference's at
    `refOut` of arguments that agree, the identity added to the adjacency: one function, the inputs being finite. -/
theorem algebraic : Cert.algebraic_KernelIdeal_ReferenceIdeal := by
  intro m ρ m' ρ' hpre hagree
  refine ⟨fun c => Cert.Spec.kernelOut (Cert.RefValue.adjK (m ((c.tc : Thread Cert.KernelIdeal.nD Cert.KernelIdeal.τ).loc Cert.KernelIdeal.main_arg4)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Hand.mem_uc Cert.KernelIdeal.main_v32 (by decide))).trans (Cert.KernelIdeal.Hand.kernel_result m ρ c),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.ValueP.run (F := Ideal) m' ρ')
    rw [Cert.RefValue.refResult_eq m' c, (hagree c).1, (hagree c).2.1, (hagree c).2.2.1, (hagree c).2.2.2.1, (hagree c).2.2.2.2]
    obtain ⟨hx, hW, -, -⟩ := Cert.Spec.finite_of_pre _ _ _ _ _ (hpre c)
    refine Eq.trans ?_ (Cert.Spec.kernelOut_eq_refOut _ (Cert.RefValue.adjK_01 _) _ _ _ _ hx hW).symm
    refine congrArg (fun a => Cert.Spec.refOut a _ _ _ _) (funext fun i => ?_)
    rw [Cert.RefValue.adj1R_eq, Cert.RefValue.adjK_eq_adjR]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
